-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x4096 : Shape := ⟨2, ![4096, 4096]⟩
abbrev S128x128 : Shape := ⟨2, ![128, 128]⟩
abbrev S128 : Shape := ⟨1, ![128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S4096x128 .f32) (main_arg1 : FVec F S4096x4096 .f32) (main_arg2 : FVec F S128x128 .f32) (main_arg3 : FVec F S128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S4096x128 : Shape := ⟨2, ![4096, 128]⟩
abbrev S4096x4096 : Shape := ⟨2, ![4096, 4096]⟩
abbrev S128x128 : Shape := ⟨2, ![128, 128]⟩
abbrev S128 : Shape := ⟨1, ![128]⟩
abbrev S1x128 : Shape := ⟨2, ![1, 128]⟩
abbrev S256x4096 : Shape := ⟨2, ![256, 4096]⟩
abbrev S256 : Shape := ⟨1, ![256]⟩
abbrev S256x1 : Shape := ⟨2, ![256, 1]⟩
abbrev S256x128 : Shape := ⟨2, ![256, 128]⟩
abbrev S4096x256 : Shape := ⟨2, ![4096, 256]⟩

abbrev nBuf : Space → Nat
  | .hbm => 6
  | .vmem => 11
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S4096x128, .f32⟩
  | .local _ .vmem, ⟨0, _⟩ => ⟨S256x4096, .f32⟩
  | .local _ .vmem, ⟨1, _⟩ => ⟨S256x4096, .f32⟩
  | .local _ .vmem, ⟨2, _⟩ => ⟨S4096x128, .f32⟩
  | .local _ .vmem, ⟨3, _⟩ => ⟨S128x128, .f32⟩
  | .local _ .vmem, ⟨4, _⟩ => ⟨S1x128, .f32⟩
  | .local _ .vmem, ⟨5, _⟩ => ⟨S4096x128, .f32⟩
  | .local _ .vmem, ⟨6, _⟩ => ⟨S4096x4096, .bf16⟩
  | .local _ .vmem, ⟨7, _⟩ => ⟨S4096x128, .f32⟩
  | .local _ .vmem, ⟨8, _⟩ => ⟨S4096x128, .f32⟩
  | .local _ .vmem, ⟨9, _⟩ => ⟨S4096x128, .bf16⟩
  | .local _ .vmem, ⟨10, _⟩ => ⟨S4096x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c256_i32 : BitVec 32 := 256#32
  let v0 : BitVec 32 := Scalar.muli arg0 c256_i32
  let v16 : Index := Scalar.indexCast v0
  let c0_5 : Index := 0#32
  ![v16.toNat, 0]
def k0_off2 (i : grid0.Coords) : Fin 2 → Nat :=
  let c0_10 : Index := 0#32
  let arg0 : BitVec 32 := BitVec.ofNat 32 (i 0).val
  let c256_i32_0 : BitVec 32 := 256#32
  let v1 : BitVec 32 := Scalar.muli arg0 c256_i32_0
  let v29 : Index := Scalar.indexCast v1
  ![0, v29.toNat]
def k0_off3 (i : grid0.Coords) : Fin 2 → Nat :=
  let arg0 : BitVec 32 := BitVec.ofNat 32 (i 0).val
  let c256_i32 : BitVec 32 := 256#32
  let v0 : BitVec 32 := Scalar.muli arg0 c256_i32
  let v37 : Index := Scalar.indexCast v0
  let c0_14 : Index := 0#32
  ![v37.toNat, 0]
def k0_cond2 (i : grid0.Coords) : BitVec 1 :=
  let arg0 : BitVec 32 := BitVec.ofNat 32 (i 0).val
  let c15_i32 : BitVec 32 := 15#32
  let v49 : BitVec 1 := Scalar.cmpi .eq arg0 c15_i32
  let v50 : BitVec 32 := Scalar.extui v49
  let c0_i32_20 : BitVec 32 := 0#32
  let v51 : BitVec 1 := Scalar.cmpi .ne v50 c0_i32_20
  v51

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  inb_S128x128_S128x128_0_0 : ∀ a, (![0, 0] : Fin 2 → Nat) a + S128x128.size a ≤ S128x128.size a
  h_S128x128 : 0 < S128x128.numel
  shapeCasts_S4096x128_S4096x128 : S4096x128.ShapeCasts S4096x128
  packedbf16_S4096x128_S4096x128_0_0 : (Rect.unit (s := S4096x128) ![0, 0] S4096x128.size inb_S4096x128_S4096x128_0_0).PackedRows (EltTy.packing .bf16)
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  shapeCasts_S256x1_S256x1 : S256x1.ShapeCasts S256x1
  broadcasts_S256x1_S256x128 : S256x1.Broadcasts S256x128
  h_S256x128 : 0 < S256x128.numel
  shapeCasts_S256x128_S256x128 : S256x128.ShapeCasts S256x128
  bitsLt_bf16_f32 : FTy.bits .bf16 < FTy.bits .f32
  h_S4096x256 : 0 < S4096x256.numel
  shapeCasts_S256x4096_S256x4096 : S256x4096.ShapeCasts S256x4096
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  dot_S4096x128_S128x128_S4096x128_1_0_0_1_n_n_wf : DotDims.WF S4096x128 S128x128 S4096x128 [1] [0] [0] [1] [] []
  dot_S4096x256_S256x128_S4096x128_1_0_0_1_n_n_wf : DotDims.WF S4096x256 S256x128 S4096x128 [1] [0] [0] [1] [] []
  dot_S256x4096_S4096x128_S256x128_1_0_0_1_n_n_wf : DotDims.WF S256x4096 S4096x128 S256x128 [1] [0] [0] [1] [] []
  hrank0 : 0 < grid0.rank
  k0_off1_inb : ∀ i : grid0.Coords, ∀ a, (k0_off1 i) a + S256x128.size a ≤ S4096x128.size a
  k0_off1_packedbf16 : ∀ i : grid0.Coords, (Rect.unit (s := S4096x128) (k0_off1 i) S256x128.size (k0_off1_inb i)).PackedRows (EltTy.packing .bf16)
  k0_off2_inb : ∀ i : grid0.Coords, ∀ a, (k0_off2 i) a + S4096x256.size a ≤ S4096x4096.size a
  k0_off3_inb : ∀ i : grid0.Coords, ∀ a, (k0_off3 i) a + S256x4096.size a ≤ S4096x4096.size a
  k0_off3_packedbf16 : ∀ i : grid0.Coords, (Rect.unit (s := S4096x4096) (k0_off3 i) S256x4096.size (k0_off3_inb i)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x128.size a
  hwx0_1 : ∀ i : grid0.Coords, EltTy.bits .f32 = 32 ∨ (Rect.block (s := S4096x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S4096x128.size a
  hwx0_4 : ∀ i : grid0.Coords, EltTy.bits .f32 = 32 ∨ (Rect.block (s := S4096x128) S4096x128.size (cc0_transform_4 i) (hinb0_4 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S4096x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x128 : Shape := ⟨2, ![4096, 128]⟩
abbrev S4096x4096 : Shape := ⟨2, ![4096, 4096]⟩
abbrev S128x128 : Shape := ⟨2, ![128, 128]⟩
abbrev S128 : Shape := ⟨1, ![128]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S1x128 : Shape := ⟨2, ![1, 128]⟩

abbrev nBuf : Space → Nat
  | .hbm => 28
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .i1⟩
  | .hbm, ⟨13, _⟩ => ⟨S_, .f32⟩
  | .hbm, ⟨14, _⟩ => ⟨S_, .f32⟩
  | .hbm, ⟨15, _⟩ => ⟨S4096, .f32⟩
  | .hbm, ⟨16, _⟩ => ⟨S4096, .f32⟩
  | .hbm, ⟨17, _⟩ => ⟨S4096x1, .f32⟩
  | .hbm, ⟨18, _⟩ => ⟨S4096x4096, .f32⟩
  | .hbm, ⟨19, _⟩ => ⟨S4096x4096, .f32⟩
  | .hbm, ⟨20, _⟩ => ⟨S1x4096, .f32⟩
  | .hbm, ⟨21, _⟩ => ⟨S4096x4096, .f32⟩
  | .hbm, ⟨22, _⟩ => ⟨S4096x4096, .f32⟩
  | .hbm, ⟨23, _⟩ => ⟨S4096x128, .f32⟩
  | .hbm, ⟨24, _⟩ => ⟨S4096x128, .f32⟩
  | .hbm, ⟨25, _⟩ => ⟨S1x128, .f32⟩
  | .hbm, ⟨26, _⟩ => ⟨S4096x128, .f32⟩
  | .hbm, ⟨27, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_v3 : Ref sig .tc := ⟨.hbm, 12, rfl⟩
abbrev main_cst_1 : Ref sig .tc := ⟨.hbm, 13, rfl⟩
abbrev main_call1_v0 : Ref sig .tc := ⟨.hbm, 14, rfl⟩
abbrev main_call1_v1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S_S4096 : S_.BroadcastsInDim S4096 (![] : Fin 0 → Fin S4096.rank)
  shapeCasts_S4096_S4096x1 : S4096.ShapeCasts S4096x1
  bcast_S4096x1_S4096x4096_0_1 : S4096x1.BroadcastsInDim S4096x4096 (![0, 1] : Fin 2 → Fin S4096x4096.rank)
  shapeCasts_S4096_S1x4096 : S4096.ShapeCasts S1x4096
  bcast_S1x4096_S4096x4096_0_1 : S1x4096.BroadcastsInDim S4096x4096 (![0, 1] : Fin 2 → Fin S4096x4096.rank)
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  dot_S4096x128_S128x128_S4096x128_1_0_0_1_n_n_wf : DotDims.WF S4096x128 S128x128 S4096x128 [1] [0] [0] [1] [] []
  dot_S4096x4096_S4096x128_S4096x128_1_0_0_1_n_n_wf : DotDims.WF S4096x4096 S4096x128 S4096x128 [1] [0] [0] [1] [] []

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf

class Facts : Prop extends Facts₀ where

variable [Facts]
-- ==== Proof.KCommon.lean ====
/-
  The kernel body's five scratch buffers and its two branch conditions, named once for the three runs of the body.
  The scratches, whole: the cached copy of the adjacency rows seen so far (4096 x 4096), the inverse square roots of the
  row sums broadcast along the lanes (4096 x 128), the product of the features with the weights (4096 x 128), that
  product scaled row by row by the inverse square roots (4096 x 128, zero on the rows not yet seen), and the
  accumulator of the aggregation (4096 x 128). The grid has sixteen points, one per block of 256 adjacency rows;
  the first branch is taken at point 0 only, the second at point 15 only.
-/
import proofs.«131481_g28355374088416_cont_9to1_157_9_alg».proof.Proof.Gen.Kernel.Launch
import proofs.«131481_g28355374088416_cont_9to1_157_9_alg».proof.Proof.Gen.Kernel.Skeleton
import proofs.«131481_g28355374088416_cont_9to1_157_9_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The cached adjacency rows. -/
abbrev scA : Memref sig .tc .vmem S4096x4096 .bf16 := Memref.whole cc0_scratch0
/-- The inverse square roots of the row sums, lane-broadcast. -/
abbrev scD : Memref sig .tc .vmem S4096x128 .f32 := Memref.whole cc0_scratch1
/-- Features times weights. -/
abbrev scH : Memref sig .tc .vmem S4096x128 .f32 := Memref.whole cc0_scratch2
/-- The scaled product, zero on rows not yet seen. -/
abbrev scS : Memref sig .tc .vmem S4096x128 .bf16 := Memref.whole cc0_scratch3
/-- The accumulator. -/
abbrev scC : Memref sig .tc .vmem S4096x128 .f32 := Memref.whole cc0_scratch4

/-- "This is grid point 0", as the body computes it from the grid coordinate. -/
abbrev IsFirst (i : grid0.Coords) : Prop :=
  (Scalar.cmpi .ne (Scalar.extui (Scalar.cmpi .eq (BitVec.ofNat 32 (i 0).val) 0#32)) 0#32) = 1#1
/-- "This is grid point 15". -/
abbrev IsLast (i : grid0.Coords) : Prop := k0_cond2 i = 1#1

/-- The first branch is taken at point 0 only, the second at point 15 only. -/
theorem isFirst_iff : ∀ t : Fin cfg0.N, IsFirst (grid0.coords t) ↔ t.val = 0 :=
  (by decide +kernel : ∀ t : Fin grid0.N, IsFirst (grid0.coords t) ↔ t.val = 0)
theorem isLast_iff : ∀ t : Fin cfg0.N, IsLast (grid0.coords t) ↔ t.val = 15 :=
  (by decide +kernel : ∀ t : Fin grid0.N, IsLast (grid0.coords t) ↔ t.val = 15)

end Cert.Kernel.Body

end
-- ==== Proof.KMid.lean ====
/-
  The kernel body at a middle grid point (neither branch taken), run on whole staging buffers and the five scratches at
  named contents: the row block is summed and its inverse square roots stored into their slice, the scaled feature rows
  into theirs, the accumulator is read whole, increased by the product of the cached column block with the scaled rows and
  stored whole, the adjacency rows are cached, and the accumulator's slice for this row block is overwritten by the product
  of the cached rows with the whole scaled matrix. What each scratch holds afterwards is its contents with the stores
  written over them, piece by piece (last first); the pieces are found by the run itself.
-/
import proofs.«131481_g28355374088416_cont_9to1_157_9_alg».proof.Proof.Gen.Kernel.Launch
import proofs.«131481_g28355374088416_cont_9to1_157_9_alg».proof.Proof.Gen.Kernel.Skeleton
import proofs.«131481_g28355374088416_cont_9to1_157_9_alg».proof.Proof.Gen.Kernel.Points
import proofs.«131481_g28355374088416_cont_9to1_157_9_alg».proof.Proof.KCommon
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runMid (c : Dev nD) (i : grid0.Coords) (arg1 : Memref sig .tc .vmem S256x4096 .f32) (harg1 : arg1.IsWhole) (arg2 : Memref sig .tc .vmem S4096x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S4096x128 .f32) (harg5 : arg5.IsWhole)
    (hc0 : ¬IsFirst i) (hc1 : ¬IsLast i)
    (x1 : Vec F S256x4096 .f32) (x2 : Vec F S4096x128 .f32) (x3 : Vec F S128x128 .f32) (x4 : Vec F S1x128 .f32)
    (sA : Vec F S4096x4096 .bf16) (sD sH : Vec F S4096x128 .f32) (sS : Vec F S4096x128 .bf16) (sC : Vec F S4096x128 .f32) :
    Σ' (LA : List (View.Piece (Elt F) S4096x4096 .bf16)) (LD : List (View.Piece (Elt F) S4096x128 .f32)) (LS : List (View.Piece (Elt F) S4096x128 .bf16)),
    { LC : List (View.Piece (Elt F) S4096x128 .f32) //
      ∀ (xi5 : Vec F S4096x128 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare xi5
            ∗ owns (c : Thread nD τ) scA fullShare sA ∗ owns (c : Thread nD τ) scD fullShare sD ∗ owns (c : Thread nD τ) scH fullShare sH ∗ owns (c : Thread nD τ) scS fullShare sS ∗ owns (c : Thread nD τ) scC fullShare sC
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare xi5
                ∗ (∃ f, scA.view.loc (c : Thread nD τ) ↦[scA.view.set]{fullShare} scA.view.writes (Elt F) f LA)
                ∗ (∃ f, scD.view.loc (c : Thread nD τ) ↦[scD.view.set]{fullShare} scD.view.writes (Elt F) f LD)
                ∗ owns (c : Thread nD τ) scH fullShare sH
                ∗ (∃ f, scS.view.loc (c : Thread nD τ) ↦[scS.view.set]{fullShare} scS.view.writes (Elt F) f LS)
                ∗ (∃ f, scC.view.loc (c : Thread nD τ) ↦[scC.view.set]{fullShare} scC.view.writes (Elt F) f LC)) -∗ K ⟨⟩))
          ⊢ wp frame (wpE (defs₀ (F := F)) Variants.none c none) E (cc0__fused i arg1 harg1 arg2 harg2 arg3 harg3 arg4 harg4 arg5 harg5 scA (Memref.isWhole_whole _) scD (Memref.isWhole_whole _) scH (Memref.isWhole_whole _) scS (Memref.isWhole_whole _) scC (Memref.isWhole_whole _)) K } := by
  refine ⟨?_, ?_, ?_, ?_, fun xi5 E K => ?run⟩
  case run =>
    simp only [cc0__fused_eq_skeleton]; unfold cc0__fused_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%fA, %hfA, HA⟩, ⟨%fD, %hfD, HD⟩, ⟨%fH, %hfH, HH⟩, ⟨%fS, %hfS, HS⟩, ⟨%fC, %hfC, HC⟩, Hk⟩
    obtain rfl := harg1.eq_unread hf1; obtain rfl := harg2.eq_unread hf2; obtain rfl := harg3.eq_unread hf3; obtain rfl := harg4.eq_unread hf4; obtain rfl := harg5.eq_unread hf5
    obtain rfl := (Memref.isWhole_whole cc0_scratch0).eq_unread hfA; obtain rfl := (Memref.isWhole_whole cc0_scratch1).eq_unread hfD
    obtain rfl := (Memref.isWhole_whole cc0_scratch2).eq_unread hfH; obtain rfl := (Memref.isWhole_whole cc0_scratch3).eq_unread hfS
    obtain rfl := (Memref.isWhole_whole cc0_scratch4).eq_unread hfC
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [HA]; · iexists _; iexact HA
    isplitl [HD]; · iexists _; iexact HD
    isplitl [HH]
    · iexists _; isplitr; · ipureintro; exact (Memref.isWhole_whole cc0_scratch2).read_unread _
      iexact HH
    isplitl [HS]; · iexists _; iexact HS
    iexists _; iexact HC

end Cert.Kernel.Body

end
-- ==== Proof.KFirst.lean ====
/-
  The kernel body at grid point 0 (the first branch taken, the second not), run on whole staging buffers and the five
  scratches at whatever they hold: the product of the features with the weights is stored whole, the scaled matrix is
  zeroed whole, and then the point goes on as any other — so the accumulator and the cached adjacency are READ before
  anything was stored into them, and what those reads return is whatever the scratches held. The pieces the stores leave
  are found by the run.
-/
import proofs.«131481_g28355374088416_cont_9to1_157_9_alg».proof.Proof.Gen.Kernel.Launch
import proofs.«131481_g28355374088416_cont_9to1_157_9_alg».proof.Proof.Gen.Kernel.Skeleton
import proofs.«131481_g28355374088416_cont_9to1_157_9_alg».proof.Proof.Gen.Kernel.Points
import proofs.«131481_g28355374088416_cont_9to1_157_9_alg».proof.Proof.KCommon
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runFirst (c : Dev nD) (i : grid0.Coords) (arg1 : Memref sig .tc .vmem S256x4096 .f32) (harg1 : arg1.IsWhole) (arg2 : Memref sig .tc .vmem S4096x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S4096x128 .f32) (harg5 : arg5.IsWhole)
    (hc0 : IsFirst i) (hc1 : ¬IsLast i)
    (x1 : Vec F S256x4096 .f32) (x2 : Vec F S4096x128 .f32) (x3 : Vec F S128x128 .f32) (x4 : Vec F S1x128 .f32)
    (sA : Vec F S4096x4096 .bf16) (sD sH : Vec F S4096x128 .f32) (sS : Vec F S4096x128 .bf16) (sC : Vec F S4096x128 .f32) :
    Σ' (LA : List (View.Piece (Elt F) S4096x4096 .bf16)) (LD : List (View.Piece (Elt F) S4096x128 .f32)) (LH : List (View.Piece (Elt F) S4096x128 .f32)) (LS : List (View.Piece (Elt F) S4096x128 .bf16)),
    { LC : List (View.Piece (Elt F) S4096x128 .f32) //
      ∀ (xi5 : Vec F S4096x128 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare xi5
            ∗ owns (c : Thread nD τ) scA fullShare sA ∗ owns (c : Thread nD τ) scD fullShare sD ∗ owns (c : Thread nD τ) scH fullShare sH ∗ owns (c : Thread nD τ) scS fullShare sS ∗ owns (c : Thread nD τ) scC fullShare sC
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare xi5
                ∗ (∃ f, scA.view.loc (c : Thread nD τ) ↦[scA.view.set]{fullShare} scA.view.writes (Elt F) f LA)
                ∗ (∃ f, scD.view.loc (c : Thread nD τ) ↦[scD.view.set]{fullShare} scD.view.writes (Elt F) f LD)
                ∗ (∃ f, scH.view.loc (c : Thread nD τ) ↦[scH.view.set]{fullShare} scH.view.writes (Elt F) f LH)
                ∗ (∃ f, scS.view.loc (c : Thread nD τ) ↦[scS.view.set]{fullShare} scS.view.writes (Elt F) f LS)
                ∗ (∃ f, scC.view.loc (c : Thread nD τ) ↦[scC.view.set]{fullShare} scC.view.writes (Elt F) f LC)) -∗ K ⟨⟩))
          ⊢ wp frame (wpE (defs₀ (F := F)) Variants.none c none) E (cc0__fused i arg1 harg1 arg2 harg2 arg3 harg3 arg4 harg4 arg5 harg5 scA (Memref.isWhole_whole _) scD (Memref.isWhole_whole _) scH (Memref.isWhole_whole _) scS (Memref.isWhole_whole _) scC (Memref.isWhole_whole _)) K } := by
  refine ⟨?_, ?_, ?_, ?_, ?_, fun xi5 E K => ?run⟩
  case run =>
    simp only [cc0__fused_eq_skeleton]; unfold cc0__fused_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%fA, %hfA, HA⟩, ⟨%fD, %hfD, HD⟩, ⟨%fH, %hfH, HH⟩, ⟨%fS, %hfS, HS⟩, ⟨%fC, %hfC, HC⟩, Hk⟩
    obtain rfl := harg1.eq_unread hf1; obtain rfl := harg2.eq_unread hf2; obtain rfl := harg3.eq_unread hf3; obtain rfl := harg4.eq_unread hf4; obtain rfl := harg5.eq_unread hf5
    obtain rfl := (Memref.isWhole_whole cc0_scratch0).eq_unread hfA; obtain rfl := (Memref.isWhole_whole cc0_scratch1).eq_unread hfD
    obtain rfl := (Memref.isWhole_whole cc0_scratch2).eq_unread hfH; obtain rfl := (Memref.isWhole_whole cc0_scratch3).eq_unread hfS
    obtain rfl := (Memref.isWhole_whole cc0_scratch4).eq_unread hfC
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [HA]; · iexists _; iexact HA
    isplitl [HD]; · iexists _; iexact HD
    isplitl [HH]; · iexists _; iexact HH
    isplitl [HS]; · iexists _; iexact HS
    iexists _; iexact HC

end Cert.Kernel.Body

end
-- ==== Proof.KLast.lean ====
/-
  The kernel body at grid point 15 (the second branch taken, the first not): a middle point's work, and then the result
  block is stored whole — the inverse square roots times the accumulator, plus the bias row broadcast down the rows.
  The pieces the stores leave, the result's staging buffer included, are found by the run.
-/
import proofs.«131481_g28355374088416_cont_9to1_157_9_alg».proof.Proof.Gen.Kernel.Launch
import proofs.«131481_g28355374088416_cont_9to1_157_9_alg».proof.Proof.Gen.Kernel.Skeleton
import proofs.«131481_g28355374088416_cont_9to1_157_9_alg».proof.Proof.Gen.Kernel.Points
import proofs.«131481_g28355374088416_cont_9to1_157_9_alg».proof.Proof.KCommon
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runLast (c : Dev nD) (i : grid0.Coords) (arg1 : Memref sig .tc .vmem S256x4096 .f32) (harg1 : arg1.IsWhole) (arg2 : Memref sig .tc .vmem S4096x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S4096x128 .f32) (harg5 : arg5.IsWhole)
    (hc0 : ¬IsFirst i) (hc1 : IsLast i)
    (x1 : Vec F S256x4096 .f32) (x2 : Vec F S4096x128 .f32) (x3 : Vec F S128x128 .f32) (x4 : Vec F S1x128 .f32)
    (sA : Vec F S4096x4096 .bf16) (sD sH : Vec F S4096x128 .f32) (sS : Vec F S4096x128 .bf16) (sC : Vec F S4096x128 .f32) :
    Σ' (L5 : List (View.Piece (Elt F) S4096x128 .f32)) (LA : List (View.Piece (Elt F) S4096x4096 .bf16)) (LD : List (View.Piece (Elt F) S4096x128 .f32)) (LS : List (View.Piece (Elt F) S4096x128 .bf16)),
    { LC : List (View.Piece (Elt F) S4096x128 .f32) //
      ∀ (xi5 : Vec F S4096x128 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare xi5
            ∗ owns (c : Thread nD τ) scA fullShare sA ∗ owns (c : Thread nD τ) scD fullShare sD ∗ owns (c : Thread nD τ) scH fullShare sH ∗ owns (c : Thread nD τ) scS fullShare sS ∗ owns (c : Thread nD τ) scC fullShare sC
            ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ f, arg5.view.loc (c : Thread nD τ) ↦[arg5.view.set]{fullShare} arg5.view.writes (Elt F) f L5)
                ∗ (∃ f, scA.view.loc (c : Thread nD τ) ↦[scA.view.set]{fullShare} scA.view.writes (Elt F) f LA)
                ∗ (∃ f, scD.view.loc (c : Thread nD τ) ↦[scD.view.set]{fullShare} scD.view.writes (Elt F) f LD)
                ∗ owns (c : Thread nD τ) scH fullShare sH
                ∗ (∃ f, scS.view.loc (c : Thread nD τ) ↦[scS.view.set]{fullShare} scS.view.writes (Elt F) f LS)
                ∗ (∃ f, scC.view.loc (c : Thread nD τ) ↦[scC.view.set]{fullShare} scC.view.writes (Elt F) f LC)) -∗ K ⟨⟩))
          ⊢ wp frame (wpE (defs₀ (F := F)) Variants.none c none) E (cc0__fused i arg1 harg1 arg2 harg2 arg3 harg3 arg4 harg4 arg5 harg5 scA (Memref.isWhole_whole _) scD (Memref.isWhole_whole _) scH (Memref.isWhole_whole _) scS (Memref.isWhole_whole _) scC (Memref.isWhole_whole _)) K } := by
  refine ⟨?_, ?_, ?_, ?_, ?_, fun xi5 E K => ?run⟩
  case run =>
    simp only [cc0__fused_eq_skeleton]; unfold cc0__fused_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%fA, %hfA, HA⟩, ⟨%fD, %hfD, HD⟩, ⟨%fH, %hfH, HH⟩, ⟨%fS, %hfS, HS⟩, ⟨%fC, %hfC, HC⟩, Hk⟩
    obtain rfl := harg1.eq_unread hf1; obtain rfl := harg2.eq_unread hf2; obtain rfl := harg3.eq_unread hf3; obtain rfl := harg4.eq_unread hf4; obtain rfl := harg5.eq_unread hf5
    obtain rfl := (Memref.isWhole_whole cc0_scratch0).eq_unread hfA; obtain rfl := (Memref.isWhole_whole cc0_scratch1).eq_unread hfD
    obtain rfl := (Memref.isWhole_whole cc0_scratch2).eq_unread hfH; obtain rfl := (Memref.isWhole_whole cc0_scratch3).eq_unread hfS
    obtain rfl := (Memref.isWhole_whole cc0_scratch4).eq_unread hfC
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [HA]; · iexists _; iexact HA
    isplitl [HD]; · iexists _; iexact HD
    isplitl [HH]
    · iexists _; isplitr; · ipureintro; exact (Memref.isWhole_whole cc0_scratch2).read_unread _
      iexact HH
    isplitl [HS]; · iexists _; iexact HS
    iexists _; iexact HC

end Cert.Kernel.Body

end
-- ==== Proof.KFrame.lean ====
/-
  The word-level program runs to the end, faults nowhere and leaves its four argument arrays as launched.

  The kernel region is a sixteen-point pipeline, one point per block of 256 adjacency rows: four inputs are staged in
  (the adjacency's row block, fetched at every point; the features, the weights and the bias row, fetched once), the
  result is staged out after the last point, and the body keeps five scratch buffers across the points, two of which it
  reads at point 0 before anything stored them. Nothing about values is claimed here, so the proof data names no
  contents the body computes. The invariant is the five scratches at some contents each and the generator register at
  some state, the same before every point. Each input's staging buffer holds its block before and after the body. The
  result's window is forgotten: handed to the body at some contents and taken back at some contents.

  The body's obligation at a point is the run of the point's kind (point 0, point 15, any other) between the
  invariant opened into the five scratches and closed again, what every store leaves forgotten at once. The launch
  then gives every input array at its entry contents and every unscoped buffer the region does not stage as the region
  found it; and the region finds the arguments as launched, since the one host operation before it, a reshape of the
  bias into a row, writes none of them.
-/
import proofs.«131481_g28355374088416_cont_9to1_157_9_alg».proof.Proof.Gen.Kernel.Frame
import proofs.«131481_g28355374088416_cont_9to1_157_9_alg».proof.Proof.KCommon
import proofs.«131481_g28355374088416_cont_9to1_157_9_alg».proof.Proof.KMid
import proofs.«131481_g28355374088416_cont_9to1_157_9_alg».proof.Proof.KFirst
import proofs.«131481_g28355374088416_cont_9to1_157_9_alg».proof.Proof.KLast
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole buffers: owned at some contents, or pointed to at some contents -/

/-- A buffer pointed to at some contents is its whole memref owned at some contents, -/
theorem whole_in (c : Dev nD) (b : Ref sig .tc) :
    (iprop(∃ f : Buf (Elt F) ((c : Thread nD τ).loc b), ((c : Thread nD τ).loc b) ↦{fullShare} f) : sProp 𝕄)
      ⊢ iprop(∃ X, owns (c : Thread nD τ) (Memref.whole b) fullShare X) := by
  iintro ⟨%f, H⟩
  iexists f; rw [owns_whole]; iexact H

/-- and conversely. -/
theorem whole_out (c : Dev nD) (b : Ref sig .tc) :
    (iprop(∃ X, owns (c : Thread nD τ) (Memref.whole b) fullShare X) : sProp 𝕄)
      ⊢ iprop(∃ f : Buf (Elt F) ((c : Thread nD τ).loc b), ((c : Thread nD τ).loc b) ↦{fullShare} f) := by
  simp only [owns_whole]; exact .rfl

/-- The elements of a memref at any contents of its buffer are owned at some contents; -/
theorem stored_owns (c : Dev nD) {sp : Space} {sh : Shape} {e : EltTy} (M : Memref sig .tc sp sh e)
    (g : M.view.ty.Contents (Elt F)) :
    (M.view.loc (c : Thread nD τ) ↦[M.view.set]{fullShare} g : sProp 𝕄)
      ⊢ iprop(∃ X, owns (c : Thread nD τ) M fullShare X) := by
  iintro H
  iexists _; iapply (owns_intro (c : Thread nD τ) M fullShare g); iexact H

/-- so are they after some stores, whatever they were before. -/
theorem written_owns (c : Dev nD) {sp : Space} {sh : Shape} {e : EltTy} (M : Memref sig .tc sp sh e)
    (L : List (View.Piece (Elt F) sh e)) :
    (iprop(∃ f, M.view.loc (c : Thread nD τ) ↦[M.view.set]{fullShare} M.view.writes (Elt F) f L) : sProp 𝕄)
      ⊢ iprop(∃ X, owns (c : Thread nD τ) M fullShare X) := by
  iintro ⟨%f, H⟩
  iapply (stored_owns c M _); iexact H

variable (m : (ℓ : Loc nD τ sig) → Buf (Elt F) ℓ) (ρ : Dev nD → PrngReg)

/-! ## The proof data -/

/-- The result's window, alone, is forgotten: the claim reads nothing of what the kernel leaves in the result. -/
def fgt : Fin cfg0.W → Bool
  | ⟨0, _⟩ => false
  | ⟨1, _⟩ => false
  | ⟨2, _⟩ => false
  | ⟨3, _⟩ => false
  | ⟨4, _⟩ => true

/-- The proof data on core `c`: the arrays as the region finds them; after the body at point `t` each input's
    staging buffer still at its block, the result's at contents nothing names; the invariant the five scratches at
    some contents and the generator register at some state, the same at every point; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-! ## The invariant, opened -/

/-- The five scratches each owned whole at some contents and the generator register at some state. -/
def ΦO (c : Dev nD) : sProp 𝕄 :=
  iprop((∃ X, owns (c : Thread nD τ) scA fullShare X) ∗ (∃ X, owns (c : Thread nD τ) scD fullShare X)
    ∗ (∃ X, owns (c : Thread nD τ) scH fullShare X) ∗ (∃ X, owns (c : Thread nD τ) scS fullShare X)
    ∗ (∃ X, owns (c : Thread nD τ) scC fullShare X) ∗ ∃ r, prngReg c r)

/-- The region invariant is that, -/
theorem ΦA_open (c : Dev nD) : (Pipeline.ΦA spec0 c : sProp 𝕄) ⊢ ΦO (F := F) c := by
  unfold Pipeline.ΦA ΦO; rw [scopedRest0_eq]
  iintro ⟨⟨HA, HD, HH, HS, HC⟩, Hp⟩
  isplitl [HA]; · iapply (whole_in c cc0_scratch0); iexact HA
  isplitl [HD]; · iapply (whole_in c cc0_scratch1); iexact HD
  isplitl [HH]; · iapply (whole_in c cc0_scratch2); iexact HH
  isplitl [HS]; · iapply (whole_in c cc0_scratch3); iexact HS
  isplitl [HC]; · iapply (whole_in c cc0_scratch4); iexact HC
  iexact Hp

/-- and conversely. -/
theorem ΦA_close (c : Dev nD) : ΦO (F := F) c ⊢ (Pipeline.ΦA spec0 c : sProp 𝕄) := by
  unfold Pipeline.ΦA ΦO; rw [scopedRest0_eq]
  iintro ⟨HA, HD, HH, HS, HC, Hp⟩
  isplitr [Hp]
  · isplitl [HA]; · iapply (whole_out c cc0_scratch0); iexact HA
    isplitl [HD]; · iapply (whole_out c cc0_scratch1); iexact HD
    isplitl [HH]; · iapply (whole_out c cc0_scratch2); iexact HH
    isplitl [HS]; · iapply (whole_out c cc0_scratch3); iexact HS
    iapply (whole_out c cc0_scratch4); iexact HC
  iexact Hp

/-! ## The body, at any point -/

/-- The body at point `t`, from the five scratches at some contents, the four inputs' staging buffers at their blocks
    and the result's at some contents, to the same: by the point's kind — point 0 takes the first branch only, point
    15 the second only, every other neither —, the run of that kind, what each store leaves forgotten at once. -/
theorem sound_core (c : Dev nD) (t : Fin cfg0.N) (K : PUnit → sProp 𝕄) :
    iprop(ΦO (F := F) c ∗ owns (c : Thread nD τ) (st0_0 t) fullShare (iblk m c 0 t) ∗ owns (c : Thread nD τ) (st0_1 t) fullShare (iblk m c 1 t)
        ∗ owns (c : Thread nD τ) (st0_2 t) fullShare (iblk m c 2 t) ∗ owns (c : Thread nD τ) (st0_3 t) fullShare (iblk m c 3 t)
        ∗ (∃ X, owns (c : Thread nD τ) (st0_4 t) fullShare X)
        ∗ (iprop(ΦO (F := F) c ∗ owns (c : Thread nD τ) (st0_0 t) fullShare (iblk m c 0 t) ∗ owns (c : Thread nD τ) (st0_1 t) fullShare (iblk m c 1 t)
            ∗ owns (c : Thread nD τ) (st0_2 t) fullShare (iblk m c 2 t) ∗ owns (c : Thread nD τ) (st0_3 t) fullShare (iblk m c 3 t)
            ∗ (∃ X, owns (c : Thread nD τ) (st0_4 t) fullShare X)) -∗ K ⟨⟩))
      ⊢ wp frame (wpE (defs₀ (F := F)) Variants.none c none) Set.univ (bodyAt0 t) K := by
  unfold ΦO bodyAt0
  by_cases hL : IsLast (grid0.coords t)
  · have hF : ¬ IsFirst (grid0.coords t) := fun h => by
      have h0 := (isFirst_iff t).mp h; have h15 := (isLast_iff t).mp hL; omega
    iintro ⟨⟨⟨%sA, HA⟩, ⟨%sD, HD⟩, ⟨%sH, HH⟩, ⟨%sS, HS⟩, ⟨%sC, HC⟩, Hp⟩, H0, H1, H2, H3, ⟨%X, H4⟩, Hk⟩
    iapply ((runLast c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) hF hL
      (iblk m c 0 t) (iblk m c 1 t) (iblk m c 2 t) (iblk m c 3 t) sA sD sH sS sC).2.2.2.2.2 X Set.univ _)
    isplitl [H0]; · iexact H0
    isplitl [H1]; · iexact H1
    isplitl [H2]; · iexact H2
    isplitl [H3]; · iexact H3
    isplitl [H4]; · iexact H4
    isplitl [HA]; · iexact HA
    isplitl [HD]; · iexact HD
    isplitl [HH]; · iexact HH
    isplitl [HS]; · iexact HS
    isplitl [HC]; · iexact HC
    iintro ⟨H0, H1, H2, H3, H4, HA, HD, HH, HS, HC⟩
    iapply Hk
    isplitl [HA HD HH HS HC Hp]
    · isplitl [HA]; · iapply (written_owns c scA _); iexact HA
      isplitl [HD]; · iapply (written_owns c scD _); iexact HD
      isplitl [HH]; · iexists _; iexact HH
      isplitl [HS]; · iapply (written_owns c scS _); iexact HS
      isplitl [HC]; · iapply (written_owns c scC _); iexact HC
      iexact Hp
    isplitl [H0]; · iexact H0
    isplitl [H1]; · iexact H1
    isplitl [H2]; · iexact H2
    isplitl [H3]; · iexact H3
    iapply (written_owns c (st0_4 t) _); iexact H4
  · by_cases hF : IsFirst (grid0.coords t)
    · iintro ⟨⟨⟨%sA, HA⟩, ⟨%sD, HD⟩, ⟨%sH, HH⟩, ⟨%sS, HS⟩, ⟨%sC, HC⟩, Hp⟩, H0, H1, H2, H3, ⟨%X, H4⟩, Hk⟩
      iapply ((runFirst c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) hF hL
        (iblk m c 0 t) (iblk m c 1 t) (iblk m c 2 t) (iblk m c 3 t) sA sD sH sS sC).2.2.2.2.2 X Set.univ _)
      isplitl [H0]; · iexact H0
      isplitl [H1]; · iexact H1
      isplitl [H2]; · iexact H2
      isplitl [H3]; · iexact H3
      isplitl [H4]; · iexact H4
      isplitl [HA]; · iexact HA
      isplitl [HD]; · iexact HD
      isplitl [HH]; · iexact HH
      isplitl [HS]; · iexact HS
      isplitl [HC]; · iexact HC
      iintro ⟨H0, H1, H2, H3, H4, HA, HD, HH, HS, HC⟩
      iapply Hk
      isplitl [HA HD HH HS HC Hp]
      · isplitl [HA]; · iapply (written_owns c scA _); iexact HA
        isplitl [HD]; · iapply (written_owns c scD _); iexact HD
        isplitl [HH]; · iapply (written_owns c scH _); iexact HH
        isplitl [HS]; · iapply (written_owns c scS _); iexact HS
        isplitl [HC]; · iapply (written_owns c scC _); iexact HC
        iexact Hp
      isplitl [H0]; · iexact H0
      isplitl [H1]; · iexact H1
      isplitl [H2]; · iexact H2
      isplitl [H3]; · iexact H3
      iexists _; iexact H4
    · iintro ⟨⟨⟨%sA, HA⟩, ⟨%sD, HD⟩, ⟨%sH, HH⟩, ⟨%sS, HS⟩, ⟨%sC, HC⟩, Hp⟩, H0, H1, H2, H3, ⟨%X, H4⟩, Hk⟩
      iapply ((runMid c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) hF hL
        (iblk m c 0 t) (iblk m c 1 t) (iblk m c 2 t) (iblk m c 3 t) sA sD sH sS sC).2.2.2.2 X Set.univ _)
      isplitl [H0]; · iexact H0
      isplitl [H1]; · iexact H1
      isplitl [H2]; · iexact H2
      isplitl [H3]; · iexact H3
      isplitl [H4]; · iexact H4
      isplitl [HA]; · iexact HA
      isplitl [HD]; · iexact HD
      isplitl [HH]; · iexact HH
      isplitl [HS]; · iexact HS
      isplitl [HC]; · iexact HC
      iintro ⟨H0, H1, H2, H3, H4, HA, HD, HH, HS, HC⟩
      iapply Hk
      isplitl [HA HD HH HS HC Hp]
      · isplitl [HA]; · iapply (written_owns c scA _); iexact HA
        isplitl [HD]; · iapply (written_owns c scD _); iexact HD
        isplitl [HH]; · iexists _; iexact HH
        isplitl [HS]; · iapply (written_owns c scS _); iexact HS
        isplitl [HC]; · iapply (written_owns c scC _); iexact HC
        iexact Hp
      isplitl [H0]; · iexact H0
      isplitl [H1]; · iexact H1
      isplitl [H2]; · iexact H2
      isplitl [H3]; · iexact H3
      iexists _; iexact H4

/-! ## The body obligation -/

/-- What the body is called with at point `t`: the invariant, what the core owes, each input's current staging
    buffer at what it then holds, the result's at some contents; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ X, owns (c : Thread nD τ) (st0_4 t) fullShare X))

/-- and what it returns: the inputs' buffers as the proof data says the body leaves them, the result's at some
    contents again. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ X, owns (c : Thread nD τ) (st0_4 t) fullShare X))

/-- The body at any point: the inputs' buffers hold their blocks, the invariant opens into the five scratches, the
    run applies, and the invariant closes again; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, after_0, after_1, after_2, after_3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, H4⟩
  iapply (sound_core m c t _)
  isplitl [HΦ]; · iapply (ΦA_open c); iexact HΦ
  isplitl [H0]; · iexact H0
  isplitl [H1]; · iexact H1
  isplitl [H2]; · iexact H2
  isplitl [H3]; · iexact H3
  isplitl [H4]; · iexact H4
  iintro ⟨HΦ, H0, H1, H2, H3, H4⟩
  isplitl [HΦ]; · iapply (ΦA_close c); iexact HΦ
  isplitl [Ho]; · iexact Ho
  isplitl [H0]; · iexact H0
  isplitl [H1]; · iexact H1
  isplitl [H2]; · iexact H2
  isplitl [H3]; · iexact H3
  iexact H4

/-- The library's body obligation at every point, the result's window forgotten. -/
theorem body_obligation (c : Dev nD) :
    BodyObligation (dats (F := F) m 0 c) (defs₀ (F := F)) Variants.none () Set.univ fgt := fun t => by
  rw [bigSep_W0, bigSep_W0]
  exact sound_body m c t

/-! ## The run and the frame -/

set_option backward.isDefEq.respectTransparency.types false in
/-- At the compiled mesh, for any values, from any memory with zero counters: every weakly fair execution of the
    program on the TensorCores terminates, every input array of the pipeline ends as the region found it, nothing is
    said of the result, and every other unscoped buffer ends as the region found it. -/
theorem run_main : θ_run defs (onTc (τ := τ) (main (F := F))) (s₀ m ρ)
    (Pipeline.RDat.FramePost (cfgs 0) (fun c => (dats m 0 c).toRForget fgt) (V m)) :=
  Pipeline.RDat.θ_run_frame cfgs (0 : Fin 1) launch0 defs₀ Variants.none (fun c => (dats m 0 c).toRForget fgt) m ρ main
    (hbody := fun c => (body_obligation m c).toRForget)
    (hshare := fun c => ((dats m 0 c).toRForget fgt).share_full fun _ => rfl)
    (howed := fun _ _ => rfl) (V := V m) (hmain := hmain m Variants.none) (hA := A_eq m) (hΦ := fun _ _ => rfl)

/-- info: 'Cert.Kernel.Body.run_main' depends on axioms: [propext, Classical.choice, Quot.sound] -/
#guard_msgs in #print axioms run_main

/-- The program runs to the end, faults nowhere and leaves its four argument arrays as launched: the three the
    pipeline stages are inputs, never written back, and found by the region as launched; the fourth bypasses the
    region, which stages a reshaped copy of it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(((dats m 0 c).toRForget_arrAt_iff (fgt := fgt) (w := 1) rfl _ _).mp ((h c).1 1)).trans
        (((dats m 0 c).arrAt_in 1 rfl _).trans ((A_eq m c 1).trans (V_main_arg0 m c))),
      (((dats m 0 c).toRForget_arrAt_iff (fgt := fgt) (w := 0) rfl _ _).mp ((h c).1 0)).trans
        (((dats m 0 c).arrAt_in 0 rfl _).trans ((A_eq m c 0).trans (V_main_arg1 m c))),
      (((dats m 0 c).toRForget_arrAt_iff (fgt := fgt) (w := 2) rfl _ _).mp ((h c).1 2)).trans
        (((dats m 0 c).arrAt_in 2 rfl _).trans ((A_eq m c 2).trans (V_main_arg2 m c))),
      ((h c).2 main_arg3 (Pipeline.mem_restRefs_of main_arg3 (by decide) (by decide))).trans (V_main_arg3 m c)⟩)
    (run_main m ρ)

end Cert.Kernel.Body

end
-- ==== Proof.KICommon.lean ====
/-
  The kernel body's five scratch buffers and its two branch conditions, named once for the three runs of the body.
  The scratches, whole: the cached copy of the adjacency rows seen so far (4096 x 4096), the inverse square roots of the
  row sums broadcast along the lanes (4096 x 128), the product of the features with the weights (4096 x 128), that
  product scaled row by row by the inverse square roots (4096 x 128, zero on the rows not yet seen), and the
  accumulator of the aggregation (4096 x 128). The grid has sixteen points, one per block of 256 adjacency rows;
  the first branch is taken at point 0 only, the second at point 15 only.
-/
import proofs.«131481_g28355374088416_cont_9to1_157_9_alg».proof.Proof.Gen.KernelIdeal.Launch
import proofs.«131481_g28355374088416_cont_9to1_157_9_alg».proof.Proof.Gen.KernelIdeal.Skeleton
import proofs.«131481_g28355374088416_cont_9to1_157_9_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The cached adjacency rows. -/
abbrev scA : Memref sig .tc .vmem S4096x4096 .bf16 := Memref.whole cc0_scratch0
/-- The inverse square roots of the row sums, lane-broadcast. -/
abbrev scD : Memref sig .tc .vmem S4096x128 .f32 := Memref.whole cc0_scratch1
/-- Features times weights. -/
abbrev scH : Memref sig .tc .vmem S4096x128 .f32 := Memref.whole cc0_scratch2
/-- The scaled product, zero on rows not yet seen. -/
abbrev scS : Memref sig .tc .vmem S4096x128 .bf16 := Memref.whole cc0_scratch3
/-- The accumulator. -/
abbrev scC : Memref sig .tc .vmem S4096x128 .f32 := Memref.whole cc0_scratch4

/-- "This is grid point 0", as the body computes it from the grid coordinate. -/
abbrev IsFirst (i : grid0.Coords) : Prop :=
  (Scalar.cmpi .ne (Scalar.extui (Scalar.cmpi .eq (BitVec.ofNat 32 (i 0).val) 0#32)) 0#32) = 1#1
/-- "This is grid point 15". -/
abbrev IsLast (i : grid0.Coords) : Prop := k0_cond2 i = 1#1

/-- The first branch is taken at point 0 only, the second at point 15 only. -/
theorem isFirst_iff : ∀ t : Fin cfg0.N, IsFirst (grid0.coords t) ↔ t.val = 0 :=
  (by decide +kernel : ∀ t : Fin grid0.N, IsFirst (grid0.coords t) ↔ t.val = 0)
theorem isLast_iff : ∀ t : Fin cfg0.N, IsLast (grid0.coords t) ↔ t.val = 15 :=
  (by decide +kernel : ∀ t : Fin grid0.N, IsLast (grid0.coords t) ↔ t.val = 15)

end Cert.KernelIdeal.Body

end
-- ==== Proof.Spec.lean ====
/-
  The specification both programs are proved against, over the extended reals, by coordinates.
  For a dense weighted adjacency `A` (4096 x 4096), features `X` (4096 x 128), weights `W` (128 x 128) and a bias
  `b` (128): the degree of row `r` is its row sum; its inverse square root `dinv` is `1/√deg`, with an infinite
  value replaced by zero; the features are multiplied by the weights; and the result at `(r, j)` is

      dinv r · ( ∑ k, A r k · (dinv k · (X W) k j) ) + b j ,

  the symmetric normalisation `D^{-1/2} A D^{-1/2}` applied to `X W` with the row's factor taken out of the sum.
-/
import Idealize.ShloMosaic.PureOps.Ideal
import Idealize.ShloMosaic.Lib.ValueIdx

noncomputable section

namespace Cert.Spec

open Idealize.ShloMosaic

/-- The inverse square root as the kernel takes it: `rsqrt`, and zero where that is infinite
    (a zero degree gives `+∞`, a negative one the junk value `-∞`: both are replaced). -/
def isr (s : EReal) : EReal :=
  Scalar.select (FloatOps.cmpf (F := Ideal) (φ := .f32) .oeq (FloatOps.absf (F := Ideal) (φ := .f32) (FloatOps.rsqrt (F := Ideal) (φ := .f32) s))
      (Scalar.ofBits (F := Ideal) .f32 0x7F800000#32))
    (Scalar.ofBits (F := Ideal) .f32 0x00000000#32) (FloatOps.rsqrt (F := Ideal) (φ := .f32) s)

/-- The degree of a row: its sum. -/
def deg (A : Fin 4096 → Fin 4096 → EReal) (r : Fin 4096) : EReal := ∑ k : Fin 4096, A r k

/-- The row's normalising factor. -/
def dinv (A : Fin 4096 → Fin 4096 → EReal) (r : Fin 4096) : EReal := isr (deg A r)

/-- Features times weights. -/
def feat (X : Fin 4096 → Fin 128 → EReal) (W : Fin 128 → Fin 128 → EReal) (r : Fin 4096) (j : Fin 128) : EReal :=
  ∑ k : Fin 128, X r k * W k j

/-- The scaled features: row `k` of `X W` times its normalising factor. -/
def sfeat (A : Fin 4096 → Fin 4096 → EReal) (X : Fin 4096 → Fin 128 → EReal) (W : Fin 128 → Fin 128 → EReal)
    (k : Fin 4096) (j : Fin 128) : EReal := dinv A k * feat X W k j

/-- The result. -/
def out (A : Fin 4096 → Fin 4096 → EReal) (X : Fin 4096 → Fin 128 → EReal) (W : Fin 128 → Fin 128 → EReal)
    (b : Fin 128 → EReal) (r : Fin 4096) (j : Fin 128) : EReal :=
  dinv A r * (∑ k : Fin 4096, A r k * sfeat A X W k j) + b j

end Cert.Spec

end
-- ==== Proof.StepMath.lean ====
/-
  The mathematics of the triangular schedule, with no program in sight.

  The sixteen grid points visit the adjacency's sixteen row blocks (256 rows each) in order. After `n` points the scratch
  contents satisfy an invariant on the rows seen so far (those of blocks `< n`):
    • the feature product holds  X W  everywhere;
    • the scaled matrix holds  dinv r · (X W) r  on rows seen, and zero on the others;
    • the row factors and the cached adjacency hold  dinv r  and  A r  on rows seen;
    • the accumulator, on a row seen, holds the partial sum  ∑ k in blocks < n,  A r k · sfeat k.
  Nothing is said of the rows not yet seen: what the buffers hold there never reaches a row seen.

  One point `n` does, on block `n`'s rows, an ASSIGNMENT (factor, scaled features, cached rows, and the accumulator rows as
  the full-length product of the cached rows with the scaled matrix, whose rows beyond block `n` are zero), and on every
  other row an ADDITION to the accumulator of the block-column-`n` tile. On a row seen the addition extends the partial
  sum by block `n`; on block `n`'s rows the assignment is the partial sum through block `n`, since  a · 0 = 0  on the
  extended reals. The step lemma is stated over an "effective" feature product and scaled matrix before the point, so
  that it also covers point 0, where the body first stores those two whole.
-/
import proofs.«131481_g28355374088416_cont_9to1_157_9_alg».proof.Proof.Spec

noncomputable section

namespace Cert.Step

open Cert.Spec

/-- Row `p` of block `t`. -/
def row (t : ℕ) (ht : t < 16) (p : Fin 256) : Fin 4096 := ⟨256 * t + p.val, by omega⟩

@[simp] theorem row_val (t : ℕ) (ht : t < 16) (p : Fin 256) : (row t ht p).val = 256 * t + p.val := rfl

theorem row_div (t : ℕ) (ht : t < 16) (p : Fin 256) : (row t ht p).val / 256 = t := by
  rw [row_val]; omega

/-- A row of block `t` is `row t p` for its position `p` in the block. -/
theorem exists_row (t : ℕ) (ht : t < 16) (r : Fin 4096) (h : r.val / 256 = t) : ∃ p : Fin 256, r = row t ht p :=
  ⟨⟨r.val - 256 * t, by omega⟩, Fin.ext (by rw [row_val]; show r.val = 256 * t + (r.val - 256 * t); omega)⟩

/-- The part of a sum over the 4096 positions that lies in block `n` is the sum over the block's 256 positions. -/
theorem sum_block (f : Fin 4096 → EReal) (n : ℕ) (hn : n < 16) :
    (∑ k : Fin 4096, if k.val / 256 = n then f k else 0) = ∑ p : Fin 256, f (row n hn p) := by
  rw [← Finset.sum_filter]
  symm
  refine Finset.sum_bij (fun p _ => row n hn p) ?_ ?_ ?_ ?_
  · intro p _
    exact Finset.mem_filter.mpr ⟨Finset.mem_univ _, row_div n hn p⟩
  · intro p _ p' _ h
    have := congrArg Fin.val h
    rw [row_val, row_val] at this
    exact Fin.ext (by omega)
  · intro k hk
    obtain ⟨p, hp⟩ := exists_row n hn k (Finset.mem_filter.mp hk).2
    exact ⟨p, Finset.mem_univ _, hp.symm⟩
  · intro p _; rfl

/-- The partial sum through block `n` is the partial sum before it plus block `n`'s part. -/
theorem sum_split (f : Fin 4096 → EReal) (n : ℕ) (hn : n < 16) :
    (∑ k : Fin 4096, if k.val / 256 < n + 1 then f k else 0)
      = (∑ k : Fin 4096, if k.val / 256 < n then f k else 0) + ∑ p : Fin 256, f (row n hn p) := by
  rw [← sum_block f n hn, ← Finset.sum_add_distrib]
  refine Finset.sum_congr rfl fun k _ => ?_
  by_cases h1 : k.val / 256 < n
  · rw [if_pos (by omega), if_pos h1, if_neg (by omega), add_zero]
  · by_cases h2 : k.val / 256 = n
    · rw [if_pos (by omega), if_neg h1, if_pos h2, zero_add]
    · rw [if_neg (by omega), if_neg h1, if_neg h2, add_zero]

variable (A : Fin 4096 → Fin 4096 → EReal) (X : Fin 4096 → Fin 128 → EReal) (W : Fin 128 → Fin 128 → EReal)

/-- What the five scratches hold after `n` points, on the rows of the blocks seen. -/
structure Inv (n : ℕ) (sA : Fin 4096 → Fin 4096 → EReal) (sD sH sS sC : Fin 4096 → Fin 128 → EReal) : Prop where
  hH : ∀ r q, sH r q = feat X W r q
  hS : ∀ r q, sS r q = if r.val / 256 < n then sfeat A X W r q else 0
  hD : ∀ r q, r.val / 256 < n → sD r q = dinv A r
  hA : ∀ r k, r.val / 256 < n → sA r k = A r k
  hC : ∀ r q, r.val / 256 < n → sC r q = ∑ k : Fin 4096, if k.val / 256 < n then A r k * sfeat A X W k q else 0

/-- One grid point. `eH`, `eS` are the feature product and the scaled matrix the point works from (at point 0 the ones
    it has just stored, later the ones it found); the `f…` hypotheses say what the point's stores leave, on block `n`'s
    rows (`_in`) and on the others (`_out`) — for the row factors, the cached adjacency and the accumulator only on the
    rows already seen, the only other rows the invariant speaks of. -/
theorem step_inv (n : ℕ) (hn : n < 16)
    {sA nA : Fin 4096 → Fin 4096 → EReal} {sD eH eS sC nD nH nS nC : Fin 4096 → Fin 128 → EReal}
    (hpreH : ∀ r q, eH r q = feat X W r q)
    (hpreS : ∀ r q, eS r q = if r.val / 256 < n then sfeat A X W r q else 0)
    (hpreD : ∀ r q, r.val / 256 < n → sD r q = dinv A r)
    (hpreA : ∀ r k, r.val / 256 < n → sA r k = A r k)
    (hpreC : ∀ r q, r.val / 256 < n → sC r q = ∑ k : Fin 4096, if k.val / 256 < n then A r k * sfeat A X W k q else 0)
    (fH : ∀ r q, nH r q = eH r q)
    (fS_in : ∀ p q, nS (row n hn p) q = isr (∑ k : Fin 4096, A (row n hn p) k) * eH (row n hn p) q)
    (fS_out : ∀ r q, r.val / 256 ≠ n → nS r q = eS r q)
    (fD_in : ∀ p q, nD (row n hn p) q = isr (∑ k : Fin 4096, A (row n hn p) k))
    (fD_out : ∀ r q, r.val / 256 < n → nD r q = sD r q)
    (fA_in : ∀ p k, nA (row n hn p) k = A (row n hn p) k)
    (fA_out : ∀ r k, r.val / 256 < n → nA r k = sA r k)
    (fC_in : ∀ p q, nC (row n hn p) q = ∑ k : Fin 4096, nA (row n hn p) k * nS k q)
    (fC_out : ∀ r q, r.val / 256 < n → nC r q
      = sC r q + ∑ k' : Fin 256, sA r (row n hn k') * (isr (∑ k : Fin 4096, A (row n hn k') k) * eH (row n hn k') q)) :
    Inv A X W (n + 1) nA nD nH nS nC := by
  have hS' : ∀ r q, nS r q = if r.val / 256 < n + 1 then sfeat A X W r q else 0 := by
    intro r q
    by_cases h : r.val / 256 = n
    · obtain ⟨p, rfl⟩ := exists_row n hn r h
      rw [fS_in, hpreH, if_pos (by rw [row_div]; omega)]
      rfl
    · rw [fS_out r q h, hpreS]
      by_cases h1 : r.val / 256 < n
      · rw [if_pos h1, if_pos (by omega)]
      · rw [if_neg h1, if_neg (by omega)]
  refine ⟨fun r q => (fH r q).trans (hpreH r q), hS', ?_, ?_, ?_⟩
  · intro r q hr
    by_cases h : r.val / 256 = n
    · obtain ⟨p, rfl⟩ := exists_row n hn r h
      rw [fD_in]; rfl
    · rw [fD_out r q (by omega)]; exact hpreD r q (by omega)
  · intro r k hr
    by_cases h : r.val / 256 = n
    · obtain ⟨p, rfl⟩ := exists_row n hn r h
      exact fA_in p k
    · rw [fA_out r k (by omega)]; exact hpreA r k (by omega)
  · intro r q hr
    by_cases h : r.val / 256 = n
    · obtain ⟨p, rfl⟩ := exists_row n hn r h
      rw [fC_in]
      refine Finset.sum_congr rfl fun k _ => ?_
      rw [fA_in, hS']
      by_cases h1 : k.val / 256 < n + 1
      · rw [if_pos h1, if_pos h1]
      · rw [if_neg h1, if_neg h1, mul_zero]
    · have hr' : r.val / 256 < n := by omega
      rw [fC_out r q hr', hpreC r q hr', sum_split (fun k => A r k * sfeat A X W k q) n hn]
      refine congrArg (_ + ·) (Finset.sum_congr rfl fun k' _ => ?_)
      rw [hpreA r _ hr', hpreH]
      rfl

/-- Before any point nothing has been seen: an invariant for `n = 0` asks only for the feature product and a zero scaled
    matrix — what point 0 stores before it does anything else. -/
theorem final_out {sA : Fin 4096 → Fin 4096 → EReal} {sD sH sS sC : Fin 4096 → Fin 128 → EReal} (b : Fin 128 → EReal)
    (h : Inv A X W 16 sA sD sH sS sC) (r : Fin 4096) (q : Fin 128) :
    sD r q * sC r q + b q = out A X W b r q := by
  have hr : r.val / 256 < 16 := by have := r.isLt; omega
  rw [h.hD r q hr, h.hC r q hr]
  unfold out
  refine congrArg (fun s => dinv A r * s + b q) (Finset.sum_congr rfl fun k _ => ?_)
  rw [if_pos (by have := k.isLt; omega)]

end Cert.Step

end
-- ==== Proof.KIDat.lean ====
/-
  The proof data of the idealized kernel's one pipeline, over the extended reals.
  The arrays are read by coordinates: the adjacency `Aof`, the features `Xof`, the weights `Wof`, the bias `Bof`; the
  result the specification says, `outG`. The invariant carried between grid points: before point 0 the five scratches hold
  anything; before point `k ≥ 1` (and after the last) they hold contents satisfying the triangular schedule's invariant
  after `k` points (StepMath). The input windows' staging buffers hold the arrays' blocks; the result's staging buffer is
  idle until the last point, where the body stores the whole result into it.
-/
import proofs.«131481_g28355374088416_cont_9to1_157_9_alg».proof.Proof.KICommon
import proofs.«131481_g28355374088416_cont_9to1_157_9_alg».proof.Proof.Gen.KernelIdeal.Frame
import proofs.«131481_g28355374088416_cont_9to1_157_9_alg».proof.Proof.StepMath
import Idealize.ShloMosaic.Lib.ValueIdx

noncomputable section

namespace Cert.KernelIdeal.Body

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

local notation "𝕄" => MT nD τ sig Unit (Elt Ideal) ℕ (UR sig nD τ) ℕ

variable (m : (ℓ : Loc nD τ sig) → Buf (Elt Ideal) ℓ)

/-- The adjacency, the features, the weights and the bias of core `c`, by coordinates. -/
def Aof (c : Dev nD) : Fin 4096 → Fin 4096 → EReal := fun r k => m ((c.tc : Thread nD τ).loc main_arg1) (ix2 r k)
def Xof (c : Dev nD) : Fin 4096 → Fin 128 → EReal := fun r k => m ((c.tc : Thread nD τ).loc main_arg0) (ix2 r k)
def Wof (c : Dev nD) : Fin 128 → Fin 128 → EReal := fun k q => m ((c.tc : Thread nD τ).loc main_arg2) (ix2 k q)
def Bof (c : Dev nD) : Fin 128 → EReal := fun q => m ((c.tc : Thread nD τ).loc main_arg3) (ix1 q)

/-- The result the specification says, as an array. -/
def outG (c : Dev nD) : S4096x128.Idx → EReal :=
  fun i => Cert.Spec.out (Aof m c) (Xof m c) (Wof m c) (Bof m c) (i 0) (i 1)

/-- The invariant after `n` points, of the scratches' contents as arrays. -/
def InvV (c : Dev nD) (n : ℕ) (sA : Vec Ideal S4096x4096 .bf16) (sD sH : Vec Ideal S4096x128 .f32) (sS : Vec Ideal S4096x128 .bf16)
    (sC : Vec Ideal S4096x128 .f32) : Prop :=
  Cert.Step.Inv (Aof m c) (Xof m c) (Wof m c) n (fun r k => sA (ix2 r k)) (fun r q => sD (ix2 r q)) (fun r q => sH (ix2 r q))
    (fun r q => sS (ix2 r q)) (fun r q => sC (ix2 r q))

/-- The five scratches at named contents. -/
def scr (c : Dev nD) (sA : Vec Ideal S4096x4096 .bf16) (sD sH : Vec Ideal S4096x128 .f32) (sS : Vec Ideal S4096x128 .bf16)
    (sC : Vec Ideal S4096x128 .f32) : sProp 𝕄 :=
  iprop(owns (c : Thread nD τ) scA fullShare sA ∗ owns (c : Thread nD τ) scD fullShare sD ∗ owns (c : Thread nD τ) scH fullShare sH
    ∗ owns (c : Thread nD τ) scS fullShare sS ∗ owns (c : Thread nD τ) scC fullShare sC)

/-- The invariant before point `k`: the scratches at some contents, which from point 1 on satisfy the schedule's invariant
    after `k` points; the generator register at anything. -/
def Φv (c : Dev nD) (k : Fin (cfg0.N + 1)) : sProp 𝕄 :=
  iprop((∃ sA sD sH sS sC, ⌜k.val = 0 ∨ InvV m c k.val sA sD sH sS sC⌝ ∗ scr c sA sD sH sS sC) ∗ ∃ r, prngReg c r)

/-- The proof data: the arrays as the region finds them, the input windows' buffers at their blocks, the result's at the
    specification's array, the invariant above. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outG m c
  Φ k := Φv m c k
  q _ := fullShare
  owed _ := 0

end Cert.KernelIdeal.Body

end
-- ==== Proof.KIFirst.lean ====
/-
  The kernel body at grid point 0 (the first branch taken, the second not), run on whole staging buffers and the five
  scratches at whatever they hold: the product of the features with the weights is stored whole, the scaled matrix is
  zeroed whole, and then the point goes on as any other — so the accumulator and the cached adjacency are READ before
  anything was stored into them, and what those reads return is whatever the scratches held. The pieces the stores leave
  are found by the run.
-/
import proofs.«131481_g28355374088416_cont_9to1_157_9_alg».proof.Proof.Gen.KernelIdeal.Launch
import proofs.«131481_g28355374088416_cont_9to1_157_9_alg».proof.Proof.Gen.KernelIdeal.Skeleton
import proofs.«131481_g28355374088416_cont_9to1_157_9_alg».proof.Proof.Gen.KernelIdeal.Points
import proofs.«131481_g28355374088416_cont_9to1_157_9_alg».proof.Proof.KICommon
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runFirst (c : Dev nD) (i : grid0.Coords) (arg1 : Memref sig .tc .vmem S256x4096 .f32) (harg1 : arg1.IsWhole) (arg2 : Memref sig .tc .vmem S4096x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S4096x128 .f32) (harg5 : arg5.IsWhole)
    (hc0 : IsFirst i) (hc1 : ¬IsLast i)
    (x1 : Vec F S256x4096 .f32) (x2 : Vec F S4096x128 .f32) (x3 : Vec F S128x128 .f32) (x4 : Vec F S1x128 .f32)
    (sA : Vec F S4096x4096 .bf16) (sD sH : Vec F S4096x128 .f32) (sS : Vec F S4096x128 .bf16) (sC : Vec F S4096x128 .f32) :
    Σ' (LA : List (View.Piece (Elt F) S4096x4096 .bf16)) (LD : List (View.Piece (Elt F) S4096x128 .f32)) (LH : List (View.Piece (Elt F) S4096x128 .f32)) (LS : List (View.Piece (Elt F) S4096x128 .bf16)),
    { LC : List (View.Piece (Elt F) S4096x128 .f32) //
      ∀ (xi5 : Vec F S4096x128 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare xi5
            ∗ owns (c : Thread nD τ) scA fullShare sA ∗ owns (c : Thread nD τ) scD fullShare sD ∗ owns (c : Thread nD τ) scH fullShare sH ∗ owns (c : Thread nD τ) scS fullShare sS ∗ owns (c : Thread nD τ) scC fullShare sC
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare xi5
                ∗ (∃ f, scA.view.loc (c : Thread nD τ) ↦[scA.view.set]{fullShare} scA.view.writes (Elt F) f LA)
                ∗ (∃ f, scD.view.loc (c : Thread nD τ) ↦[scD.view.set]{fullShare} scD.view.writes (Elt F) f LD)
                ∗ (∃ f, scH.view.loc (c : Thread nD τ) ↦[scH.view.set]{fullShare} scH.view.writes (Elt F) f LH)
                ∗ (∃ f, scS.view.loc (c : Thread nD τ) ↦[scS.view.set]{fullShare} scS.view.writes (Elt F) f LS)
                ∗ (∃ f, scC.view.loc (c : Thread nD τ) ↦[scC.view.set]{fullShare} scC.view.writes (Elt F) f LC)) -∗ K ⟨⟩))
          ⊢ wp frame (wpE (defs₀ (F := F)) Variants.none c none) E (cc0__fused i arg1 harg1 arg2 harg2 arg3 harg3 arg4 harg4 arg5 harg5 scA (Memref.isWhole_whole _) scD (Memref.isWhole_whole _) scH (Memref.isWhole_whole _) scS (Memref.isWhole_whole _) scC (Memref.isWhole_whole _)) K } := by
  refine ⟨?_, ?_, ?_, ?_, ?_, fun xi5 E K => ?run⟩
  case run =>
    simp only [cc0__fused_eq_skeleton]; unfold cc0__fused_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%fA, %hfA, HA⟩, ⟨%fD, %hfD, HD⟩, ⟨%fH, %hfH, HH⟩, ⟨%fS, %hfS, HS⟩, ⟨%fC, %hfC, HC⟩, Hk⟩
    obtain rfl := harg1.eq_unread hf1; obtain rfl := harg2.eq_unread hf2; obtain rfl := harg3.eq_unread hf3; obtain rfl := harg4.eq_unread hf4; obtain rfl := harg5.eq_unread hf5
    obtain rfl := (Memref.isWhole_whole cc0_scratch0).eq_unread hfA; obtain rfl := (Memref.isWhole_whole cc0_scratch1).eq_unread hfD
    obtain rfl := (Memref.isWhole_whole cc0_scratch2).eq_unread hfH; obtain rfl := (Memref.isWhole_whole cc0_scratch3).eq_unread hfS
    obtain rfl := (Memref.isWhole_whole cc0_scratch4).eq_unread hfC
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [HA]; · iexists _; iexact HA
    isplitl [HD]; · iexists _; iexact HD
    isplitl [HH]; · iexists _; iexact HH
    isplitl [HS]; · iexists _; iexact HS
    iexists _; iexact HC

end Cert.KernelIdeal.Body

end
-- ==== Proof.KIBlocks.lean ====
/-
  The four input windows' blocks read at coordinates. Window 0 stages the adjacency by row blocks: its block at grid
  point `t` is rows `256 t … 256 t + 255`, all 4096 columns. Windows 1, 2, 3 have one block each, the whole array:
  the features, the weights, and the bias as a row `[1, 128]` (a reshape of the bias vector done before the kernel is launched).
-/
import proofs.«131481_g28355374088416_cont_9to1_157_9_alg».proof.Proof.Gen.KernelIdeal.Frame
import proofs.«131481_g28355374088416_cont_9to1_157_9_alg».proof.Proof.StepMath
import Idealize.ShloMosaic.Lib.ValueIdx
import Idealize.ShloMosaic.Lib.Pipeline.Value
import Idealize.ShloMosaic.Lib.ValueLayout
import Idealize.ShloMosaic.Lib.StableHlo.Run

noncomputable section

namespace Cert.KernelIdeal.Blocks

open Cert.KernelIdeal Cert.KernelIdeal.Gen
open Idealize.ShloMosaic Idealize.ShloMosaic.TcCoe Idealize.SL.Sem Idealize.ShloMosaic.StableHlo
open Idealize.ShloMosaic.ValueIdx

variable {F : FTy → Type} [FloatOps F]
variable (m : (ℓ : Loc nD τ sig) → Buf (Elt F) ℓ)

/-- The grid has sixteen points. -/
theorem t_lt (t : Fin cfg0.N) : t.val < 16 := lt_of_lt_of_eq t.isLt N_0

/-- The block index of each window at a point: the adjacency's is the point itself, the others' zero. -/
theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem index2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem index3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- The adjacency block at point `t`, at `(p, k)`: the adjacency at row `256 t + p`, column `k`. -/
theorem blkA_apply (c : Dev nD) (t : Fin cfg0.N) (p : Fin 256) (k : Fin 4096) :
    iblk m c 0 t (ix2 p k) = V m c main_arg1 (ix2 (Step.row t.val (t_lt t) p) k) := by
  unfold iblk
  show V m c main_arg1 (((cfg0.win 0).blk t).view.emb (ix2 p k)) = _
  refine congrArg (V m c main_arg1) (funext fun a => Fin.ext ?_)
  match a with
  | ⟨0, _⟩ =>
    show win0_0.index t (0 : Fin 2) * 256 + 1 * p.val = 256 * t.val + p.val
    rw [(index0 t).1]; omega
  | ⟨1, _⟩ =>
    show win0_0.index t (1 : Fin 2) * 4096 + 1 * k.val = k.val
    rw [(index0 t).2]; omega

/-- The features' one block is the features. -/
theorem blkX_apply (c : Dev nD) (t : Fin cfg0.N) (r : Fin 4096) (k : Fin 128) :
    iblk m c 1 t (ix2 r k) = V m c main_arg0 (ix2 r k) := by
  unfold iblk
  show V m c main_arg0 (((cfg0.win 1).blk t).view.emb (ix2 r k)) = _
  refine congrArg (V m c main_arg0) (funext fun a => Fin.ext ?_)
  match a with
  | ⟨0, _⟩ =>
    show win0_1.index t (0 : Fin 2) * 4096 + 1 * r.val = r.val
    rw [(index1 t).1]; omega
  | ⟨1, _⟩ =>
    show win0_1.index t (1 : Fin 2) * 128 + 1 * k.val = k.val
    rw [(index1 t).2]; omega

/-- The weights' one block is the weights. -/
theorem blkW_apply (c : Dev nD) (t : Fin cfg0.N) (k : Fin 128) (q : Fin 128) :
    iblk m c 2 t (ix2 k q) = V m c main_arg2 (ix2 k q) := by
  unfold iblk
  show V m c main_arg2 (((cfg0.win 2).blk t).view.emb (ix2 k q)) = _
  refine congrArg (V m c main_arg2) (funext fun a => Fin.ext ?_)
  match a with
  | ⟨0, _⟩ =>
    show win0_2.index t (0 : Fin 2) * 128 + 1 * k.val = k.val
    rw [(index2 t).1]; omega
  | ⟨1, _⟩ =>
    show win0_2.index t (1 : Fin 2) * 128 + 1 * q.val = q.val
    rw [(index2 t).2]; omega

/-- The bias row's one block is the bias row, and the bias row is the bias vector: entry `(0, q)` is the vector's entry `q`. -/
theorem blkB_apply (c : Dev nD) (t : Fin cfg0.N) (q : Fin 128) :
    iblk m c 3 t (ix2 (0 : Fin 1) q) = m ((c : Thread nD τ).loc main_arg3) (ix1 q) := by
  have e : (V m c main_v0 : S1x128.Idx → Elt F .f32)
      = shapeCast S1x128 (m ((c : Thread nD τ).loc main_arg3)) shapeCasts_S128_S1x128 := by
    dsimp only [Gen.V, Gen.hostOps0]; after_results; rfl
  unfold iblk
  show V m c main_v0 (((cfg0.win 3).blk t).view.emb (ix2 (0 : Fin 1) q)) = _
  have hi : ((cfg0.win 3).blk t).view.emb (ix2 (0 : Fin 1) q) = ix2 (0 : Fin 1) q := funext fun a => Fin.ext (by
    match a with
    | ⟨0, _⟩ =>
      show win0_3.index t (0 : Fin 2) * 1 + 1 * 0 = 0
      rw [(index3 t).1]
    | ⟨1, _⟩ =>
      show win0_3.index t (1 : Fin 2) * 128 + 1 * q.val = q.val
      rw [(index3 t).2]; omega)
  rw [hi, e]
  exact shapeCast_a_1a_apply _ shapeCasts_S128_S1x128 0 q

end Cert.KernelIdeal.Blocks

end
-- ==== Proof.KIOffsets.lean ====
/-
  The body's offsets in closed form. At grid point `t` the row slices of the scratches start at row `256 t`, column 0,
  and the column slice of the cached adjacency at row 0, column `256 t`.
-/
import proofs.«131481_g28355374088416_cont_9to1_157_9_alg».proof.Proof.KIBlocks

noncomputable section

namespace Cert.KernelIdeal.Body

open Cert.KernelIdeal Cert.KernelIdeal.Gen Idealize.ShloMosaic

theorem off1_eq : ∀ t : Fin cfg0.N, k0_off1 (grid0.coords t) = ![256 * t.val, 0] :=
  (by decide +kernel : ∀ t : Fin grid0.N, k0_off1 (grid0.coords t) = ![256 * t.val, 0])
theorem off2_eq : ∀ t : Fin cfg0.N, k0_off2 (grid0.coords t) = ![0, 256 * t.val] :=
  (by decide +kernel : ∀ t : Fin grid0.N, k0_off2 (grid0.coords t) = ![0, 256 * t.val])
theorem off3_eq : ∀ t : Fin cfg0.N, k0_off3 (grid0.coords t) = ![256 * t.val, 0] :=
  (by decide +kernel : ∀ t : Fin grid0.N, k0_off3 (grid0.coords t) = ![256 * t.val, 0])

/-- The zero offsets, however spelt. -/
theorem zero2 : (![0, 0] : Fin 2 → ℕ) = fun _ => 0 := by
  funext a; match a with | ⟨0, _⟩ => rfl | ⟨1, _⟩ => rfl

end Cert.KernelIdeal.Body

end
-- ==== Proof.LibColumnForms.lean ====
/-
  Column ("keepdims") forms of two layout operations, read at an index. The library reads a vector cast to a ROW
  [1, a] and a row [1, b] broadcast over many rows; these are the same two facts for a COLUMN: a vector of length `a`
  cast to [a, 1], and a column [a, 1] broadcast over `b` lanes.
-/
import Idealize.ShloMosaic.Lib.Pipeline.Value
import Idealize.ShloMosaic.Lib.ValueIdx

namespace Idealize.ShloMosaic.ValueLayout

open Idealize.ShloMosaic Idealize.ShloMosaic.ValueIdx

variable {α : Type}

/-- An `[a]` array cast to the column `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueLayout
-- ==== Proof.KIPay.lean ====
/-
  The body's arithmetic read at an index, over the extended reals. Each payload of the kernel body is a pure function of
  the blocks the body loaded; here each is read at coordinates `(p, q)`: a row's inverse square root of its sum (infinite
  values replaced by zero), the products with it, the three matrix products as finite sums over the contracted axis, and
  the result block (the row factor times the accumulator plus the bias broadcast down the rows).
-/
import proofs.«131481_g28355374088416_cont_9to1_157_9_alg».proof.Proof.Gen.KernelIdeal.Skeleton
import proofs.«131481_g28355374088416_cont_9to1_157_9_alg».proof.Proof.Spec
import proofs.«131481_g28355374088416_cont_9to1_157_9_alg».proof.Proof.LibColumnForms
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen
open Idealize.ShloMosaic Idealize.ShloMosaic.ValueIdx Idealize.ShloMosaic.ValueLayout

/-- The matrix product of record `dot_S256x4096_S4096x128_S256x128_1_0_0_1_n_n` into an accumulator, at `(p, q)`: the accumulator's entry plus the sum over the 4096 contracted positions. -/
theorem mm_rows (l : FVec Ideal S256x4096 .bf16) (r : FVec Ideal S4096x128 .bf16) (acc : FVec Ideal S256x128 .f32) (p : Fin 256) (q : Fin 128) :
    matmul dot_S256x4096_S4096x128_S256x128_1_0_0_1_n_n none l r acc (ix2 p q) = acc (ix2 p q) + ∑ k : Fin 4096, l (ix2 p k) * r (ix2 k q) := by
  refine (Ideal.matmul_apply dot_S256x4096_S4096x128_S256x128_1_0_0_1_n_n none l r acc (ix2 p q)).trans ?_
  rw [← Equiv.sum_comp (ValueIdx.contrEquiv1 dot_S256x4096_S4096x128_S256x128_1_0_0_1_n_n 4096 rfl rfl).symm]
  refine congrArg (acc (ix2 p q) + ·) (Finset.sum_congr rfl fun k _ => ?_)
  have hk := ValueIdx.contrEquiv1_symm_val dot_S256x4096_S4096x128_S256x128_1_0_0_1_n_n 4096 rfl rfl k
  have el : dot_S256x4096_S4096x128_S256x128_1_0_0_1_n_n.lhsIdx (ix2 p q) ((ValueIdx.contrEquiv1 dot_S256x4096_S4096x128_S256x128_1_0_0_1_n_n 4096 rfl rfl).symm k) = ix2 p k := funext fun a => Fin.ext (by
    match a with
    | ⟨0, _⟩ =>
      show (dot_S256x4096_S4096x128_S256x128_1_0_0_1_n_n.lhsIdx (ix2 p q) _ 0).val = p.val
      unfold DotDims.lhsIdx
      rw [dif_neg (show ¬(0 : Fin S256x4096.rank) ∈ dot_S256x4096_S4096x128_S256x128_1_0_0_1_n_n.lhsBatch by decide), dif_pos (show (0 : Fin S256x4096.rank) ∈ dot_S256x4096_S4096x128_S256x128_1_0_0_1_n_n.lhsNonContracting by decide)]
      rfl
    | ⟨1, _⟩ => exact (dot_S256x4096_S4096x128_S256x128_1_0_0_1_n_n.lhsIdx_val_of_single rfl (ix2 p q) _).trans hk)
  have er : dot_S256x4096_S4096x128_S256x128_1_0_0_1_n_n.rhsIdx (ix2 p q) ((ValueIdx.contrEquiv1 dot_S256x4096_S4096x128_S256x128_1_0_0_1_n_n 4096 rfl rfl).symm k) = ix2 k q := funext fun a => Fin.ext (by
    match a with
    | ⟨0, _⟩ => exact (dot_S256x4096_S4096x128_S256x128_1_0_0_1_n_n.rhsIdx_val_of_single rfl (ix2 p q) _).trans hk
    | ⟨1, _⟩ =>
      show (dot_S256x4096_S4096x128_S256x128_1_0_0_1_n_n.rhsIdx (ix2 p q) _ 1).val = q.val
      unfold DotDims.rhsIdx
      rw [dif_neg (show ¬(1 : Fin S4096x128.rank) ∈ dot_S256x4096_S4096x128_S256x128_1_0_0_1_n_n.rhsBatch by decide), dif_pos (show (1 : Fin S4096x128.rank) ∈ dot_S256x4096_S4096x128_S256x128_1_0_0_1_n_n.rhsNonContracting by decide)]
      rfl)
  rw [el, er]

/-- The matrix product of record `dot_S4096x128_S128x128_S4096x128_1_0_0_1_n_n` into an accumulator, at `(p, q)`: the accumulator's entry plus the sum over the 128 contracted positions. -/
theorem mm_feat (l : FVec Ideal S4096x128 .f32) (r : FVec Ideal S128x128 .f32) (acc : FVec Ideal S4096x128 .f32) (p : Fin 4096) (q : Fin 128) :
    matmul dot_S4096x128_S128x128_S4096x128_1_0_0_1_n_n none l r acc (ix2 p q) = acc (ix2 p q) + ∑ k : Fin 128, l (ix2 p k) * r (ix2 k q) := by
  refine (Ideal.matmul_apply dot_S4096x128_S128x128_S4096x128_1_0_0_1_n_n none l r acc (ix2 p q)).trans ?_
  rw [← Equiv.sum_comp (ValueIdx.contrEquiv1 dot_S4096x128_S128x128_S4096x128_1_0_0_1_n_n 128 rfl rfl).symm]
  refine congrArg (acc (ix2 p q) + ·) (Finset.sum_congr rfl fun k _ => ?_)
  have hk := ValueIdx.contrEquiv1_symm_val dot_S4096x128_S128x128_S4096x128_1_0_0_1_n_n 128 rfl rfl k
  have el : dot_S4096x128_S128x128_S4096x128_1_0_0_1_n_n.lhsIdx (ix2 p q) ((ValueIdx.contrEquiv1 dot_S4096x128_S128x128_S4096x128_1_0_0_1_n_n 128 rfl rfl).symm k) = ix2 p k := funext fun a => Fin.ext (by
    match a with
    | ⟨0, _⟩ =>
      show (dot_S4096x128_S128x128_S4096x128_1_0_0_1_n_n.lhsIdx (ix2 p q) _ 0).val = p.val
      unfold DotDims.lhsIdx
      rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
      rfl
    | ⟨1, _⟩ => exact (dot_S4096x128_S128x128_S4096x128_1_0_0_1_n_n.lhsIdx_val_of_single rfl (ix2 p q) _).trans hk)
  have er : dot_S4096x128_S128x128_S4096x128_1_0_0_1_n_n.rhsIdx (ix2 p q) ((ValueIdx.contrEquiv1 dot_S4096x128_S128x128_S4096x128_1_0_0_1_n_n 128 rfl rfl).symm k) = ix2 k q := funext fun a => Fin.ext (by
    match a with
    | ⟨0, _⟩ => exact (dot_S4096x128_S128x128_S4096x128_1_0_0_1_n_n.rhsIdx_val_of_single rfl (ix2 p q) _).trans hk
    | ⟨1, _⟩ =>
      show (dot_S4096x128_S128x128_S4096x128_1_0_0_1_n_n.rhsIdx (ix2 p q) _ 1).val = q.val
      unfold DotDims.rhsIdx
      rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
      rfl)
  rw [el, er]

/-- The matrix product of record `dot_S4096x256_S256x128_S4096x128_1_0_0_1_n_n` into an accumulator, at `(p, q)`: the accumulator's entry plus the sum over the 256 contracted positions. -/
theorem mm_cols (l : FVec Ideal S4096x256 .bf16) (r : FVec Ideal S256x128 .bf16) (acc : FVec Ideal S4096x128 .f32) (p : Fin 4096) (q : Fin 128) :
    matmul dot_S4096x256_S256x128_S4096x128_1_0_0_1_n_n none l r acc (ix2 p q) = acc (ix2 p q) + ∑ k : Fin 256, l (ix2 p k) * r (ix2 k q) := by
  refine (Ideal.matmul_apply dot_S4096x256_S256x128_S4096x128_1_0_0_1_n_n none l r acc (ix2 p q)).trans ?_
  rw [← Equiv.sum_comp (ValueIdx.contrEquiv1 dot_S4096x256_S256x128_S4096x128_1_0_0_1_n_n 256 rfl rfl).symm]
  refine congrArg (acc (ix2 p q) + ·) (Finset.sum_congr rfl fun k _ => ?_)
  have hk := ValueIdx.contrEquiv1_symm_val dot_S4096x256_S256x128_S4096x128_1_0_0_1_n_n 256 rfl rfl k
  have el : dot_S4096x256_S256x128_S4096x128_1_0_0_1_n_n.lhsIdx (ix2 p q) ((ValueIdx.contrEquiv1 dot_S4096x256_S256x128_S4096x128_1_0_0_1_n_n 256 rfl rfl).symm k) = ix2 p k := funext fun a => Fin.ext (by
    match a with
    | ⟨0, _⟩ =>
      show (dot_S4096x256_S256x128_S4096x128_1_0_0_1_n_n.lhsIdx (ix2 p q) _ 0).val = p.val
      unfold DotDims.lhsIdx
      rw [dif_neg (show ¬(0 : Fin S4096x256.rank) ∈ dot_S4096x256_S256x128_S4096x128_1_0_0_1_n_n.lhsBatch by decide), dif_pos (show (0 : Fin S4096x256.rank) ∈ dot_S4096x256_S256x128_S4096x128_1_0_0_1_n_n.lhsNonContracting by decide)]
      rfl
    | ⟨1, _⟩ => exact (dot_S4096x256_S256x128_S4096x128_1_0_0_1_n_n.lhsIdx_val_of_single rfl (ix2 p q) _).trans hk)
  have er : dot_S4096x256_S256x128_S4096x128_1_0_0_1_n_n.rhsIdx (ix2 p q) ((ValueIdx.contrEquiv1 dot_S4096x256_S256x128_S4096x128_1_0_0_1_n_n 256 rfl rfl).symm k) = ix2 k q := funext fun a => Fin.ext (by
    match a with
    | ⟨0, _⟩ => exact (dot_S4096x256_S256x128_S4096x128_1_0_0_1_n_n.rhsIdx_val_of_single rfl (ix2 p q) _).trans hk
    | ⟨1, _⟩ =>
      show (dot_S4096x256_S256x128_S4096x128_1_0_0_1_n_n.rhsIdx (ix2 p q) _ 1).val = q.val
      unfold DotDims.rhsIdx
      rw [dif_neg (show ¬(1 : Fin S256x128.rank) ∈ dot_S4096x256_S256x128_S4096x128_1_0_0_1_n_n.rhsBatch by decide), dif_pos (show (1 : Fin S256x128.rank) ∈ dot_S4096x256_S256x128_S4096x128_1_0_0_1_n_n.rhsNonContracting by decide)]
      rfl)
  rw [el, er]

/-- The zero word is the real zero, in both float formats the body uses. -/
theorem zero_f32 : (Ideal.ofBits .f32 0x00000000#32 : EReal) = 0 := Ideal.ofBits_zero_f32

/-- A row's lane sum: the sum of its 4096 entries. -/
theorem lane_sum (x : FVec Ideal S256x4096 .f32) (p : Fin 256) :
    multiReduction .add [1] S256 x 0x00000000#32 reduces_S256x4096_S256 (.inl rfl) rfl (ix1 p) = ∑ k : Fin 4096, x (ix2 p k) := by
  refine (Ideal.multiReduction_add_single x 0x00000000#32 reduces_S256x4096_S256 (.inl rfl) rfl (ix1 p)).trans ?_
  refine Finset.sum_congr rfl fun k _ => congrArg x (funext fun a => Fin.ext (by match a with | ⟨0, _⟩ => rfl | ⟨1, _⟩ => rfl))

/-- The row factor, lane-broadcast: at `(p, q)` the inverse square root of row `p`'s sum, an infinite value replaced by zero. -/
theorem pay6_apply (x : FVec Ideal S256x4096 .f32) (p : Fin 256) (q : Fin 128) :
    k0_pay6 (F := Ideal) x (ix2 p q) = Spec.isr (∑ k : Fin 4096, x (ix2 p k)) := by
  unfold k0_pay6
  refine (broadcastTo_a1_ab_apply _ broadcasts_S256x1_S256x128 p q).trans ?_
  rw [shapeCast_self]
  have e : shapeCast S256x1 (multiReduction .add [1] S256 x 0x00000000#32 reduces_S256x4096_S256 (.inl rfl) rfl) shapeCasts_S256_S256x1 (ix2 p (0 : Fin 1))
      = ∑ k : Fin 4096, x (ix2 p k) :=
    (shapeCast_a_a1_apply _ shapeCasts_S256_S256x1 p 0).trans (lane_sum x p)
  exact congrArg Spec.isr e

/-- The stored row factor is that value. -/
theorem pay7_eq (x : FVec Ideal S256x4096 .f32) : k0_pay7 (F := Ideal) x = k0_pay6 (F := Ideal) x := by
  unfold k0_pay7; rw [shapeCast_self]

/-- The scaled feature rows: the row factor times the feature row (the change of format is the identity). -/
theorem pay8_apply (x : FVec Ideal S256x4096 .f32) (h : FVec Ideal S256x128 .f32) (p : Fin 256) (q : Fin 128) :
    k0_pay8 (F := Ideal) x h (ix2 p q) = k0_pay6 (F := Ideal) x (ix2 p q) * h (ix2 p q) := rfl

theorem pay9_eq (x : FVec Ideal S256x4096 .f32) (h : FVec Ideal S256x128 .f32) : k0_pay9 (F := Ideal) x h = k0_pay8 (F := Ideal) x h := by
  unfold k0_pay9; rw [shapeCast_self]

/-- The cached adjacency rows are the rows themselves. -/
theorem pay11_apply (x : FVec Ideal S256x4096 .f32) (i : S256x4096.Idx) : k0_pay11 (F := Ideal) x i = x i := rfl
theorem pay1_eq (v : FVec Ideal S256x4096 .bf16) : k0_pay1 (F := Ideal) v = v := by
  unfold k0_pay1; rw [shapeCast_self]

/-- The zero fill. -/
theorem pay5_apply (i : S4096x128.Idx) : k0_pay5 (F := Ideal) i = 0 := by
  unfold k0_pay5; rw [shapeCast_self]
  show (Ideal.ofBits .bf16 0x0000#16 : EReal) = 0
  simp [Ideal.ofBits, Ideal.ieee]

/-- Features times weights, at `(r, q)`. -/
theorem pay4_apply (x : FVec Ideal S4096x128 .f32) (w : FVec Ideal S128x128 .f32) (r : Fin 4096) (q : Fin 128) :
    k0_pay4 (F := Ideal) x w (ix2 r q) = ∑ k : Fin 128, x (ix2 r k) * w (ix2 k q) := by
  unfold k0_pay4; rw [shapeCast_self]
  refine (mm_feat x w _ r q).trans ?_
  rw [constant_apply, zero_f32, zero_add]

/-- The row product: a row block of the cached adjacency against the whole scaled matrix. -/
theorem pay2_apply (a : FVec Ideal S256x4096 .bf16) (s : FVec Ideal S4096x128 .bf16) (p : Fin 256) (q : Fin 128) :
    k0_pay2 (F := Ideal) a s (ix2 p q) = ∑ k : Fin 4096, a (ix2 p k) * s (ix2 k q) := by
  unfold k0_pay2; rw [shapeCast_self]
  refine (mm_rows a s _ p q).trans ?_
  rw [constant_apply, zero_f32, zero_add]

/-- The column product added to the accumulator: the old entry plus the column block of the cached adjacency against the
    block's scaled feature rows. -/
theorem pay10_apply (x : FVec Ideal S256x4096 .f32) (h : FVec Ideal S256x128 .f32) (c : FVec Ideal S4096x128 .f32) (a : FVec Ideal S4096x256 .bf16)
    (r : Fin 4096) (q : Fin 128) :
    k0_pay10 (F := Ideal) x h c a (ix2 r q) = c (ix2 r q) + ∑ k : Fin 256, a (ix2 r k) * k0_pay8 (F := Ideal) x h (ix2 k q) := by
  unfold k0_pay10; rw [shapeCast_self]
  refine (addf_apply _ _ _).trans ?_
  refine congrArg (c (ix2 r q) + ·) ?_
  refine (mm_cols a _ _ r q).trans ?_
  rw [constant_apply, zero_f32, zero_add]

/-- The result block: the row factor times the accumulator, plus the bias of the column. -/
theorem pay3_apply (d c : FVec Ideal S4096x128 .f32) (b : FVec Ideal S1x128 .f32) (r : Fin 4096) (q : Fin 128) :
    k0_pay3 (F := Ideal) d c b (ix2 r q) = d (ix2 r q) * c (ix2 r q) + b (ix2 (0 : Fin 1) q) := by
  unfold k0_pay3
  refine (addf_apply _ _ _).trans ?_
  refine congrArg (d (ix2 r q) * c (ix2 r q) + ·) ?_
  refine (broadcastTo_1b_ab_apply _ broadcasts_S1x128_S4096x128 r q).trans ?_
  rw [shapeCast_self]

end Cert.KernelIdeal.Pay

end
-- ==== Proof.KIInvFirst.lean ====
/-
  Grid point 0 establishes the triangular schedule's invariant for one block, from scratches holding anything: the point
  first stores the feature product and zeroes the scaled matrix, then does a point's ordinary work on block 0; what the
  accumulator and the cached adjacency held before only reaches rows outside block 0, of which the invariant says nothing.
-/
import proofs.«131481_g28355374088416_cont_9to1_157_9_alg».proof.Proof.KIFirst
import proofs.«131481_g28355374088416_cont_9to1_157_9_alg».proof.Proof.KIOffsets
import proofs.«131481_g28355374088416_cont_9to1_157_9_alg».proof.Proof.KIPay
import proofs.«131481_g28355374088416_cont_9to1_157_9_alg».proof.Proof.KIDat
import Idealize.ShloMosaic.Lib.WritesUnit
import Idealize.ShloMosaic.Lib.Pipeline.FrameBody
import Idealize.ShloMosaic.Lib.Pipeline.Value
import Idealize.ShloMosaic.Lib.Tactic

set_option maxRecDepth 16384

noncomputable section

namespace Cert.KernelIdeal.Body

open Cert.KernelIdeal Cert.KernelIdeal.Gen Cert.KernelIdeal.Pay Cert.KernelIdeal.Blocks
open Idealize.ShloMosaic Idealize.ShloMosaic.TcCoe Idealize.ShloMosaic.Tactic Idealize.ShloMosaic.ValueIdx
open Cert.Step (row)

/-- The invariant after the first point, from what the point's stores leave: the feature product everywhere, the scaled
    matrix on block 0's rows and zero elsewhere, and the row factors, the cached rows and the accumulator on block 0's rows.
    Nothing is asked of the other rows: no block before block 0 has been seen. -/
theorem inv_first (A : Fin 4096 → Fin 4096 → EReal) (X : Fin 4096 → Fin 128 → EReal) (W : Fin 128 → Fin 128 → EReal)
    (n : ℕ) (hn : n < 16) (h0 : n = 0)
    {nA : Fin 4096 → Fin 4096 → EReal} {nD nH nS nC : Fin 4096 → Fin 128 → EReal}
    (fH : ∀ r q, nH r q = Spec.feat X W r q)
    (fS_in : ∀ p q, nS (row n hn p) q = Spec.isr (∑ k : Fin 4096, A (row n hn p) k) * Spec.feat X W (row n hn p) q)
    (fS_out : ∀ r q, r.val / 256 ≠ n → nS r q = 0)
    (fD_in : ∀ p q, nD (row n hn p) q = Spec.isr (∑ k : Fin 4096, A (row n hn p) k))
    (fA_in : ∀ p k, nA (row n hn p) k = A (row n hn p) k)
    (fC_in : ∀ p q, nC (row n hn p) q = ∑ k : Fin 4096, nA (row n hn p) k * nS k q) :
    Cert.Step.Inv A X W (n + 1) nA nD nH nS nC := by
  have hS' : ∀ r q, nS r q = if r.val / 256 < n + 1 then Spec.sfeat A X W r q else 0 := by
    intro r q
    by_cases h : r.val / 256 = n
    · obtain ⟨p, rfl⟩ := Cert.Step.exists_row n hn r h
      rw [fS_in, if_pos (by rw [Cert.Step.row_div]; omega)]
      rfl
    · rw [fS_out r q h, if_neg (by omega)]
  refine ⟨fH, hS', ?_, ?_, ?_⟩
  · intro r q hr
    obtain ⟨p, rfl⟩ := Cert.Step.exists_row n hn r (by omega)
    rw [fD_in]; rfl
  · intro r k hr
    obtain ⟨p, rfl⟩ := Cert.Step.exists_row n hn r (by omega)
    exact fA_in p k
  · intro r q hr
    obtain ⟨p, rfl⟩ := Cert.Step.exists_row n hn r (by omega)
    rw [fC_in]
    refine Finset.sum_congr rfl fun k _ => ?_
    rw [fA_in, hS']
    by_cases h1 : k.val / 256 < n + 1
    · rw [if_pos h1, if_pos h1]
    · rw [if_neg h1, if_neg h1, mul_zero]

/-- A loaded block whose rows are an adjacency row's entries sums to that row's degree; loaded features and weights that
    are the features and the weights multiply to the specification's feature product. -/
theorem deg_of_block (A : Fin 4096 → Fin 4096 → EReal) (x1 : Vec Ideal S256x4096 .f32) (p : Fin 256) (r : Fin 4096)
    (h1 : ∀ k, x1 (ix2 p k) = A r k) : (∑ k : Fin 4096, x1 (ix2 p k)) = ∑ k : Fin 4096, A r k :=
  Finset.sum_congr rfl fun k _ => h1 k
theorem feat_of_blocks (X : Fin 4096 → Fin 128 → EReal) (W : Fin 128 → Fin 128 → EReal) (x2 : Vec Ideal S4096x128 .f32)
    (x3 : Vec Ideal S128x128 .f32) (h2 : ∀ r l, x2 (ix2 r l) = X r l) (h3 : ∀ l q, x3 (ix2 l q) = W l q) (r : Fin 4096) (q : Fin 128) :
    (∑ l : Fin 128, x2 (ix2 r l) * x3 (ix2 l q)) = Spec.feat X W r q :=
  Finset.sum_congr rfl fun l _ => by rw [h2, h3]

section First

variable (c : Dev nD) (t : Fin cfg0.N) (arg1 : Memref sig .tc .vmem S256x4096 .f32) (harg1 : arg1.IsWhole) (arg2 : Memref sig .tc .vmem S4096x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S4096x128 .f32) (harg5 : arg5.IsWhole)
  (hc0 : IsFirst (grid0.coords t)) (hc1 : ¬IsLast (grid0.coords t))
  (x1 : Vec Ideal S256x4096 .f32) (x2 : Vec Ideal S4096x128 .f32) (x3 : Vec Ideal S128x128 .f32) (x4 : Vec Ideal S1x128 .f32)
  (sA : Vec Ideal S4096x4096 .bf16) (sD sH : Vec Ideal S4096x128 .f32) (sS : Vec Ideal S4096x128 .bf16) (sC : Vec Ideal S4096x128 .f32)

local notation "RUN" => runFirst (F := Ideal) c (grid0.coords t) arg1 harg1 arg2 harg2 arg3 harg3 arg4 harg4 arg5 harg5 hc0 hc1 x1 x2 x3 x4 sA sD sH sS sC

/-- The scratches after point 0: the point's stores written over whatever raw contents `f·` each buffer held. -/
abbrev runFirst_nA (fA : scA.view.ty.Contents (Elt Ideal)) : Vec Ideal S4096x4096 .bf16 := scA.view.read (Elt Ideal) (scA.view.writes (Elt Ideal) fA (RUN).1)
abbrev runFirst_nD (fD : scD.view.ty.Contents (Elt Ideal)) : Vec Ideal S4096x128 .f32 := scD.view.read (Elt Ideal) (scD.view.writes (Elt Ideal) fD (RUN).2.1)
abbrev runFirst_nH (fH : scH.view.ty.Contents (Elt Ideal)) : Vec Ideal S4096x128 .f32 := scH.view.read (Elt Ideal) (scH.view.writes (Elt Ideal) fH (RUN).2.2.1)
abbrev runFirst_nS (fS : scS.view.ty.Contents (Elt Ideal)) : Vec Ideal S4096x128 .bf16 := scS.view.read (Elt Ideal) (scS.view.writes (Elt Ideal) fS (RUN).2.2.2.1)
abbrev runFirst_nC (fC : scC.view.ty.Contents (Elt Ideal)) : Vec Ideal S4096x128 .f32 := scC.view.read (Elt Ideal) (scC.view.writes (Elt Ideal) fC (RUN).2.2.2.2.1)

/-! ## What the loads of point 0 read -/

/-- The adjacency block, the features and the weights as the body loads them are the blocks. -/
theorem first_v5 : View.readAt (Elt Ideal) arg1.view (Rect.unit ![0, 0] S256x4096.size inb_S256x4096_S256x4096_0_0).toLoadRect (harg1.unread x1) = x1 := by
  rw [View.readAt_eq_ld, harg1.read_unread, View.ld_unit_zero zero2]
theorem first_v52 : View.readAt (Elt Ideal) arg2.view (Rect.unit ![0, 0] S4096x128.size inb_S4096x128_S4096x128_0_0).toLoadRect (harg2.unread x2) = x2 := by
  rw [View.readAt_eq_ld, harg2.read_unread, View.ld_unit_zero zero2]
theorem first_v53 : View.readAt (Elt Ideal) arg3.view (Rect.unit ![0, 0] S128x128.size inb_S128x128_S128x128_0_0).toLoadRect (harg3.unread x3) = x3 := by
  rw [View.readAt_eq_ld, harg3.read_unread, View.ld_unit_zero zero2]

/-- The feature rows the body loads at the block, after the whole store of a feature product `V`: rows `256 t …` of `V`,
    whatever the buffer held under the store. -/
theorem first_v21 (V : (Rect.unit (s := S4096x128) ![0, 0] S4096x128.size inb_S4096x128_S4096x128_0_0).shape.Idx → Elt Ideal .f32) (p : Fin 256) (q : Fin 128) :
    View.readAt (Elt Ideal) scH.view (Rect.unit (s := S4096x128) (k0_off1 (grid0.coords t)) S256x128.size (k0_off1_inb (grid0.coords t))).toLoadRect
        (scH.view.writes (Elt Ideal) scH.view.junk [⟨Rect.unit (s := S4096x128) ![0, 0] S4096x128.size inb_S4096x128_S4096x128_0_0, V⟩]) (ix2 p q)
      = V (ix2 (row t.val (t_lt t) p) q) := by
  rw [View.readAt_eq_ld]
  show scH.view.read (Elt Ideal) _ ((Rect.unit (s := S4096x128) (k0_off1 (grid0.coords t)) S256x128.size (k0_off1_inb (grid0.coords t))).idx (ix2 p q)) = _
  have hi : (Rect.unit (s := S4096x128) (k0_off1 (grid0.coords t)) S256x128.size (k0_off1_inb (grid0.coords t))).idx (ix2 p q) = ix2 (row t.val (t_lt t) p) q := by
    funext a; apply Fin.ext
    have ho := off1_eq t
    match a with
    | ⟨0, _⟩ =>
      show k0_off1 (grid0.coords t) 0 + 1 * p.val = 256 * t.val + p.val
      rw [ho]; show 256 * t.val + 1 * p.val = _; omega
    | ⟨1, _⟩ =>
      show k0_off1 (grid0.coords t) 1 + 1 * q.val = q.val
      rw [ho]; show 0 + 1 * q.val = _; omega
  rw [hi]
  exact View.read_writes_cons_rows_of_mem scH.view _ _ _ [] (ix2 (row t.val (t_lt t) p) q) (ix2 (row t.val (t_lt t) p) q) (o := 0) rfl (Nat.zero_add _).symm rfl

/-! ## What the scratches hold after point 0, by coordinates, over ANY prior contents -/

/-- The feature product: stored whole. -/
theorem first_H (f : scH.view.ty.Contents (Elt Ideal)) (r : Fin 4096) (q : Fin 128) :
    scH.view.read (Elt Ideal) (scH.view.writes (Elt Ideal) f (RUN).2.2.1) (ix2 r q) = ∑ l : Fin 128, x2 (ix2 r l) * x3 (ix2 l q) := by
  dsimp only [runFirst]
  sl_unfold_run_names
  refine (View.read_writes_cons_rows_of_mem scH.view _ _ _ [] (ix2 r q) (ix2 r q) (o := 0) rfl (Nat.zero_add _).symm rfl).trans ?_
  rw [first_v52, first_v53]
  exact pay4_apply x2 x3 r q

/-- Cached adjacency on the block's rows: the block. -/
theorem first_A_in (f : scA.view.ty.Contents (Elt Ideal)) (p : Fin 256) (k : Fin 4096) :
    scA.view.read (Elt Ideal) (scA.view.writes (Elt Ideal) f (RUN).1) (ix2 (row t.val (t_lt t) p) k) = x1 (ix2 p k) := by
  dsimp only [runFirst]
  sl_unfold_run_names
  refine (View.read_writes_cons_rows_of_mem scA.view _ _ _ [] (ix2 (row t.val (t_lt t) p) k) (ix2 p k) (off3_eq t) rfl rfl).trans ?_
  rw [pay1_eq]
  refine (pay11_apply _ _).trans ?_
  rw [first_v5]

/-- Row factors on the block's rows: the inverse square root of the row's sum. -/
theorem first_D_in (f : scD.view.ty.Contents (Elt Ideal)) (p : Fin 256) (q : Fin 128) :
    scD.view.read (Elt Ideal) (scD.view.writes (Elt Ideal) f (RUN).2.1) (ix2 (row t.val (t_lt t) p) q) = Spec.isr (∑ k : Fin 4096, x1 (ix2 p k)) := by
  dsimp only [runFirst]
  sl_unfold_run_names
  refine (View.read_writes_cons_rows_of_mem scD.view _ _ _ [] (ix2 (row t.val (t_lt t) p) q) (ix2 p q) (off1_eq t) rfl rfl).trans ?_
  rw [pay7_eq, first_v5]
  exact pay6_apply x1 p q

/-- Scaled features on the block's rows: the row factor times the feature product's row. -/
theorem first_S_in (f : scS.view.ty.Contents (Elt Ideal)) (p : Fin 256) (q : Fin 128) :
    scS.view.read (Elt Ideal) (scS.view.writes (Elt Ideal) f (RUN).2.2.2.1) (ix2 (row t.val (t_lt t) p) q)
      = Spec.isr (∑ k : Fin 4096, x1 (ix2 p k)) * ∑ l : Fin 128, x2 (ix2 (row t.val (t_lt t) p) l) * x3 (ix2 l q) := by
  dsimp only [runFirst]
  sl_unfold_run_names
  refine (View.read_writes_cons_rows_of_mem scS.view _ _ _ _ (ix2 (row t.val (t_lt t) p) q) (ix2 p q) (off1_eq t) rfl rfl).trans ?_
  rw [pay9_eq, first_v5]
  refine (pay8_apply x1 _ p q).trans ?_
  rw [pay6_apply, first_v21, first_v52, first_v53, pay4_apply]

/-- Scaled features elsewhere: the zero fill. -/
theorem first_S_out (f : scS.view.ty.Contents (Elt Ideal)) (r : Fin 4096) (q : Fin 128) (h : r.val / 256 ≠ t.val) :
    scS.view.read (Elt Ideal) (scS.view.writes (Elt Ideal) f (RUN).2.2.2.1) (ix2 r q) = 0 := by
  dsimp only [runFirst]
  sl_unfold_run_names
  refine (View.read_writes_cons_rows_of_not_mem scS.view _ _ _ _ (ix2 r q) (off1_eq t) (W := 256) rfl (by
    show r.val < 256 * t.val ∨ 256 * t.val + 256 ≤ r.val
    omega)).trans ?_
  refine (View.read_writes_cons_rows_of_mem scS.view _ _ _ [] (ix2 r q) (ix2 r q) (o := 0) rfl (Nat.zero_add _).symm rfl).trans ?_
  exact pay5_apply _

/-- The accumulator on the block's rows: ASSIGNED the product of the block's rows with the whole scaled matrix as the
    point's two stores leave it (read over junk: the two stores cover it). -/
theorem first_C_in (f : scC.view.ty.Contents (Elt Ideal)) (p : Fin 256) (q : Fin 128) :
    scC.view.read (Elt Ideal) (scC.view.writes (Elt Ideal) f (RUN).2.2.2.2.1) (ix2 (row t.val (t_lt t) p) q)
      = ∑ k : Fin 4096, x1 (ix2 p k) * scS.view.read (Elt Ideal) (scS.view.writes (Elt Ideal) scS.view.junk (RUN).2.2.2.1) (ix2 k q) := by
  dsimp only [runFirst]
  sl_unfold_run_names
  refine (View.read_writes_cons_rows_of_mem scC.view _ _ _ _ (ix2 (row t.val (t_lt t) p) q) (ix2 p q) (off1_eq t) rfl rfl).trans ?_
  refine (pay2_apply _ _ p q).trans ?_
  refine Finset.sum_congr rfl fun k _ => ?_
  rw [View.readCov_cons_toLoadRect, pay1_eq]
  refine congrArg₂ (· * ·) ?_ ?_
  · refine (pay11_apply _ _).trans ?_
    rw [first_v5]
  · unfold View.readCov
    rw [View.readAt_eq_ld]
    exact congrFun (View.ld_unit_zero (S := S4096x128) zero2 _ _) (ix2 k q)

/-- The scaled matrix after point 0 does not depend on what the buffer held: its two stores cover it. -/
theorem first_S_base (f f' : scS.view.ty.Contents (Elt Ideal)) (r : Fin 4096) (q : Fin 128) :
    scS.view.read (Elt Ideal) (scS.view.writes (Elt Ideal) f (RUN).2.2.2.1) (ix2 r q)
      = scS.view.read (Elt Ideal) (scS.view.writes (Elt Ideal) f' (RUN).2.2.2.1) (ix2 r q) := by
  by_cases h : r.val / 256 = t.val
  · obtain ⟨p, rfl⟩ := Cert.Step.exists_row t.val (t_lt t) r h
    rw [first_S_in c t arg1 harg1 arg2 harg2 arg3 harg3 arg4 harg4 arg5 harg5 hc0 hc1 x1 x2 x3 x4 sA sD sH sS sC f p q, first_S_in c t arg1 harg1 arg2 harg2 arg3 harg3 arg4 harg4 arg5 harg5 hc0 hc1 x1 x2 x3 x4 sA sD sH sS sC f' p q]
  · rw [first_S_out c t arg1 harg1 arg2 harg2 arg3 harg3 arg4 harg4 arg5 harg5 hc0 hc1 x1 x2 x3 x4 sA sD sH sS sC f r q h, first_S_out c t arg1 harg1 arg2 harg2 arg3 harg3 arg4 harg4 arg5 harg5 hc0 hc1 x1 x2 x3 x4 sA sD sH sS sC f' r q h]

end First

variable (m : (ℓ : Loc nD τ sig) → Buf (Elt Ideal) ℓ)

/-- The loaded blocks at point `t` by coordinates: rows `256 t …` of the adjacency, the features, the weights. -/
theorem first_blkA (c : Dev nD) (t : Fin cfg0.N) (p : Fin 256) (k : Fin 4096) :
    iblk m c 0 t (ix2 p k) = Aof m c (row t.val (t_lt t) p) k := by
  rw [blkA_apply, V_main_arg1]; rfl
theorem first_blkX (c : Dev nD) (t : Fin cfg0.N) (r : Fin 4096) (l : Fin 128) :
    iblk m c 1 t (ix2 r l) = Xof m c r l := by
  rw [blkX_apply, V_main_arg0]; rfl
theorem first_blkW (c : Dev nD) (t : Fin cfg0.N) (l : Fin 128) (q : Fin 128) :
    iblk m c 2 t (ix2 l q) = Wof m c l q := by
  rw [blkW_apply, V_main_arg2]; rfl

theorem first_inv (c : Dev nD) (t : Fin cfg0.N) (arg1 : Memref sig .tc .vmem S256x4096 .f32) (harg1 : arg1.IsWhole) (arg2 : Memref sig .tc .vmem S4096x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S4096x128 .f32) (harg5 : arg5.IsWhole)
    (hc0 : IsFirst (grid0.coords t)) (hc1 : ¬IsLast (grid0.coords t)) (x4 : Vec Ideal S1x128 .f32)
    (sA : Vec Ideal S4096x4096 .bf16) (sD sH : Vec Ideal S4096x128 .f32) (sS : Vec Ideal S4096x128 .bf16) (sC : Vec Ideal S4096x128 .f32)
    (fA : scA.view.ty.Contents (Elt Ideal)) (fD : scD.view.ty.Contents (Elt Ideal)) (fH : scH.view.ty.Contents (Elt Ideal))
    (fS : scS.view.ty.Contents (Elt Ideal)) (fC : scC.view.ty.Contents (Elt Ideal)) :
    InvV m c (t.val + 1)
      (runFirst_nA c t arg1 harg1 arg2 harg2 arg3 harg3 arg4 harg4 arg5 harg5 hc0 hc1 (iblk m c 0 t) (iblk m c 1 t) (iblk m c 2 t) x4 sA sD sH sS sC fA)
      (runFirst_nD c t arg1 harg1 arg2 harg2 arg3 harg3 arg4 harg4 arg5 harg5 hc0 hc1 (iblk m c 0 t) (iblk m c 1 t) (iblk m c 2 t) x4 sA sD sH sS sC fD)
      (runFirst_nH c t arg1 harg1 arg2 harg2 arg3 harg3 arg4 harg4 arg5 harg5 hc0 hc1 (iblk m c 0 t) (iblk m c 1 t) (iblk m c 2 t) x4 sA sD sH sS sC fH)
      (runFirst_nS c t arg1 harg1 arg2 harg2 arg3 harg3 arg4 harg4 arg5 harg5 hc0 hc1 (iblk m c 0 t) (iblk m c 1 t) (iblk m c 2 t) x4 sA sD sH sS sC fS)
      (runFirst_nC c t arg1 harg1 arg2 harg2 arg3 harg3 arg4 harg4 arg5 harg5 hc0 hc1 (iblk m c 0 t) (iblk m c 1 t) (iblk m c 2 t) x4 sA sD sH sS sC fC) := by
  unfold InvV
  have h0 : t.val = 0 := (isFirst_iff t).mp hc0
  have hdeg := fun p : Fin 256 => deg_of_block (Aof m c) (iblk m c 0 t) p (row t.val (t_lt t) p) (first_blkA m c t p)
  have hfeat := feat_of_blocks (Xof m c) (Wof m c) (iblk m c 1 t) (iblk m c 2 t) (first_blkX m c t) (first_blkW m c t)
  refine inv_first (Aof m c) (Xof m c) (Wof m c) t.val (t_lt t) h0 ?_ ?_ ?_ ?_ ?_ ?_
  · intro r q
    exact (first_H c t arg1 harg1 arg2 harg2 arg3 harg3 arg4 harg4 arg5 harg5 hc0 hc1 (iblk m c 0 t) (iblk m c 1 t) (iblk m c 2 t) x4 sA sD sH sS sC fH r q).trans (hfeat r q)
  · intro p q
    exact (first_S_in c t arg1 harg1 arg2 harg2 arg3 harg3 arg4 harg4 arg5 harg5 hc0 hc1 (iblk m c 0 t) (iblk m c 1 t) (iblk m c 2 t) x4 sA sD sH sS sC fS p q).trans
      (congrArg₂ (fun a b : EReal => a * b) (congrArg Spec.isr (hdeg p)) (hfeat _ q))
  · intro r q hr
    exact first_S_out c t arg1 harg1 arg2 harg2 arg3 harg3 arg4 harg4 arg5 harg5 hc0 hc1 (iblk m c 0 t) (iblk m c 1 t) (iblk m c 2 t) x4 sA sD sH sS sC fS r q hr
  · intro p q
    exact (first_D_in c t arg1 harg1 arg2 harg2 arg3 harg3 arg4 harg4 arg5 harg5 hc0 hc1 (iblk m c 0 t) (iblk m c 1 t) (iblk m c 2 t) x4 sA sD sH sS sC fD p q).trans (congrArg Spec.isr (hdeg p))
  · intro p k
    exact (first_A_in c t arg1 harg1 arg2 harg2 arg3 harg3 arg4 harg4 arg5 harg5 hc0 hc1 (iblk m c 0 t) (iblk m c 1 t) (iblk m c 2 t) x4 sA sD sH sS sC fA p k).trans (first_blkA m c t p k)
  · intro p q
    refine (first_C_in c t arg1 harg1 arg2 harg2 arg3 harg3 arg4 harg4 arg5 harg5 hc0 hc1 (iblk m c 0 t) (iblk m c 1 t) (iblk m c 2 t) x4 sA sD sH sS sC fC p q).trans (Finset.sum_congr rfl fun k _ => ?_)
    exact congrArg₂ (fun a b : EReal => a * b) (first_A_in c t arg1 harg1 arg2 harg2 arg3 harg3 arg4 harg4 arg5 harg5 hc0 hc1 (iblk m c 0 t) (iblk m c 1 t) (iblk m c 2 t) x4 sA sD sH sS sC fA p k).symm
      (first_S_base c t arg1 harg1 arg2 harg2 arg3 harg3 arg4 harg4 arg5 harg5 hc0 hc1 (iblk m c 0 t) (iblk m c 1 t) (iblk m c 2 t) x4 sA sD sH sS sC _ fS k q)

end Cert.KernelIdeal.Body

end
-- ==== Proof.KIMid.lean ====
/-
  The kernel body at a middle grid point (neither branch taken), run on whole staging buffers and the five scratches at
  named contents: the row block is summed and its inverse square roots stored into their slice, the scaled feature rows
  into theirs, the accumulator is read whole, increased by the product of the cached column block with the scaled rows and
  stored whole, the adjacency rows are cached, and the accumulator's slice for this row block is overwritten by the product
  of the cached rows with the whole scaled matrix. What each scratch holds afterwards is its contents with the stores
  written over them, piece by piece (last first); the pieces are found by the run itself.
-/
import proofs.«131481_g28355374088416_cont_9to1_157_9_alg».proof.Proof.Gen.KernelIdeal.Launch
import proofs.«131481_g28355374088416_cont_9to1_157_9_alg».proof.Proof.Gen.KernelIdeal.Skeleton
import proofs.«131481_g28355374088416_cont_9to1_157_9_alg».proof.Proof.Gen.KernelIdeal.Points
import proofs.«131481_g28355374088416_cont_9to1_157_9_alg».proof.Proof.KICommon
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runMid (c : Dev nD) (i : grid0.Coords) (arg1 : Memref sig .tc .vmem S256x4096 .f32) (harg1 : arg1.IsWhole) (arg2 : Memref sig .tc .vmem S4096x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S4096x128 .f32) (harg5 : arg5.IsWhole)
    (hc0 : ¬IsFirst i) (hc1 : ¬IsLast i)
    (x1 : Vec F S256x4096 .f32) (x2 : Vec F S4096x128 .f32) (x3 : Vec F S128x128 .f32) (x4 : Vec F S1x128 .f32)
    (sA : Vec F S4096x4096 .bf16) (sD sH : Vec F S4096x128 .f32) (sS : Vec F S4096x128 .bf16) (sC : Vec F S4096x128 .f32) :
    Σ' (LA : List (View.Piece (Elt F) S4096x4096 .bf16)) (LD : List (View.Piece (Elt F) S4096x128 .f32)) (LS : List (View.Piece (Elt F) S4096x128 .bf16)),
    { LC : List (View.Piece (Elt F) S4096x128 .f32) //
      ∀ (xi5 : Vec F S4096x128 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare xi5
            ∗ owns (c : Thread nD τ) scA fullShare sA ∗ owns (c : Thread nD τ) scD fullShare sD ∗ owns (c : Thread nD τ) scH fullShare sH ∗ owns (c : Thread nD τ) scS fullShare sS ∗ owns (c : Thread nD τ) scC fullShare sC
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare xi5
                ∗ (scA.view.loc (c : Thread nD τ) ↦[scA.view.set]{fullShare} scA.view.writes (Elt F) ((Memref.isWhole_whole cc0_scratch0).unread sA) LA)
                ∗ (scD.view.loc (c : Thread nD τ) ↦[scD.view.set]{fullShare} scD.view.writes (Elt F) ((Memref.isWhole_whole cc0_scratch1).unread sD) LD)
                ∗ owns (c : Thread nD τ) scH fullShare sH
                ∗ (scS.view.loc (c : Thread nD τ) ↦[scS.view.set]{fullShare} scS.view.writes (Elt F) ((Memref.isWhole_whole cc0_scratch3).unread sS) LS)
                ∗ (scC.view.loc (c : Thread nD τ) ↦[scC.view.set]{fullShare} scC.view.writes (Elt F) ((Memref.isWhole_whole cc0_scratch4).unread sC) LC)) -∗ K ⟨⟩))
          ⊢ wp frame (wpE (defs₀ (F := F)) Variants.none c none) E (cc0__fused i arg1 harg1 arg2 harg2 arg3 harg3 arg4 harg4 arg5 harg5 scA (Memref.isWhole_whole _) scD (Memref.isWhole_whole _) scH (Memref.isWhole_whole _) scS (Memref.isWhole_whole _) scC (Memref.isWhole_whole _)) K } := by
  refine ⟨?_, ?_, ?_, ?_, fun xi5 E K => ?run⟩
  case run =>
    simp only [cc0__fused_eq_skeleton]; unfold cc0__fused_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%fA, %hfA, HA⟩, ⟨%fD, %hfD, HD⟩, ⟨%fH, %hfH, HH⟩, ⟨%fS, %hfS, HS⟩, ⟨%fC, %hfC, HC⟩, Hk⟩
    obtain rfl := harg1.eq_unread hf1; obtain rfl := harg2.eq_unread hf2; obtain rfl := harg3.eq_unread hf3; obtain rfl := harg4.eq_unread hf4; obtain rfl := harg5.eq_unread hf5
    obtain rfl := (Memref.isWhole_whole cc0_scratch0).eq_unread hfA; obtain rfl := (Memref.isWhole_whole cc0_scratch1).eq_unread hfD
    obtain rfl := (Memref.isWhole_whole cc0_scratch2).eq_unread hfH; obtain rfl := (Memref.isWhole_whole cc0_scratch3).eq_unread hfS
    obtain rfl := (Memref.isWhole_whole cc0_scratch4).eq_unread hfC
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [HA]; · iexact HA
    isplitl [HD]; · iexact HD
    isplitl [HH]
    · iexists _; isplitr; · ipureintro; exact (Memref.isWhole_whole cc0_scratch2).read_unread _
      iexact HH
    isplitl [HS]; · iexact HS
    iexact HC

end Cert.KernelIdeal.Body

end
-- ==== Proof.KIFlowMid.lean ====
/-
  What the scratches hold after a middle grid point, by coordinates. The cached adjacency, the row factors and the scaled
  features are their prior contents with one row-block store written over them: on the block's rows the stored value,
  elsewhere what they held. The accumulator is first increased whole by the point's block-column tile and then, on the
  block's rows, assigned the full-length product of the cached rows with the scaled matrix.
-/
import proofs.«131481_g28355374088416_cont_9to1_157_9_alg».proof.Proof.KIMid
import proofs.«131481_g28355374088416_cont_9to1_157_9_alg».proof.Proof.KIOffsets
import proofs.«131481_g28355374088416_cont_9to1_157_9_alg».proof.Proof.KIPay
import proofs.«131481_g28355374088416_cont_9to1_157_9_alg».proof.Proof.KIBlocks
import Idealize.ShloMosaic.Lib.WritesUnit
import Idealize.ShloMosaic.Lib.Pipeline.FrameBody
import Idealize.ShloMosaic.Lib.Pipeline.Value
import Idealize.ShloMosaic.Lib.Tactic

set_option maxRecDepth 16384

noncomputable section

namespace Cert.KernelIdeal.Body

open Cert.KernelIdeal Cert.KernelIdeal.Gen Cert.KernelIdeal.Pay Cert.KernelIdeal.Blocks
open Idealize.ShloMosaic Idealize.ShloMosaic.TcCoe Idealize.ShloMosaic.Tactic Idealize.ShloMosaic.ValueIdx
open Cert.Step (row)

section Flows

variable (c : Dev nD) (t : Fin cfg0.N) (arg1 : Memref sig .tc .vmem S256x4096 .f32) (harg1 : arg1.IsWhole) (arg2 : Memref sig .tc .vmem S4096x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S4096x128 .f32) (harg5 : arg5.IsWhole)
  (hc0 : ¬IsFirst (grid0.coords t)) (hc1 : ¬IsLast (grid0.coords t))
  (x1 : Vec Ideal S256x4096 .f32) (x2 : Vec Ideal S4096x128 .f32) (x3 : Vec Ideal S128x128 .f32) (x4 : Vec Ideal S1x128 .f32)
  (sA : Vec Ideal S4096x4096 .bf16) (sD sH : Vec Ideal S4096x128 .f32) (sS : Vec Ideal S4096x128 .bf16) (sC : Vec Ideal S4096x128 .f32)

local notation "RUN" => runMid (F := Ideal) c (grid0.coords t) arg1 harg1 arg2 harg2 arg3 harg3 arg4 harg4 arg5 harg5 hc0 hc1 x1 x2 x3 x4 sA sD sH sS sC

/-- The scratches after the point: the prior contents with the point's stores written over them. -/
abbrev runMid_nA : Vec Ideal S4096x4096 .bf16 := scA.view.read (Elt Ideal) (scA.view.writes (Elt Ideal) ((Memref.isWhole_whole cc0_scratch0).unread sA) (RUN).1)
abbrev runMid_nD : Vec Ideal S4096x128 .f32 := scD.view.read (Elt Ideal) (scD.view.writes (Elt Ideal) ((Memref.isWhole_whole cc0_scratch1).unread sD) (RUN).2.1)
abbrev runMid_nS : Vec Ideal S4096x128 .bf16 := scS.view.read (Elt Ideal) (scS.view.writes (Elt Ideal) ((Memref.isWhole_whole cc0_scratch3).unread sS) (RUN).2.2.1)
abbrev runMid_nC : Vec Ideal S4096x128 .f32 := scC.view.read (Elt Ideal) (scC.view.writes (Elt Ideal) ((Memref.isWhole_whole cc0_scratch4).unread sC) (RUN).2.2.2.1)

/-- The adjacency block as the body loads it is the block. -/
theorem runMid_v5 : View.readAt (Elt Ideal) arg1.view (Rect.unit ![0, 0] S256x4096.size inb_S256x4096_S256x4096_0_0).toLoadRect (harg1.unread x1) = x1 := by
  rw [View.readAt_eq_ld, harg1.read_unread, View.ld_unit_zero zero2]

/-- Cached adjacency: on the block's rows the block, elsewhere as before. -/
theorem runMid_A_in (p : Fin 256) (k : Fin 4096) :
    runMid_nA c t arg1 harg1 arg2 harg2 arg3 harg3 arg4 harg4 arg5 harg5 hc0 hc1 x1 x2 x3 x4 sA sD sH sS sC (ix2 (row t.val (t_lt t) p) k) = x1 (ix2 p k) := by
  dsimp only [runMid_nA, runMid]
  sl_unfold_run_names
  refine (View.read_writes_cons_rows_of_mem scA.view _ _ _ [] (ix2 (row t.val (t_lt t) p) k) (ix2 p k) (off3_eq t) rfl rfl).trans ?_
  rw [pay1_eq]
  refine (pay11_apply _ _).trans ?_
  rw [runMid_v5]

theorem runMid_A_out (r : Fin 4096) (k : Fin 4096) (h : r.val / 256 ≠ t.val) :
    runMid_nA c t arg1 harg1 arg2 harg2 arg3 harg3 arg4 harg4 arg5 harg5 hc0 hc1 x1 x2 x3 x4 sA sD sH sS sC (ix2 r k) = sA (ix2 r k) := by
  dsimp only [runMid_nA, runMid]
  sl_unfold_run_names
  refine (View.read_writes_cons_rows_of_not_mem scA.view _ _ _ [] (ix2 r k) (off3_eq t) (W := 256) rfl (by
    show r.val < 256 * t.val ∨ 256 * t.val + 256 ≤ r.val
    omega)).trans ?_
  rw [View.writes_nil, (Memref.isWhole_whole cc0_scratch0).read_unread]

/-- Row factors: on the block's rows the inverse square root of the row's sum, elsewhere as before. -/
theorem runMid_D_in (p : Fin 256) (q : Fin 128) :
    runMid_nD c t arg1 harg1 arg2 harg2 arg3 harg3 arg4 harg4 arg5 harg5 hc0 hc1 x1 x2 x3 x4 sA sD sH sS sC (ix2 (row t.val (t_lt t) p) q)
      = Spec.isr (∑ k : Fin 4096, x1 (ix2 p k)) := by
  dsimp only [runMid_nD, runMid]
  sl_unfold_run_names
  refine (View.read_writes_cons_rows_of_mem scD.view _ _ _ [] (ix2 (row t.val (t_lt t) p) q) (ix2 p q) (off1_eq t) rfl rfl).trans ?_
  rw [pay7_eq, runMid_v5]
  exact pay6_apply x1 p q

theorem runMid_D_out (r : Fin 4096) (q : Fin 128) (h : r.val / 256 ≠ t.val) :
    runMid_nD c t arg1 harg1 arg2 harg2 arg3 harg3 arg4 harg4 arg5 harg5 hc0 hc1 x1 x2 x3 x4 sA sD sH sS sC (ix2 r q) = sD (ix2 r q) := by
  dsimp only [runMid_nD, runMid]
  sl_unfold_run_names
  refine (View.read_writes_cons_rows_of_not_mem scD.view _ _ _ [] (ix2 r q) (off1_eq t) (W := 256) rfl (by
    show r.val < 256 * t.val ∨ 256 * t.val + 256 ≤ r.val
    omega)).trans ?_
  rw [View.writes_nil, (Memref.isWhole_whole cc0_scratch1).read_unread]

/-- The feature rows the body loads at the block: the feature product's rows. -/
theorem runMid_v21 (p : Fin 256) (q : Fin 128) :
    View.readAt (Elt Ideal) scH.view (Rect.unit (s := S4096x128) (k0_off1 (grid0.coords t)) S256x128.size (k0_off1_inb (grid0.coords t))).toLoadRect ((Memref.isWhole_whole cc0_scratch2).unread sH) (ix2 p q)
      = sH (ix2 (row t.val (t_lt t) p) q) := by
  rw [View.readAt_eq_ld, (Memref.isWhole_whole cc0_scratch2).read_unread]
  show sH ((Rect.unit (s := S4096x128) (k0_off1 (grid0.coords t)) S256x128.size (k0_off1_inb (grid0.coords t))).idx (ix2 p q)) = _
  refine congrArg sH (funext fun a => Fin.ext ?_)
  have ho := off1_eq t
  match a with
  | ⟨0, _⟩ =>
    show k0_off1 (grid0.coords t) 0 + 1 * p.val = 256 * t.val + p.val
    rw [ho]; show 256 * t.val + 1 * p.val = _; omega
  | ⟨1, _⟩ =>
    show k0_off1 (grid0.coords t) 1 + 1 * q.val = q.val
    rw [ho]; show 0 + 1 * q.val = _; omega

/-- Scaled features: on the block's rows the row factor times the feature row, elsewhere as before. -/
theorem runMid_S_in (p : Fin 256) (q : Fin 128) :
    runMid_nS c t arg1 harg1 arg2 harg2 arg3 harg3 arg4 harg4 arg5 harg5 hc0 hc1 x1 x2 x3 x4 sA sD sH sS sC (ix2 (row t.val (t_lt t) p) q)
      = Spec.isr (∑ k : Fin 4096, x1 (ix2 p k)) * sH (ix2 (row t.val (t_lt t) p) q) := by
  dsimp only [runMid_nS, runMid]
  sl_unfold_run_names
  refine (View.read_writes_cons_rows_of_mem scS.view _ _ _ [] (ix2 (row t.val (t_lt t) p) q) (ix2 p q) (off1_eq t) rfl rfl).trans ?_
  rw [pay9_eq, runMid_v5]
  refine (pay8_apply x1 _ p q).trans ?_
  rw [pay6_apply, runMid_v21]

theorem runMid_S_out (r : Fin 4096) (q : Fin 128) (h : r.val / 256 ≠ t.val) :
    runMid_nS c t arg1 harg1 arg2 harg2 arg3 harg3 arg4 harg4 arg5 harg5 hc0 hc1 x1 x2 x3 x4 sA sD sH sS sC (ix2 r q) = sS (ix2 r q) := by
  dsimp only [runMid_nS, runMid]
  sl_unfold_run_names
  refine (View.read_writes_cons_rows_of_not_mem scS.view _ _ _ [] (ix2 r q) (off1_eq t) (W := 256) rfl (by
    show r.val < 256 * t.val ∨ 256 * t.val + 256 ≤ r.val
    omega)).trans ?_
  rw [View.writes_nil, (Memref.isWhole_whole cc0_scratch3).read_unread]

/-- The accumulator as the body loads it whole is the accumulator. -/
theorem runMid_v28 : View.readAt (Elt Ideal) (View.whole cc0_scratch4) (Rect.unit ![0, 0] ![4096, 128] inb_S4096x128_S4096x128_0_0).toLoadRect ((Memref.isWhole_whole cc0_scratch4).unread sC) = sC := by
  rw [View.readAt_eq_ld, show (View.whole cc0_scratch4).read (Elt Ideal) ((Memref.isWhole_whole cc0_scratch4).unread sC) = sC from (Memref.isWhole_whole cc0_scratch4).read_unread sC]
  exact View.ld_unit_zero (S := S4096x128) zero2 _ sC

/-- The column block of the cached adjacency the body loads: column `256 t + k'` of every row. -/
theorem runMid_v30 (r : Fin 4096) (k' : Fin 256) :
    View.readAt (Elt Ideal) (View.whole cc0_scratch0) (Rect.unit (s := S4096x4096) (k0_off2 (grid0.coords t)) ![4096, 256] (k0_off2_inb (grid0.coords t))).toLoadRect ((Memref.isWhole_whole cc0_scratch0).unread sA) (ix2 r k')
      = sA (ix2 r (row t.val (t_lt t) k')) := by
  rw [View.readAt_eq_ld, show (View.whole cc0_scratch0).read (Elt Ideal) ((Memref.isWhole_whole cc0_scratch0).unread sA) = sA from (Memref.isWhole_whole cc0_scratch0).read_unread sA]
  show sA ((Rect.unit (s := S4096x4096) (k0_off2 (grid0.coords t)) ![4096, 256] (k0_off2_inb (grid0.coords t))).idx (ix2 r k')) = _
  refine congrArg sA (funext fun a => Fin.ext ?_)
  have ho := off2_eq t
  match a with
  | ⟨0, _⟩ =>
    show k0_off2 (grid0.coords t) 0 + 1 * r.val = r.val
    rw [ho]; show 0 + 1 * r.val = _; omega
  | ⟨1, _⟩ =>
    show k0_off2 (grid0.coords t) 1 + 1 * k'.val = 256 * t.val + k'.val
    rw [ho]; show 256 * t.val + 1 * k'.val = _; omega

/-- The accumulator on the block's rows: ASSIGNED the product of the block's cached rows with the whole scaled matrix as
    the point leaves it. -/
theorem runMid_C_in (p : Fin 256) (q : Fin 128) :
    runMid_nC c t arg1 harg1 arg2 harg2 arg3 harg3 arg4 harg4 arg5 harg5 hc0 hc1 x1 x2 x3 x4 sA sD sH sS sC (ix2 (row t.val (t_lt t) p) q)
      = ∑ k : Fin 4096, x1 (ix2 p k) * runMid_nS c t arg1 harg1 arg2 harg2 arg3 harg3 arg4 harg4 arg5 harg5 hc0 hc1 x1 x2 x3 x4 sA sD sH sS sC (ix2 k q) := by
  dsimp only [runMid_nC, runMid_nS, runMid]
  sl_unfold_run_names
  refine (View.read_writes_cons_rows_of_mem scC.view _ _ _ _ (ix2 (row t.val (t_lt t) p) q) (ix2 p q) (off1_eq t) rfl rfl).trans ?_
  refine (pay2_apply _ _ p q).trans ?_
  refine Finset.sum_congr rfl fun k _ => ?_
  rw [View.readCov_cons_toLoadRect, pay1_eq]
  refine congrArg₂ (· * ·) ?_ ?_
  · refine (pay11_apply _ _).trans ?_
    rw [runMid_v5]
  · rw [View.readAt_eq_ld]
    exact congrFun (View.ld_unit_zero (S := S4096x128) zero2 _ _) (ix2 k q)

/-- The accumulator elsewhere: INCREASED by the tile of the point's block column against the block's scaled feature rows. -/
theorem runMid_C_out (r : Fin 4096) (q : Fin 128) (h : r.val / 256 ≠ t.val) :
    runMid_nC c t arg1 harg1 arg2 harg2 arg3 harg3 arg4 harg4 arg5 harg5 hc0 hc1 x1 x2 x3 x4 sA sD sH sS sC (ix2 r q)
      = sC (ix2 r q) + ∑ k' : Fin 256, sA (ix2 r (row t.val (t_lt t) k')) * (Spec.isr (∑ k : Fin 4096, x1 (ix2 k' k)) * sH (ix2 (row t.val (t_lt t) k') q)) := by
  dsimp only [runMid_nC, runMid]
  sl_unfold_run_names
  refine (View.read_writes_cons_rows_of_not_mem scC.view _ _ _ _ (ix2 r q) (off1_eq t) (W := 256) rfl (by
    show r.val < 256 * t.val ∨ 256 * t.val + 256 ≤ r.val
    omega)).trans ?_
  refine (View.read_writes_cons_rows_of_mem scC.view _ _ _ [] (ix2 r q) (ix2 r q) (o := 0) rfl (Nat.zero_add _).symm rfl).trans ?_
  rw [runMid_v5]
  refine (pay10_apply x1 _ _ _ r q).trans ?_
  rw [runMid_v28]
  refine congrArg (sC (ix2 r q) + ·) (Finset.sum_congr rfl fun k' _ => ?_)
  rw [runMid_v30, pay8_apply, pay6_apply, runMid_v21]

end Flows

end Cert.KernelIdeal.Body

end
-- ==== Proof.KIInvMid.lean ====
/-
  One middle grid point carries the triangular schedule's invariant from `t` points to `t + 1`: the flows of the point
  (what each scratch reads afterwards, by coordinates) are exactly the hypotheses of the step lemma, with the loaded
  adjacency block read as rows `256 t …` of the adjacency.
-/
import proofs.«131481_g28355374088416_cont_9to1_157_9_alg».proof.Proof.KIFlowMid
import proofs.«131481_g28355374088416_cont_9to1_157_9_alg».proof.Proof.KIDat

set_option maxRecDepth 16384

noncomputable section

namespace Cert.KernelIdeal.Body

open Cert.KernelIdeal Cert.KernelIdeal.Gen Cert.KernelIdeal.Pay Cert.KernelIdeal.Blocks
open Idealize.ShloMosaic Idealize.ShloMosaic.TcCoe Idealize.ShloMosaic.ValueIdx
open Cert.Step (row)

variable (m : (ℓ : Loc nD τ sig) → Buf (Elt Ideal) ℓ)

/-- The adjacency block at point `t` is rows `256 t …` of the adjacency. -/
theorem blkA_Aof (c : Dev nD) (t : Fin cfg0.N) (p : Fin 256) (k : Fin 4096) :
    iblk m c 0 t (ix2 p k) = Aof m c (row t.val (t_lt t) p) k := by
  rw [blkA_apply, V_main_arg1]; rfl

/-- So a block row's sum is that adjacency row's degree. -/
theorem deg_blk (c : Dev nD) (t : Fin cfg0.N) (x1 : Vec Ideal S256x4096 .f32) (hx : x1 = iblk m c 0 t) (p : Fin 256) :
    (∑ k : Fin 4096, x1 (ix2 p k)) = ∑ k : Fin 4096, Aof m c (row t.val (t_lt t) p) k := by
  subst hx
  exact Finset.sum_congr rfl fun k _ => blkA_Aof m c t p k

theorem mid_inv (c : Dev nD) (t : Fin cfg0.N) (arg1 : Memref sig .tc .vmem S256x4096 .f32) (harg1 : arg1.IsWhole) (arg2 : Memref sig .tc .vmem S4096x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S4096x128 .f32) (harg5 : arg5.IsWhole)
    (hc0 : ¬IsFirst (grid0.coords t)) (hc1 : ¬IsLast (grid0.coords t))
    (x2 : Vec Ideal S4096x128 .f32) (x3 : Vec Ideal S128x128 .f32) (x4 : Vec Ideal S1x128 .f32)
    (sA : Vec Ideal S4096x4096 .bf16) (sD sH : Vec Ideal S4096x128 .f32) (sS : Vec Ideal S4096x128 .bf16) (sC : Vec Ideal S4096x128 .f32)
    (h : InvV m c t.val sA sD sH sS sC) :
    InvV m c (t.val + 1) (runMid_nA c t arg1 harg1 arg2 harg2 arg3 harg3 arg4 harg4 arg5 harg5 hc0 hc1 (iblk m c 0 t) x2 x3 x4 sA sD sH sS sC) (runMid_nD c t arg1 harg1 arg2 harg2 arg3 harg3 arg4 harg4 arg5 harg5 hc0 hc1 (iblk m c 0 t) x2 x3 x4 sA sD sH sS sC) sH (runMid_nS c t arg1 harg1 arg2 harg2 arg3 harg3 arg4 harg4 arg5 harg5 hc0 hc1 (iblk m c 0 t) x2 x3 x4 sA sD sH sS sC) (runMid_nC c t arg1 harg1 arg2 harg2 arg3 harg3 arg4 harg4 arg5 harg5 hc0 hc1 (iblk m c 0 t) x2 x3 x4 sA sD sH sS sC) := by
  unfold InvV at h ⊢
  refine Cert.Step.step_inv (Aof m c) (Xof m c) (Wof m c) t.val (t_lt t)
    (sA := fun r k => sA (ix2 r k)) (sD := fun r q => sD (ix2 r q)) (eH := fun r q => sH (ix2 r q)) (eS := fun r q => sS (ix2 r q))
    (sC := fun r q => sC (ix2 r q))
    h.hH h.hS h.hD h.hA h.hC (fun _ _ => rfl) ?_ ?_ ?_ ?_ ?_ ?_ ?_ ?_
  · intro p q
    exact (runMid_S_in c t arg1 harg1 arg2 harg2 arg3 harg3 arg4 harg4 arg5 harg5 hc0 hc1 (iblk m c 0 t) x2 x3 x4 sA sD sH sS sC p q).trans (by rw [deg_blk m c t _ rfl])
  · intro r q hr
    exact runMid_S_out c t arg1 harg1 arg2 harg2 arg3 harg3 arg4 harg4 arg5 harg5 hc0 hc1 (iblk m c 0 t) x2 x3 x4 sA sD sH sS sC r q hr
  · intro p q
    exact (runMid_D_in c t arg1 harg1 arg2 harg2 arg3 harg3 arg4 harg4 arg5 harg5 hc0 hc1 (iblk m c 0 t) x2 x3 x4 sA sD sH sS sC p q).trans (by rw [deg_blk m c t _ rfl])
  · intro r q hr
    exact runMid_D_out c t arg1 harg1 arg2 harg2 arg3 harg3 arg4 harg4 arg5 harg5 hc0 hc1 (iblk m c 0 t) x2 x3 x4 sA sD sH sS sC r q (Nat.ne_of_lt hr)
  · intro p k
    exact (runMid_A_in c t arg1 harg1 arg2 harg2 arg3 harg3 arg4 harg4 arg5 harg5 hc0 hc1 (iblk m c 0 t) x2 x3 x4 sA sD sH sS sC p k).trans (blkA_Aof m c t p k)
  · intro r k hr
    exact runMid_A_out c t arg1 harg1 arg2 harg2 arg3 harg3 arg4 harg4 arg5 harg5 hc0 hc1 (iblk m c 0 t) x2 x3 x4 sA sD sH sS sC r k (Nat.ne_of_lt hr)
  · intro p q
    refine (runMid_C_in c t arg1 harg1 arg2 harg2 arg3 harg3 arg4 harg4 arg5 harg5 hc0 hc1 (iblk m c 0 t) x2 x3 x4 sA sD sH sS sC p q).trans (Finset.sum_congr rfl fun k _ => ?_)
    exact congrArg (· * _) (runMid_A_in c t arg1 harg1 arg2 harg2 arg3 harg3 arg4 harg4 arg5 harg5 hc0 hc1 (iblk m c 0 t) x2 x3 x4 sA sD sH sS sC p k).symm
  · intro r q hr
    refine (runMid_C_out c t arg1 harg1 arg2 harg2 arg3 harg3 arg4 harg4 arg5 harg5 hc0 hc1 (iblk m c 0 t) x2 x3 x4 sA sD sH sS sC r q (Nat.ne_of_lt hr)).trans ?_
    refine congrArg (_ + ·) (Finset.sum_congr rfl fun k' _ => ?_)
    rw [deg_blk m c t _ rfl]

end Cert.KernelIdeal.Body

end
-- ==== Proof.KILast.lean ====
/-
  The kernel body at grid point 15 (the second branch taken, the first not): a middle point's work, and then the result
  block is stored whole — the inverse square roots times the accumulator, plus the bias row broadcast down the rows.
  The pieces the stores leave, the result's staging buffer included, are found by the run.
-/
import proofs.«131481_g28355374088416_cont_9to1_157_9_alg».proof.Proof.Gen.KernelIdeal.Launch
import proofs.«131481_g28355374088416_cont_9to1_157_9_alg».proof.Proof.Gen.KernelIdeal.Skeleton
import proofs.«131481_g28355374088416_cont_9to1_157_9_alg».proof.Proof.Gen.KernelIdeal.Points
import proofs.«131481_g28355374088416_cont_9to1_157_9_alg».proof.Proof.KICommon
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runLast (c : Dev nD) (i : grid0.Coords) (arg1 : Memref sig .tc .vmem S256x4096 .f32) (harg1 : arg1.IsWhole) (arg2 : Memref sig .tc .vmem S4096x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S4096x128 .f32) (harg5 : arg5.IsWhole)
    (hc0 : ¬IsFirst i) (hc1 : IsLast i)
    (x1 : Vec F S256x4096 .f32) (x2 : Vec F S4096x128 .f32) (x3 : Vec F S128x128 .f32) (x4 : Vec F S1x128 .f32)
    (sA : Vec F S4096x4096 .bf16) (sD sH : Vec F S4096x128 .f32) (sS : Vec F S4096x128 .bf16) (sC : Vec F S4096x128 .f32) :
    Σ' (L5 : List (View.Piece (Elt F) S4096x128 .f32)) (LA : List (View.Piece (Elt F) S4096x4096 .bf16)) (LD : List (View.Piece (Elt F) S4096x128 .f32)) (LS : List (View.Piece (Elt F) S4096x128 .bf16)),
    { LC : List (View.Piece (Elt F) S4096x128 .f32) //
      ∀ (xi5 : Vec F S4096x128 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare xi5
            ∗ owns (c : Thread nD τ) scA fullShare sA ∗ owns (c : Thread nD τ) scD fullShare sD ∗ owns (c : Thread nD τ) scH fullShare sH ∗ owns (c : Thread nD τ) scS fullShare sS ∗ owns (c : Thread nD τ) scC fullShare sC
            ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ f, arg5.view.loc (c : Thread nD τ) ↦[arg5.view.set]{fullShare} arg5.view.writes (Elt F) f L5)
                ∗ (scA.view.loc (c : Thread nD τ) ↦[scA.view.set]{fullShare} scA.view.writes (Elt F) ((Memref.isWhole_whole cc0_scratch0).unread sA) LA)
                ∗ (scD.view.loc (c : Thread nD τ) ↦[scD.view.set]{fullShare} scD.view.writes (Elt F) ((Memref.isWhole_whole cc0_scratch1).unread sD) LD)
                ∗ owns (c : Thread nD τ) scH fullShare sH
                ∗ (scS.view.loc (c : Thread nD τ) ↦[scS.view.set]{fullShare} scS.view.writes (Elt F) ((Memref.isWhole_whole cc0_scratch3).unread sS) LS)
                ∗ (scC.view.loc (c : Thread nD τ) ↦[scC.view.set]{fullShare} scC.view.writes (Elt F) ((Memref.isWhole_whole cc0_scratch4).unread sC) LC)) -∗ K ⟨⟩))
          ⊢ wp frame (wpE (defs₀ (F := F)) Variants.none c none) E (cc0__fused i arg1 harg1 arg2 harg2 arg3 harg3 arg4 harg4 arg5 harg5 scA (Memref.isWhole_whole _) scD (Memref.isWhole_whole _) scH (Memref.isWhole_whole _) scS (Memref.isWhole_whole _) scC (Memref.isWhole_whole _)) K } := by
  refine ⟨?_, ?_, ?_, ?_, ?_, fun xi5 E K => ?run⟩
  case run =>
    simp only [cc0__fused_eq_skeleton]; unfold cc0__fused_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%fA, %hfA, HA⟩, ⟨%fD, %hfD, HD⟩, ⟨%fH, %hfH, HH⟩, ⟨%fS, %hfS, HS⟩, ⟨%fC, %hfC, HC⟩, Hk⟩
    obtain rfl := harg1.eq_unread hf1; obtain rfl := harg2.eq_unread hf2; obtain rfl := harg3.eq_unread hf3; obtain rfl := harg4.eq_unread hf4; obtain rfl := harg5.eq_unread hf5
    obtain rfl := (Memref.isWhole_whole cc0_scratch0).eq_unread hfA; obtain rfl := (Memref.isWhole_whole cc0_scratch1).eq_unread hfD
    obtain rfl := (Memref.isWhole_whole cc0_scratch2).eq_unread hfH; obtain rfl := (Memref.isWhole_whole cc0_scratch3).eq_unread hfS
    obtain rfl := (Memref.isWhole_whole cc0_scratch4).eq_unread hfC
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [HA]; · iexact HA
    isplitl [HD]; · iexact HD
    isplitl [HH]
    · iexists _; isplitr; · ipureintro; exact (Memref.isWhole_whole cc0_scratch2).read_unread _
      iexact HH
    isplitl [HS]; · iexact HS
    iexact HC

end Cert.KernelIdeal.Body

end
-- ==== Proof.KIFlowLast.lean ====
/-
  What the scratches hold after the last grid point, by coordinates: the same flows as at a middle point (the last point
  does a middle point's work before it stores the result).
-/
import proofs.«131481_g28355374088416_cont_9to1_157_9_alg».proof.Proof.KILast
import proofs.«131481_g28355374088416_cont_9to1_157_9_alg».proof.Proof.KIOffsets
import proofs.«131481_g28355374088416_cont_9to1_157_9_alg».proof.Proof.KIPay
import proofs.«131481_g28355374088416_cont_9to1_157_9_alg».proof.Proof.KIBlocks
import Idealize.ShloMosaic.Lib.WritesUnit
import Idealize.ShloMosaic.Lib.Pipeline.FrameBody
import Idealize.ShloMosaic.Lib.Pipeline.Value
import Idealize.ShloMosaic.Lib.Tactic

set_option maxRecDepth 16384

noncomputable section

namespace Cert.KernelIdeal.Body

open Cert.KernelIdeal Cert.KernelIdeal.Gen Cert.KernelIdeal.Pay Cert.KernelIdeal.Blocks
open Idealize.ShloMosaic Idealize.ShloMosaic.TcCoe Idealize.ShloMosaic.Tactic Idealize.ShloMosaic.ValueIdx
open Cert.Step (row)

section Flows

variable (c : Dev nD) (t : Fin cfg0.N) (arg1 : Memref sig .tc .vmem S256x4096 .f32) (harg1 : arg1.IsWhole) (arg2 : Memref sig .tc .vmem S4096x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S4096x128 .f32) (harg5 : arg5.IsWhole)
  (hc0 : ¬IsFirst (grid0.coords t)) (hc1 : IsLast (grid0.coords t))
  (x1 : Vec Ideal S256x4096 .f32) (x2 : Vec Ideal S4096x128 .f32) (x3 : Vec Ideal S128x128 .f32) (x4 : Vec Ideal S1x128 .f32)
  (sA : Vec Ideal S4096x4096 .bf16) (sD sH : Vec Ideal S4096x128 .f32) (sS : Vec Ideal S4096x128 .bf16) (sC : Vec Ideal S4096x128 .f32)

local notation "RUN" => runLast (F := Ideal) c (grid0.coords t) arg1 harg1 arg2 harg2 arg3 harg3 arg4 harg4 arg5 harg5 hc0 hc1 x1 x2 x3 x4 sA sD sH sS sC

/-- The scratches after the point: the prior contents with the point's stores written over them. -/
abbrev runLast_nA : Vec Ideal S4096x4096 .bf16 := scA.view.read (Elt Ideal) (scA.view.writes (Elt Ideal) ((Memref.isWhole_whole cc0_scratch0).unread sA) (RUN).2.1)
abbrev runLast_nD : Vec Ideal S4096x128 .f32 := scD.view.read (Elt Ideal) (scD.view.writes (Elt Ideal) ((Memref.isWhole_whole cc0_scratch1).unread sD) (RUN).2.2.1)
abbrev runLast_nS : Vec Ideal S4096x128 .bf16 := scS.view.read (Elt Ideal) (scS.view.writes (Elt Ideal) ((Memref.isWhole_whole cc0_scratch3).unread sS) (RUN).2.2.2.1)
abbrev runLast_nC : Vec Ideal S4096x128 .f32 := scC.view.read (Elt Ideal) (scC.view.writes (Elt Ideal) ((Memref.isWhole_whole cc0_scratch4).unread sC) (RUN).2.2.2.2.1)

/-- The adjacency block as the body loads it is the block. -/
theorem runLast_v5 : View.readAt (Elt Ideal) arg1.view (Rect.unit ![0, 0] S256x4096.size inb_S256x4096_S256x4096_0_0).toLoadRect (harg1.unread x1) = x1 := by
  rw [View.readAt_eq_ld, harg1.read_unread, View.ld_unit_zero zero2]

/-- Cached adjacency: on the block's rows the block, elsewhere as before. -/
theorem runLast_A_in (p : Fin 256) (k : Fin 4096) :
    runLast_nA c t arg1 harg1 arg2 harg2 arg3 harg3 arg4 harg4 arg5 harg5 hc0 hc1 x1 x2 x3 x4 sA sD sH sS sC (ix2 (row t.val (t_lt t) p) k) = x1 (ix2 p k) := by
  dsimp only [runLast_nA, runLast]
  sl_unfold_run_names
  refine (View.read_writes_cons_rows_of_mem scA.view _ _ _ [] (ix2 (row t.val (t_lt t) p) k) (ix2 p k) (off3_eq t) rfl rfl).trans ?_
  rw [pay1_eq]
  refine (pay11_apply _ _).trans ?_
  rw [runLast_v5]

theorem runLast_A_out (r : Fin 4096) (k : Fin 4096) (h : r.val / 256 ≠ t.val) :
    runLast_nA c t arg1 harg1 arg2 harg2 arg3 harg3 arg4 harg4 arg5 harg5 hc0 hc1 x1 x2 x3 x4 sA sD sH sS sC (ix2 r k) = sA (ix2 r k) := by
  dsimp only [runLast_nA, runLast]
  sl_unfold_run_names
  refine (View.read_writes_cons_rows_of_not_mem scA.view _ _ _ [] (ix2 r k) (off3_eq t) (W := 256) rfl (by
    show r.val < 256 * t.val ∨ 256 * t.val + 256 ≤ r.val
    omega)).trans ?_
  rw [View.writes_nil, (Memref.isWhole_whole cc0_scratch0).read_unread]

/-- Row factors: on the block's rows the inverse square root of the row's sum, elsewhere as before. -/
theorem runLast_D_in (p : Fin 256) (q : Fin 128) :
    runLast_nD c t arg1 harg1 arg2 harg2 arg3 harg3 arg4 harg4 arg5 harg5 hc0 hc1 x1 x2 x3 x4 sA sD sH sS sC (ix2 (row t.val (t_lt t) p) q)
      = Spec.isr (∑ k : Fin 4096, x1 (ix2 p k)) := by
  dsimp only [runLast_nD, runLast]
  sl_unfold_run_names
  refine (View.read_writes_cons_rows_of_mem scD.view _ _ _ [] (ix2 (row t.val (t_lt t) p) q) (ix2 p q) (off1_eq t) rfl rfl).trans ?_
  rw [pay7_eq, runLast_v5]
  exact pay6_apply x1 p q

theorem runLast_D_out (r : Fin 4096) (q : Fin 128) (h : r.val / 256 ≠ t.val) :
    runLast_nD c t arg1 harg1 arg2 harg2 arg3 harg3 arg4 harg4 arg5 harg5 hc0 hc1 x1 x2 x3 x4 sA sD sH sS sC (ix2 r q) = sD (ix2 r q) := by
  dsimp only [runLast_nD, runLast]
  sl_unfold_run_names
  refine (View.read_writes_cons_rows_of_not_mem scD.view _ _ _ [] (ix2 r q) (off1_eq t) (W := 256) rfl (by
    show r.val < 256 * t.val ∨ 256 * t.val + 256 ≤ r.val
    omega)).trans ?_
  rw [View.writes_nil, (Memref.isWhole_whole cc0_scratch1).read_unread]

/-- The feature rows the body loads at the block: the feature product's rows. -/
theorem runLast_v21 (p : Fin 256) (q : Fin 128) :
    View.readAt (Elt Ideal) scH.view (Rect.unit (s := S4096x128) (k0_off1 (grid0.coords t)) S256x128.size (k0_off1_inb (grid0.coords t))).toLoadRect ((Memref.isWhole_whole cc0_scratch2).unread sH) (ix2 p q)
      = sH (ix2 (row t.val (t_lt t) p) q) := by
  rw [View.readAt_eq_ld, (Memref.isWhole_whole cc0_scratch2).read_unread]
  show sH ((Rect.unit (s := S4096x128) (k0_off1 (grid0.coords t)) S256x128.size (k0_off1_inb (grid0.coords t))).idx (ix2 p q)) = _
  refine congrArg sH (funext fun a => Fin.ext ?_)
  have ho := off1_eq t
  match a with
  | ⟨0, _⟩ =>
    show k0_off1 (grid0.coords t) 0 + 1 * p.val = 256 * t.val + p.val
    rw [ho]; show 256 * t.val + 1 * p.val = _; omega
  | ⟨1, _⟩ =>
    show k0_off1 (grid0.coords t) 1 + 1 * q.val = q.val
    rw [ho]; show 0 + 1 * q.val = _; omega

/-- Scaled features: on the block's rows the row factor times the feature row, elsewhere as before. -/
theorem runLast_S_in (p : Fin 256) (q : Fin 128) :
    runLast_nS c t arg1 harg1 arg2 harg2 arg3 harg3 arg4 harg4 arg5 harg5 hc0 hc1 x1 x2 x3 x4 sA sD sH sS sC (ix2 (row t.val (t_lt t) p) q)
      = Spec.isr (∑ k : Fin 4096, x1 (ix2 p k)) * sH (ix2 (row t.val (t_lt t) p) q) := by
  dsimp only [runLast_nS, runLast]
  sl_unfold_run_names
  refine (View.read_writes_cons_rows_of_mem scS.view _ _ _ [] (ix2 (row t.val (t_lt t) p) q) (ix2 p q) (off1_eq t) rfl rfl).trans ?_
  rw [pay9_eq, runLast_v5]
  refine (pay8_apply x1 _ p q).trans ?_
  rw [pay6_apply, runLast_v21]

theorem runLast_S_out (r : Fin 4096) (q : Fin 128) (h : r.val / 256 ≠ t.val) :
    runLast_nS c t arg1 harg1 arg2 harg2 arg3 harg3 arg4 harg4 arg5 harg5 hc0 hc1 x1 x2 x3 x4 sA sD sH sS sC (ix2 r q) = sS (ix2 r q) := by
  dsimp only [runLast_nS, runLast]
  sl_unfold_run_names
  refine (View.read_writes_cons_rows_of_not_mem scS.view _ _ _ [] (ix2 r q) (off1_eq t) (W := 256) rfl (by
    show r.val < 256 * t.val ∨ 256 * t.val + 256 ≤ r.val
    omega)).trans ?_
  rw [View.writes_nil, (Memref.isWhole_whole cc0_scratch3).read_unread]

/-- The accumulator as the body loads it whole is the accumulator. -/
theorem runLast_v28 : View.readAt (Elt Ideal) (View.whole cc0_scratch4) (Rect.unit ![0, 0] ![4096, 128] inb_S4096x128_S4096x128_0_0).toLoadRect ((Memref.isWhole_whole cc0_scratch4).unread sC) = sC := by
  rw [View.readAt_eq_ld, show (View.whole cc0_scratch4).read (Elt Ideal) ((Memref.isWhole_whole cc0_scratch4).unread sC) = sC from (Memref.isWhole_whole cc0_scratch4).read_unread sC]
  exact View.ld_unit_zero (S := S4096x128) zero2 _ sC

/-- The column block of the cached adjacency the body loads: column `256 t + k'` of every row. -/
theorem runLast_v30 (r : Fin 4096) (k' : Fin 256) :
    View.readAt (Elt Ideal) (View.whole cc0_scratch0) (Rect.unit (s := S4096x4096) (k0_off2 (grid0.coords t)) ![4096, 256] (k0_off2_inb (grid0.coords t))).toLoadRect ((Memref.isWhole_whole cc0_scratch0).unread sA) (ix2 r k')
      = sA (ix2 r (row t.val (t_lt t) k')) := by
  rw [View.readAt_eq_ld, show (View.whole cc0_scratch0).read (Elt Ideal) ((Memref.isWhole_whole cc0_scratch0).unread sA) = sA from (Memref.isWhole_whole cc0_scratch0).read_unread sA]
  show sA ((Rect.unit (s := S4096x4096) (k0_off2 (grid0.coords t)) ![4096, 256] (k0_off2_inb (grid0.coords t))).idx (ix2 r k')) = _
  refine congrArg sA (funext fun a => Fin.ext ?_)
  have ho := off2_eq t
  match a with
  | ⟨0, _⟩ =>
    show k0_off2 (grid0.coords t) 0 + 1 * r.val = r.val
    rw [ho]; show 0 + 1 * r.val = _; omega
  | ⟨1, _⟩ =>
    show k0_off2 (grid0.coords t) 1 + 1 * k'.val = 256 * t.val + k'.val
    rw [ho]; show 256 * t.val + 1 * k'.val = _; omega

/-- The accumulator on the block's rows: ASSIGNED the product of the block's cached rows with the whole scaled matrix as
    the point leaves it. -/
theorem runLast_C_in (p : Fin 256) (q : Fin 128) :
    runLast_nC c t arg1 harg1 arg2 harg2 arg3 harg3 arg4 harg4 arg5 harg5 hc0 hc1 x1 x2 x3 x4 sA sD sH sS sC (ix2 (row t.val (t_lt t) p) q)
      = ∑ k : Fin 4096, x1 (ix2 p k) * runLast_nS c t arg1 harg1 arg2 harg2 arg3 harg3 arg4 harg4 arg5 harg5 hc0 hc1 x1 x2 x3 x4 sA sD sH sS sC (ix2 k q) := by
  dsimp only [runLast_nC, runLast_nS, runLast]
  sl_unfold_run_names
  refine (View.read_writes_cons_rows_of_mem scC.view _ _ _ _ (ix2 (row t.val (t_lt t) p) q) (ix2 p q) (off1_eq t) rfl rfl).trans ?_
  refine (pay2_apply _ _ p q).trans ?_
  refine Finset.sum_congr rfl fun k _ => ?_
  rw [View.readCov_cons_toLoadRect, pay1_eq]
  refine congrArg₂ (· * ·) ?_ ?_
  · refine (pay11_apply _ _).trans ?_
    rw [runLast_v5]
  · rw [View.readAt_eq_ld]
    exact congrFun (View.ld_unit_zero (S := S4096x128) zero2 _ _) (ix2 k q)

/-- The accumulator elsewhere: INCREASED by the tile of the point's block column against the block's scaled feature rows. -/
theorem runLast_C_out (r : Fin 4096) (q : Fin 128) (h : r.val / 256 ≠ t.val) :
    runLast_nC c t arg1 harg1 arg2 harg2 arg3 harg3 arg4 harg4 arg5 harg5 hc0 hc1 x1 x2 x3 x4 sA sD sH sS sC (ix2 r q)
      = sC (ix2 r q) + ∑ k' : Fin 256, sA (ix2 r (row t.val (t_lt t) k')) * (Spec.isr (∑ k : Fin 4096, x1 (ix2 k' k)) * sH (ix2 (row t.val (t_lt t) k') q)) := by
  dsimp only [runLast_nC, runLast]
  sl_unfold_run_names
  refine (View.read_writes_cons_rows_of_not_mem scC.view _ _ _ _ (ix2 r q) (off1_eq t) (W := 256) rfl (by
    show r.val < 256 * t.val ∨ 256 * t.val + 256 ≤ r.val
    omega)).trans ?_
  refine (View.read_writes_cons_rows_of_mem scC.view _ _ _ [] (ix2 r q) (ix2 r q) (o := 0) rfl (Nat.zero_add _).symm rfl).trans ?_
  rw [runLast_v5]
  refine (pay10_apply x1 _ _ _ r q).trans ?_
  rw [runLast_v28]
  refine congrArg (sC (ix2 r q) + ·) (Finset.sum_congr rfl fun k' _ => ?_)
  rw [runLast_v30, pay8_apply, pay6_apply, runLast_v21]

/-- The bias row as the body loads it. -/
theorem runLast_v55 : View.readAt (Elt Ideal) arg4.view (Rect.unit ![0, 0] ![1, 128] inb_S1x128_S1x128_0_0).toLoadRect (harg4.unread x4) = x4 := by
  rw [View.readAt_eq_ld, harg4.read_unread]
  exact View.ld_unit_zero (S := S1x128) zero2 _ x4

/-- The result block the last point stores, at `(r, q)`: the row factor times the accumulator, as the point leaves them,
    plus the bias of column `q`. -/
theorem runLast_out (f : arg5.view.ty.Contents (Elt Ideal)) (r : Fin 4096) (q : Fin 128) :
    arg5.view.read (Elt Ideal) (arg5.view.writes (Elt Ideal) f (RUN).1) (ix2 r q)
      = runLast_nD c t arg1 harg1 arg2 harg2 arg3 harg3 arg4 harg4 arg5 harg5 hc0 hc1 x1 x2 x3 x4 sA sD sH sS sC (ix2 r q)
        * runLast_nC c t arg1 harg1 arg2 harg2 arg3 harg3 arg4 harg4 arg5 harg5 hc0 hc1 x1 x2 x3 x4 sA sD sH sS sC (ix2 r q) + x4 (ix2 (0 : Fin 1) q) := by
  dsimp only [runLast_nD, runLast_nC, runLast]
  sl_unfold_run_names
  refine (View.read_writes_cons_rows_of_mem arg5.view _ _ _ [] (ix2 r q) (ix2 r q) (o := 0) rfl (Nat.zero_add _).symm rfl).trans ?_
  refine (pay3_apply _ _ _ r q).trans ?_
  refine congrArg₂ (· + ·) (congrArg₂ (· * ·) ?_ ?_) ?_
  · rw [View.readAt_eq_ld]
    exact congrFun (View.ld_unit_zero (S := S4096x128) zero2 _ _) (ix2 r q)
  · unfold View.readCov
    rw [View.readAt_eq_ld]
    refine (congrFun (View.ld_unit_zero (S := S4096x128) zero2 _ _) (ix2 r q)).trans ?_
    exact View.read_writes_apply_eq scC.view _ scC.view _ (ix2 r q) _
      ⟨_, List.mem_cons_of_mem _ List.mem_cons_self, View.mem_set_unit_zero (S := S4096x128) zero2 inb_S4096x128_S4096x128_0_0 (ix2 r q)⟩
  · rw [runLast_v55]

end Flows

end Cert.KernelIdeal.Body

end
-- ==== Proof.KIInvLast.lean ====
/-
  One last grid point carries the triangular schedule's invariant from `t` points to `t + 1`: the flows of the point
  (what each scratch reads afterwards, by coordinates) are exactly the hypotheses of the step lemma, with the loaded
  adjacency block read as rows `256 t …` of the adjacency.
  At the last point the invariant has reached all sixteen blocks, and the result block the body stores is the specification's array.
-/
import proofs.«131481_g28355374088416_cont_9to1_157_9_alg».proof.Proof.KIFlowLast
import proofs.«131481_g28355374088416_cont_9to1_157_9_alg».proof.Proof.KIDat
import proofs.«131481_g28355374088416_cont_9to1_157_9_alg».proof.Proof.KIInvMid

set_option maxRecDepth 16384

noncomputable section

namespace Cert.KernelIdeal.Body

open Cert.KernelIdeal Cert.KernelIdeal.Gen Cert.KernelIdeal.Pay Cert.KernelIdeal.Blocks
open Idealize.ShloMosaic Idealize.ShloMosaic.TcCoe Idealize.ShloMosaic.ValueIdx
open Cert.Step (row)

variable (m : (ℓ : Loc nD τ sig) → Buf (Elt Ideal) ℓ)

theorem last_inv (c : Dev nD) (t : Fin cfg0.N) (arg1 : Memref sig .tc .vmem S256x4096 .f32) (harg1 : arg1.IsWhole) (arg2 : Memref sig .tc .vmem S4096x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S4096x128 .f32) (harg5 : arg5.IsWhole)
    (hc0 : ¬IsFirst (grid0.coords t)) (hc1 : IsLast (grid0.coords t))
    (x2 : Vec Ideal S4096x128 .f32) (x3 : Vec Ideal S128x128 .f32) (x4 : Vec Ideal S1x128 .f32)
    (sA : Vec Ideal S4096x4096 .bf16) (sD sH : Vec Ideal S4096x128 .f32) (sS : Vec Ideal S4096x128 .bf16) (sC : Vec Ideal S4096x128 .f32)
    (h : InvV m c t.val sA sD sH sS sC) :
    InvV m c (t.val + 1) (runLast_nA c t arg1 harg1 arg2 harg2 arg3 harg3 arg4 harg4 arg5 harg5 hc0 hc1 (iblk m c 0 t) x2 x3 x4 sA sD sH sS sC) (runLast_nD c t arg1 harg1 arg2 harg2 arg3 harg3 arg4 harg4 arg5 harg5 hc0 hc1 (iblk m c 0 t) x2 x3 x4 sA sD sH sS sC) sH (runLast_nS c t arg1 harg1 arg2 harg2 arg3 harg3 arg4 harg4 arg5 harg5 hc0 hc1 (iblk m c 0 t) x2 x3 x4 sA sD sH sS sC) (runLast_nC c t arg1 harg1 arg2 harg2 arg3 harg3 arg4 harg4 arg5 harg5 hc0 hc1 (iblk m c 0 t) x2 x3 x4 sA sD sH sS sC) := by
  unfold InvV at h ⊢
  refine Cert.Step.step_inv (Aof m c) (Xof m c) (Wof m c) t.val (t_lt t)
    (sA := fun r k => sA (ix2 r k)) (sD := fun r q => sD (ix2 r q)) (eH := fun r q => sH (ix2 r q)) (eS := fun r q => sS (ix2 r q))
    (sC := fun r q => sC (ix2 r q))
    h.hH h.hS h.hD h.hA h.hC (fun _ _ => rfl) ?_ ?_ ?_ ?_ ?_ ?_ ?_ ?_
  · intro p q
    exact (runLast_S_in c t arg1 harg1 arg2 harg2 arg3 harg3 arg4 harg4 arg5 harg5 hc0 hc1 (iblk m c 0 t) x2 x3 x4 sA sD sH sS sC p q).trans (by rw [deg_blk m c t _ rfl])
  · intro r q hr
    exact runLast_S_out c t arg1 harg1 arg2 harg2 arg3 harg3 arg4 harg4 arg5 harg5 hc0 hc1 (iblk m c 0 t) x2 x3 x4 sA sD sH sS sC r q hr
  · intro p q
    exact (runLast_D_in c t arg1 harg1 arg2 harg2 arg3 harg3 arg4 harg4 arg5 harg5 hc0 hc1 (iblk m c 0 t) x2 x3 x4 sA sD sH sS sC p q).trans (by rw [deg_blk m c t _ rfl])
  · intro r q hr
    exact runLast_D_out c t arg1 harg1 arg2 harg2 arg3 harg3 arg4 harg4 arg5 harg5 hc0 hc1 (iblk m c 0 t) x2 x3 x4 sA sD sH sS sC r q (Nat.ne_of_lt hr)
  · intro p k
    exact (runLast_A_in c t arg1 harg1 arg2 harg2 arg3 harg3 arg4 harg4 arg5 harg5 hc0 hc1 (iblk m c 0 t) x2 x3 x4 sA sD sH sS sC p k).trans (blkA_Aof m c t p k)
  · intro r k hr
    exact runLast_A_out c t arg1 harg1 arg2 harg2 arg3 harg3 arg4 harg4 arg5 harg5 hc0 hc1 (iblk m c 0 t) x2 x3 x4 sA sD sH sS sC r k (Nat.ne_of_lt hr)
  · intro p q
    refine (runLast_C_in c t arg1 harg1 arg2 harg2 arg3 harg3 arg4 harg4 arg5 harg5 hc0 hc1 (iblk m c 0 t) x2 x3 x4 sA sD sH sS sC p q).trans (Finset.sum_congr rfl fun k _ => ?_)
    exact congrArg (· * _) (runLast_A_in c t arg1 harg1 arg2 harg2 arg3 harg3 arg4 harg4 arg5 harg5 hc0 hc1 (iblk m c 0 t) x2 x3 x4 sA sD sH sS sC p k).symm
  · intro r q hr
    refine (runLast_C_out c t arg1 harg1 arg2 harg2 arg3 harg3 arg4 harg4 arg5 harg5 hc0 hc1 (iblk m c 0 t) x2 x3 x4 sA sD sH sS sC r q (Nat.ne_of_lt hr)).trans ?_
    refine congrArg (_ + ·) (Finset.sum_congr rfl fun k' _ => ?_)
    rw [deg_blk m c t _ rfl]

/-- The result block the last point stores: the row factors times the accumulator plus the bias row, as the point leaves
    them — which, the invariant holding for all sixteen blocks, is the specification's result. -/
theorem last_out (c : Dev nD) (t : Fin cfg0.N) (arg1 : Memref sig .tc .vmem S256x4096 .f32) (harg1 : arg1.IsWhole) (arg2 : Memref sig .tc .vmem S4096x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S4096x128 .f32) (harg5 : arg5.IsWhole)
    (hc0 : ¬IsFirst (grid0.coords t)) (hc1 : IsLast (grid0.coords t))
    (x2 : Vec Ideal S4096x128 .f32) (x3 : Vec Ideal S128x128 .f32)
    (sA : Vec Ideal S4096x4096 .bf16) (sD sH : Vec Ideal S4096x128 .f32) (sS : Vec Ideal S4096x128 .bf16) (sC : Vec Ideal S4096x128 .f32)
    (h : InvV m c t.val sA sD sH sS sC) (f : arg5.view.ty.Contents (Elt Ideal)) :
    arg5.view.read (Elt Ideal) (arg5.view.writes (Elt Ideal) f
      (runLast (F := Ideal) c (grid0.coords t) arg1 harg1 arg2 harg2 arg3 harg3 arg4 harg4 arg5 harg5 hc0 hc1 (iblk m c 0 t) x2 x3 (iblk m c 3 t) sA sD sH sS sC).1) = outG m c := by
  have h15 : t.val = 15 := (isLast_iff t).mp hc1
  have hI := last_inv m c t arg1 harg1 arg2 harg2 arg3 harg3 arg4 harg4 arg5 harg5 hc0 hc1 x2 x3 (iblk m c 3 t) sA sD sH sS sC h
  rw [h15] at hI
  unfold InvV at hI
  funext y
  obtain ⟨r, q, rfl⟩ : ∃ (r : Fin 4096) (q : Fin 128), y = ix2 r q := ⟨y 0, y 1, eq_ix2 y⟩
  refine (runLast_out c t arg1 harg1 arg2 harg2 arg3 harg3 arg4 harg4 arg5 harg5 hc0 hc1 (iblk m c 0 t) x2 x3 (iblk m c 3 t) sA sD sH sS sC f r q).trans ?_
  rw [blkB_apply]
  exact Cert.Step.final_out (Aof m c) (Xof m c) (Wof m c) (Bof m c) hI r q

end Cert.KernelIdeal.Body

end
-- ==== Proof.KIBody.lean ====
/-
  The body obligation of the idealized kernel's pipeline, over the proof data that carries the schedule's invariant.

  At a point `t` the invariant gives contents of the five scratches which, from point 1 on, satisfy the triangular
  schedule's invariant after `t` points; the four inputs' staging buffers hold the arrays' blocks. By the point's kind:
  point 0 (the first branch alone) establishes the invariant for one block from scratches holding anything; a middle
  point (neither branch) and the last point (the second branch alone) carry it from `t` points to `t + 1`. Each stored
  scratch is left at its contents with the point's stores written over them, and those are the contents the invariant
  is stated of at the next point. The result's window is idle and not written back before the last point, so there its
  staging buffer is handed back as found; at the last point the body stores the whole result into it, which, the
  invariant then holding for all sixteen blocks, is the specification's array.
-/
import proofs.«131481_g28355374088416_cont_9to1_157_9_alg».proof.Proof.Gen.KernelIdeal.Frame
import proofs.«131481_g28355374088416_cont_9to1_157_9_alg».proof.Proof.KICommon
import proofs.«131481_g28355374088416_cont_9to1_157_9_alg».proof.Proof.KIDat
import proofs.«131481_g28355374088416_cont_9to1_157_9_alg».proof.Proof.KIInvFirst
import proofs.«131481_g28355374088416_cont_9to1_157_9_alg».proof.Proof.KIInvMid
import proofs.«131481_g28355374088416_cont_9to1_157_9_alg».proof.Proof.KIInvLast
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- A memref's elements at contents of its buffer that read `X` through it are owned at `X`. -/
theorem owns_of_read (c : Dev nD) {sp : Space} {sh : Shape} {e : EltTy} (M : Memref sig .tc sp sh e)
    (g : M.view.ty.Contents (Elt Ideal)) (X : sh.Idx → Elt Ideal e) (h : M.view.read (Elt Ideal) g = X) :
    (M.view.loc (c : Thread nD τ) ↦[M.view.set]{fullShare} g : sProp 𝕄) ⊢ owns (c : Thread nD τ) M fullShare X := by
  subst h; exact owns_intro (c : Thread nD τ) M fullShare g

variable (m : (ℓ : Loc nD τ sig) → Buf (Elt Ideal) ℓ)

/-! ## The proof data, window by window -/

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outG m c := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-! ## The result's window: idle until the last point, written back there only -/

theorem idle4_of_last (t : Fin cfg0.N) (h : IsLast (grid0.coords t)) : cfg0.idle 4 (grid0.coords t) = false := by
  show (!(k0_cond2 (grid0.coords t) == 1#1)) = false
  rw [show (k0_cond2 (grid0.coords t) == 1#1) = true from beq_iff_eq.mpr h]; rfl
theorem idle4_of_not_last (t : Fin cfg0.N) (h : ¬ IsLast (grid0.coords t)) : cfg0.idle 4 (grid0.coords t) = true := by
  show (!(k0_cond2 (grid0.coords t) == 1#1)) = true
  rw [show (k0_cond2 (grid0.coords t) == 1#1) = false from beq_eq_false_iff_ne.mpr h]; rfl
theorem flush4_of_not_last (t : Fin cfg0.N) (h : ¬ IsLast (grid0.coords t)) : (cfg0.win 4).flush t = false :=
  Bool.eq_false_iff.mpr fun hf => h ((isLast_iff t).mpr (by
    have h1 := (flush0_4 t).mp hf
    have h2 : t.val < 16 := lt_of_lt_of_eq t.isLt N_0
    omega))

/-- At the last point the body leaves the result's staging buffer at what the proof data says; -/
theorem leaves4_last (c : Dev nD) (t : Fin cfg0.N) (h : IsLast (grid0.coords t)) :
    (dats m 0 c).leavesExact 4 t = owns (c : Thread nD τ) (st0_4 t) fullShare ((dats m 0 c).after 4 t) := by
  unfold Dat.leavesExact; rw [idle4_of_last t h]
/-- at any other it hands the buffer back as it found it. -/
theorem leaves4_not_last (c : Dev nD) (t : Fin cfg0.N) (h : ¬ IsLast (grid0.coords t)) :
    (dats m 0 c).leavesExact 4 t = iprop(∃ d, owns (c : Thread nD τ) (st0_4 t) fullShare ((dats m 0 c).before 4 t d)) :=
  (dats m 0 c).leavesExact_idle 4 t (idle4_of_not_last t h) (flush4_of_not_last t h)

/-! ## The body obligation -/

/-- What the body is called with at point `t`: the invariant, what the core owes, every window's current staging
    buffer at what it then holds; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns: the invariant at the next point, the inputs' buffers as the proof data says the body leaves
    them, the result's as its window's idleness says. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t)

set_option maxHeartbeats 1600000 in
/-- The body at any point, by the point's kind. The invariant gives the five scratches' contents, and from point 1 on that
    they satisfy the schedule's invariant after `t` points; the run of the point's kind leaves each stored scratch at its
    contents with the point's stores written over them, which satisfy the invariant after `t + 1` points — at point 0
    whatever the scratches held —; at the last point the result's staging buffer is left at the specification's array, at
    every other it is handed back untouched. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, after_0, after_1, after_2, after_3]
  rw [show (dats m 0 c).Φ t.succ = Φv m c t.succ from rfl, show (dats m 0 c).Φ t.castSucc = Φv m c t.castSucc from rfl,
    show (dats m 0 c).owesAt () t.succ = (dats m 0 c).owesAt () t.castSucc from rfl]
  unfold Φv scr
  by_cases hL : IsLast (grid0.coords t)
  · have hF : ¬ IsFirst (grid0.coords t) := fun h => by
      have h0 := (isFirst_iff t).mp h; have h15 := (isLast_iff t).mp hL; omega
    rw [leaves4_last m c t hL, after_4]
    iintro ⟨⟨⟨%sA, %sD, %sH, %sS, %sC, %hP, HA, HD, HH, HS, HC⟩, Hp⟩, Ho, ⟨%d0, H0⟩, ⟨%d1, H1⟩, ⟨%d2, H2⟩, ⟨%d3, H3⟩, ⟨%d4, H4⟩⟩
    have hInv : InvV m c t.val sA sD sH sS sC := hP.resolve_left (fun h => hF ((isFirst_iff t).mpr h))
    iapply ((runLast (F := Ideal) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) hF hL
      (iblk m c 0 t) (iblk m c 1 t) (iblk m c 2 t) (iblk m c 3 t) sA sD sH sS sC).2.2.2.2.2 ((dats m 0 c).before 4 t d4) Set.univ _)
    isplitl [H0]; · iexact H0
    isplitl [H1]; · iexact H1
    isplitl [H2]; · iexact H2
    isplitl [H3]; · iexact H3
    isplitl [H4]; · iexact H4
    isplitl [HA]; · iexact HA
    isplitl [HD]; · iexact HD
    isplitl [HH]; · iexact HH
    isplitl [HS]; · iexact HS
    isplitl [HC]; · iexact HC
    iintro ⟨H0, H1, H2, H3, ⟨%f5, H4⟩, HA, HD, HH, HS, HC⟩
    isplitl [HA HD HH HS HC Hp]
    · isplitr [Hp]
      · iexists (runLast_nA c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) hF hL (iblk m c 0 t) (iblk m c 1 t) (iblk m c 2 t) (iblk m c 3 t) sA sD sH sS sC), (runLast_nD c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) hF hL (iblk m c 0 t) (iblk m c 1 t) (iblk m c 2 t) (iblk m c 3 t) sA sD sH sS sC), (sH), (runLast_nS c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) hF hL (iblk m c 0 t) (iblk m c 1 t) (iblk m c 2 t) (iblk m c 3 t) sA sD sH sS sC), (runLast_nC c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) hF hL (iblk m c 0 t) (iblk m c 1 t) (iblk m c 2 t) (iblk m c 3 t) sA sD sH sS sC)
        isplitr
        · ipureintro; right; rw [Fin.val_succ]
          exact last_inv m c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) hF hL (iblk m c 1 t) (iblk m c 2 t) (iblk m c 3 t) sA sD sH sS sC hInv
        isplitl [HA]; · iapply (owns_intro (c : Thread nD τ) scA fullShare _); iexact HA
        isplitl [HD]; · iapply (owns_intro (c : Thread nD τ) scD fullShare _); iexact HD
        isplitl [HH]; · iexact HH
        isplitl [HS]; · iapply (owns_intro (c : Thread nD τ) scS fullShare _); iexact HS
        iapply (owns_intro (c : Thread nD τ) scC fullShare _); iexact HC
      iexact Hp
    isplitl [Ho]; · iexact Ho
    isplitl [H0]; · iexact H0
    isplitl [H1]; · iexact H1
    isplitl [H2]; · iexact H2
    isplitl [H3]; · iexact H3
    iapply (owns_of_read c (st0_4 t) _ _ (last_out m c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) hF hL (iblk m c 1 t) (iblk m c 2 t) sA sD sH sS sC hInv f5)); iexact H4
  · rw [leaves4_not_last m c t hL]
    by_cases hF : IsFirst (grid0.coords t)
    · iintro ⟨⟨⟨%sA, %sD, %sH, %sS, %sC, %hP, HA, HD, HH, HS, HC⟩, Hp⟩, Ho, ⟨%d0, H0⟩, ⟨%d1, H1⟩, ⟨%d2, H2⟩, ⟨%d3, H3⟩, ⟨%d4, H4⟩⟩
      iapply ((runFirst (F := Ideal) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) hF hL
        (iblk m c 0 t) (iblk m c 1 t) (iblk m c 2 t) (iblk m c 3 t) sA sD sH sS sC).2.2.2.2.2 ((dats m 0 c).before 4 t d4) Set.univ _)
      isplitl [H0]; · iexact H0
      isplitl [H1]; · iexact H1
      isplitl [H2]; · iexact H2
      isplitl [H3]; · iexact H3
      isplitl [H4]; · iexact H4
      isplitl [HA]; · iexact HA
      isplitl [HD]; · iexact HD
      isplitl [HH]; · iexact HH
      isplitl [HS]; · iexact HS
      isplitl [HC]; · iexact HC
      iintro ⟨H0, H1, H2, H3, H4, ⟨%fA, HA⟩, ⟨%fD, HD⟩, ⟨%fH, HH⟩, ⟨%fS, HS⟩, ⟨%fC, HC⟩⟩
      isplitl [HA HD HH HS HC Hp]
      · isplitr [Hp]
        · iexists (runFirst_nA c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) hF hL (iblk m c 0 t) (iblk m c 1 t) (iblk m c 2 t) (iblk m c 3 t) sA sD sH sS sC fA), (runFirst_nD c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) hF hL (iblk m c 0 t) (iblk m c 1 t) (iblk m c 2 t) (iblk m c 3 t) sA sD sH sS sC fD), (runFirst_nH c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) hF hL (iblk m c 0 t) (iblk m c 1 t) (iblk m c 2 t) (iblk m c 3 t) sA sD sH sS sC fH), (runFirst_nS c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) hF hL (iblk m c 0 t) (iblk m c 1 t) (iblk m c 2 t) (iblk m c 3 t) sA sD sH sS sC fS), (runFirst_nC c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) hF hL (iblk m c 0 t) (iblk m c 1 t) (iblk m c 2 t) (iblk m c 3 t) sA sD sH sS sC fC)
          isplitr
          · ipureintro; right; rw [Fin.val_succ]
            exact first_inv m c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) hF hL (iblk m c 3 t) sA sD sH sS sC fA fD fH fS fC
          isplitl [HA]; · iapply (owns_intro (c : Thread nD τ) scA fullShare _); iexact HA
          isplitl [HD]; · iapply (owns_intro (c : Thread nD τ) scD fullShare _); iexact HD
          isplitl [HH]; · iapply (owns_intro (c : Thread nD τ) scH fullShare _); iexact HH
          isplitl [HS]; · iapply (owns_intro (c : Thread nD τ) scS fullShare _); iexact HS
          iapply (owns_intro (c : Thread nD τ) scC fullShare _); iexact HC
        iexact Hp
      isplitl [Ho]; · iexact Ho
      isplitl [H0]; · iexact H0
      isplitl [H1]; · iexact H1
      isplitl [H2]; · iexact H2
      isplitl [H3]; · iexact H3
      iexists d4; iexact H4
    · iintro ⟨⟨⟨%sA, %sD, %sH, %sS, %sC, %hP, HA, HD, HH, HS, HC⟩, Hp⟩, Ho, ⟨%d0, H0⟩, ⟨%d1, H1⟩, ⟨%d2, H2⟩, ⟨%d3, H3⟩, ⟨%d4, H4⟩⟩
      have hInv : InvV m c t.val sA sD sH sS sC := hP.resolve_left (fun h => hF ((isFirst_iff t).mpr h))
      iapply ((runMid (F := Ideal) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) hF hL
        (iblk m c 0 t) (iblk m c 1 t) (iblk m c 2 t) (iblk m c 3 t) sA sD sH sS sC).2.2.2.2 ((dats m 0 c).before 4 t d4) Set.univ _)
      isplitl [H0]; · iexact H0
      isplitl [H1]; · iexact H1
      isplitl [H2]; · iexact H2
      isplitl [H3]; · iexact H3
      isplitl [H4]; · iexact H4
      isplitl [HA]; · iexact HA
      isplitl [HD]; · iexact HD
      isplitl [HH]; · iexact HH
      isplitl [HS]; · iexact HS
      isplitl [HC]; · iexact HC
      iintro ⟨H0, H1, H2, H3, H4, HA, HD, HH, HS, HC⟩
      isplitl [HA HD HH HS HC Hp]
      · isplitr [Hp]
        · iexists (runMid_nA c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) hF hL (iblk m c 0 t) (iblk m c 1 t) (iblk m c 2 t) (iblk m c 3 t) sA sD sH sS sC), (runMid_nD c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) hF hL (iblk m c 0 t) (iblk m c 1 t) (iblk m c 2 t) (iblk m c 3 t) sA sD sH sS sC), (sH), (runMid_nS c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) hF hL (iblk m c 0 t) (iblk m c 1 t) (iblk m c 2 t) (iblk m c 3 t) sA sD sH sS sC), (runMid_nC c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) hF hL (iblk m c 0 t) (iblk m c 1 t) (iblk m c 2 t) (iblk m c 3 t) sA sD sH sS sC)
          isplitr
          · ipureintro; right; rw [Fin.val_succ]
            exact mid_inv m c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) hF hL (iblk m c 1 t) (iblk m c 2 t) (iblk m c 3 t) sA sD sH sS sC hInv
          isplitl [HA]; · iapply (owns_intro (c : Thread nD τ) scA fullShare _); iexact HA
          isplitl [HD]; · iapply (owns_intro (c : Thread nD τ) scD fullShare _); iexact HD
          isplitl [HH]; · iexact HH
          isplitl [HS]; · iapply (owns_intro (c : Thread nD τ) scS fullShare _); iexact HS
          iapply (owns_intro (c : Thread nD τ) scC fullShare _); iexact HC
        iexact Hp
      isplitl [Ho]; · iexact Ho
      isplitl [H0]; · iexact H0
      isplitl [H1]; · iexact H1
      isplitl [H2]; · iexact H2
      isplitl [H3]; · iexact H3
      iexists d4; iexact H4

/-- The library's body obligation at every point. -/
theorem body_obligation (c : Dev nD) :
    Pipeline.BodyObligation (dats m 0 c) (defs₀ (F := Ideal)) Variants.none () Set.univ := fun t => by
  rw [bigSep_W0, bigSep_W0]
  exact sound_body m c t

end Cert.KernelIdeal.Body

end
-- ==== Proof.KIAsm.lean ====
/-
  The idealized kernel's launch and the assembly of its value, over the proof data, given the body's obligation.

  Before the first grid point the five scratches hold anything, which is the invariant's first form; after the last
  point the invariant is forgotten back to "the scratches hold something". Between, the pipeline's frame run needs
  only the body's obligation at each point. The result's window has one block, the whole array, written back at the
  last point only; what is written back there is the specification's array, so the result's array ends holding it:
  every index lies in that one block. The arguments are never written.
-/
import proofs.«131481_g28355374088416_cont_9to1_157_9_alg».proof.Proof.KIDat
import Idealize.ShloMosaic.Lib.Pipeline.Frame
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

variable (m : (ℓ : Loc nD τ sig) → Buf (Elt Ideal) ℓ) (ρ : Dev nD → PrngReg)

/-- Before point 0 the scratches hold anything: the invariant's first form. -/
theorem hin (c : Dev nD) : (Pipeline.ΦA (U := UR sig nD τ) spec0 c : sProp 𝕄) ⊢ (dats m 0 c).Φ 0 := by
  unfold Pipeline.ΦA
  rw [scopedRest0_eq, show (dats m 0 c).Φ 0 = Φv m c 0 from rfl]
  unfold Φv scr
  iintro ⟨⟨⟨%fA, HA⟩, ⟨%fD, HD⟩, ⟨%fH, HH⟩, ⟨%fS, HS⟩, ⟨%fC, HC⟩⟩, Hp⟩
  isplitr [Hp]
  · iexists fA; iexists fD; iexists fH; iexists fS; iexists fC
    isplitr; · ipureintro; exact Or.inl rfl
    simp only [owns_whole_eq]
    isplitl [HA]; · iexists fA; isplitr; (· ipureintro; rfl); iexact HA
    isplitl [HD]; · iexists fD; isplitr; (· ipureintro; rfl); iexact HD
    isplitl [HH]; · iexists fH; isplitr; (· ipureintro; rfl); iexact HH
    isplitl [HS]; · iexists fS; isplitr; (· ipureintro; rfl); iexact HS
    iexists fC; isplitr; (· ipureintro; rfl); iexact HC
  · iexact Hp

/-- After the last point the scratches' contents are forgotten. -/
theorem hout (c : Dev nD) : (dats m 0 c).Φ (Fin.last cfg0.N) ⊢ (Pipeline.ΦA (U := UR sig nD τ) spec0 c : sProp 𝕄) := by
  unfold Pipeline.ΦA
  rw [scopedRest0_eq, show (dats m 0 c).Φ (Fin.last cfg0.N) = Φv m c (Fin.last cfg0.N) from rfl]
  unfold Φv scr
  simp only [owns_whole_eq]
  iintro ⟨⟨%sA, %sD, %sH, %sS, %sC, %hinv, ⟨%fA, %eA, HA⟩, ⟨%fD, %eD, HD⟩, ⟨%fH, %eH, HH⟩, ⟨%fS, %eS, HS⟩, ⟨%fC, %eC, HC⟩⟩, Hp⟩
  isplitr [Hp]
  · isplitl [HA]; · iexists fA; iexact HA
    isplitl [HD]; · iexists fD; iexact HD
    isplitl [HH]; · iexists fH; iexact HH
    isplitl [HS]; · iexists fS; iexact HS
    iexists fC; iexact HC
  · iexact Hp

set_option backward.isDefEq.respectTransparency.types false in
/-- The frame run: every weakly fair execution of the program terminates, each windowed array at the library's account
    of it and every other unscoped buffer as the region found it. -/
theorem run_main (hbody : ∀ c, Pipeline.BodyObligation (dats m 0 c) (defs₀ (F := Ideal)) Variants.none () Set.univ) :
    θ_run defs (onTc (τ := τ) (main (F := Ideal))) (s₀ m ρ) (Pipeline.FramePost cfgs (dats m) 0 (Gen.V m)) :=
  Pipeline.θ_run_frame_track cfgs (dats m) 0 Gen.launch0 defs₀ Variants.none m ρ main
    (hbody := fun c => (hbody c).loose) (hshare := fun c => (dats m 0 c).share_full fun _ => rfl)
    (howed := fun _ _ => rfl) (V := Gen.V m) (hmain := Gen.hmain m Variants.none)
    (hA := fun _ _ => rfl) (hin := hin m) (hout := hout m)

/-! ## The result's array after the run -/

/-- The result window's block index is (0, 0) at every point: its one block is the whole array. -/
theorem idx_facts4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- What a point writes back of the result is the specification's array read through the point's block. -/
theorem flushed4_eq (c : Dev nD) (t : Fin cfg0.N) :
    (dats m 0 c).flushed 4 t = ((cfg0.win 4).blk t).view.read (Elt Ideal) (outG m c) := by
  show (cfg0.win 4).cut (grid0.coords t) ((dats m 0 c).after 4 t) = _
  dsimp only [dats]
  obtain ⟨e0, e1⟩ := idx_facts4 t
  funext j
  show outG m c j = outG m c (((cfg0.win 4).blk t).view.emb j)
  refine congrArg (outG m c) ?_
  funext a; apply Fin.ext
  match a with
  | ⟨0, _⟩ => show (j 0).val = win0_4.index t (0 : Fin 2) * 4096 + 1 * (j 0).val; omega
  | ⟨1, _⟩ => show (j 1).val = win0_4.index t (1 : Fin 2) * 128 + 1 * (j 1).val; omega

/-- An index of the result's array is in point `t`'s block iff each coordinate is in the block's range on its axis. -/
theorem mem_blk4 (t : Fin cfg0.N) (i : S4096x128.Idx) :
    i ∈ ((cfg0.win 4).blk t).view.set ↔ ∀ a : Fin 2, win0_4.index t a * S4096x128.size a ≤ (i a).val
      ∧ (i a).val < win0_4.index t a * S4096x128.size a + S4096x128.size a := by
  show i ∈ ((View.whole main_v1).slice (win0_4.rect t)).set ↔ _
  rw [View.set_slice_whole, Rect.mem_set_unit]
  exact Iff.rfl

/-- Every index of the result's array lies in the last point's block, which is written back. -/
theorem cover4 (i : S4096x128.Idx) : ∃ t : Fin cfg0.N, (cfg0.win 4).flush t = true ∧ i ∈ ((cfg0.win 4).blk t).view.set := by
  refine ⟨t0_15, (flush0_4 t0_15).mpr (by decide), (mem_blk4 t0_15 i).mpr fun a => ?_⟩
  obtain ⟨e0, e1⟩ := idx_facts4 t0_15
  match a with
  | ⟨0, _⟩ =>
    show win0_4.index t0_15 (0 : Fin 2) * 4096 ≤ (i 0).val ∧ (i 0).val < win0_4.index t0_15 (0 : Fin 2) * 4096 + 4096
    have h : (i 0).val < 4096 := (i 0).isLt
    omega
  | ⟨1, _⟩ =>
    show win0_4.index t0_15 (1 : Fin 2) * 128 ≤ (i 1).val ∧ (i 1).val < win0_4.index t0_15 (1 : Fin 2) * 128 + 128
    have h : (i 1).val < 128 := (i 1).isLt
    omega

/-- The result's array after the run is the specification's. -/
theorem final4 (c : Dev nD) : (dats m 0 c).arrAt 4 cfg0.N = outG m c :=
  (dats m 0 c).arrAt_eq_of_cover 4 (outG m c) (fun t _ => flushed4_eq m c t) cover4

/-! ## The run, read -/

/-- The run re-posted: the result holds the specification of the arguments, and the arguments are unchanged. -/
theorem run_value (hbody : ∀ c, Pipeline.BodyObligation (dats m 0 c) (defs₀ (F := Ideal)) Variants.none () Set.univ) :
    θ_run defs (onTc (τ := τ) (main (F := Ideal))) ⟨m, fun _ => 0, ρ⟩ (fun r => ∀ c : Dev nD,
      r.2.mem ((c.tc : Thread nD τ).loc main_v1) = outG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 4).trans (final4 m c),
      ((h c).1 1).trans (((dats m 0 c).arrAt_in 1 rfl _).trans (V_main_arg0 m c)),
      ((h c).1 0).trans (((dats m 0 c).arrAt_in 0 rfl _).trans (V_main_arg1 m c)),
      ((h c).1 2).trans (((dats m 0 c).arrAt_in 2 rfl _).trans (V_main_arg2 m c)),
      ((h c).2 main_arg3 (Pipeline.mem_restRefs_of main_arg3 (by decide) (by decide))).trans (V_main_arg3 m c)⟩)
    (run_main m ρ hbody)

end Cert.KernelIdeal.Body

end
-- ==== Proof.RefRead.lean ====
/-
  The reference program read one operation at a time: the generated run and its read-at-an-index lemmas,
  gathered here so that the modules about the reference's value have one import.
-/
import proofs.«131481_g28355374088416_cont_9to1_157_9_alg».proof.Proof.Gen.ReferenceIdeal.Read
-- ==== Proof.RefScalar.lean ====
/-
  The reference's normalising factor, as a function of one degree, is the specification's.

  The reference raises the degree to the power -1/2 and replaces an infinite result by zero; the specification
  takes the reciprocal square root and replaces an infinite result by zero. On a real degree r the two agree:
  for r > 0 both are 1/sqrt r; at r = 0 the power is 0 by convention and the reciprocal square root is +infinity,
  which is replaced by 0; for r < 0 the power is exp(-(log|r|)/2) * cos(-pi/2) = 0 and the reciprocal square root
  is -infinity, whose absolute value is +infinity, so it too is replaced by 0.
-/
import proofs.«131481_g28355374088416_cont_9to1_157_9_alg».proof.Proof.Spec
import Idealize.ShloMosaic.PureOps.Ideal.Laws

noncomputable section

namespace Cert.RefSide

open Idealize.ShloMosaic

/-- The word 0xBF000000 denotes -1/2. -/
theorem ofBits_neg_half : Ideal.ofBits .f32 0xBF000000#32 = ((-(1 / 2) : ℝ) : EReal) := by
  simp [Ideal.ofBits, Ideal.ieee, -EReal.coe_mul]; norm_num

/-- The word 0x7F800000 denotes +infinity. -/
theorem ofBits_inf : Ideal.ofBits .f32 0x7F800000#32 = ⊤ := by
  simp [Ideal.ofBits, Ideal.ieee]

/-- A select on a decided proposition is the `if`. -/
theorem select_ofBool {α : Type} (p : Prop) [Decidable p] (a b : α) :
    Scalar.select (BitVec.ofBool (decide p)) a b = if p then a else b := by
  by_cases h : p <;> simp [Scalar.select, h]

/-- The reference's factor of a degree `s`: `s ^ (-1/2)`, and zero where that is infinite. -/
def rfac (s : EReal) : EReal :=
  Scalar.select
    (FloatOps.cmpf (F := Ideal) (φ := .f32) .oeq
      (FloatOps.hostAbsf (F := Ideal) (φ := .f32)
        (FloatOps.hostPowf (F := Ideal) (φ := .f32) s (FloatOps.ofBits (F := Ideal) .f32 0xBF000000#32)))
      (FloatOps.ofBits (F := Ideal) .f32 0x7F800000#32))
    (FloatOps.ofBits (F := Ideal) .f32 0x00000000#32)
    (FloatOps.hostPowf (F := Ideal) (φ := .f32) s (FloatOps.ofBits (F := Ideal) .f32 0xBF000000#32))

/-- A real to the power -1/2: zero for a real that is not positive, else the reciprocal of the square root. -/
theorem rpow_neg_half (r : ℝ) : Real.rpow r (-(1 / 2)) = if r ≤ 0 then 0 else (Real.sqrt r)⁻¹ := by
  rcases lt_trichotomy r 0 with h | h | h
  · rw [if_pos h.le]
    show r ^ (-(1 / 2) : ℝ) = 0
    rw [Real.rpow_def_of_neg h]
    have : Real.cos (-(1 / 2) * Real.pi) = 0 := by
      rw [show -(1 / 2) * Real.pi = -(Real.pi / 2) by ring, Real.cos_neg, Real.cos_pi_div_two]
    rw [this, mul_zero]
  · subst h
    rw [if_pos le_rfl]
    show (0 : ℝ) ^ (-(1 / 2) : ℝ) = 0
    exact Real.zero_rpow (by norm_num)
  · rw [if_neg (not_le.mpr h)]
    show r ^ (-(1 / 2) : ℝ) = _
    rw [Real.rpow_neg h.le, Real.sqrt_eq_rpow]

/-- The absolute value of a real is not +infinity. -/
theorem max_coe_neg_ne_top (a : ℝ) : max (a : EReal) (-(a : EReal)) ≠ ⊤ := by
  rcases max_choice (a : EReal) (-(a : EReal)) with h | h <;> rw [h]
  · exact EReal.coe_ne_top a
  · rw [← EReal.coe_neg]; exact EReal.coe_ne_top _

/-- The reference's factor of a real degree. -/
theorem rfac_coe (r : ℝ) : rfac (r : EReal) = if r ≤ 0 then 0 else (((Real.sqrt r)⁻¹ : ℝ) : EReal) := by
  unfold rfac
  rw [Ideal.hostPowf_def, Ideal.ofBits_def, Ideal.ofBits_def, Ideal.ofBits_def, ofBits_neg_half, ofBits_inf,
    Ideal.ofBits_zero_f32, Ideal.pow_coe_coe, Ideal.hostAbsf_def, Ideal.absf_def, Ideal.cmpf_def]
  show Scalar.select (BitVec.ofBool (decide (_ = _))) _ _ = _
  rw [select_ofBool, if_neg (max_coe_neg_ne_top _), rpow_neg_half]
  split_ifs <;> simp

/-- The specification's factor of a real degree. -/
theorem isr_coe (r : ℝ) : Cert.Spec.isr (r : EReal) = if r ≤ 0 then 0 else (((Real.sqrt r)⁻¹ : ℝ) : EReal) := by
  unfold Cert.Spec.isr
  have hs : ∀ b : BitVec 32, Scalar.ofBits (F := Ideal) .f32 b = Ideal.ofBits .f32 b := fun _ => rfl
  rw [hs, hs, ofBits_inf, Ideal.ofBits_zero_f32, Ideal.rsqrt_def, Ideal.rsqrt_coe, Ideal.absf_def, Ideal.cmpf_def]
  show Scalar.select (BitVec.ofBool (decide (_ = _))) _ _ = _
  rw [select_ofBool]
  rcases lt_trichotomy r 0 with h | h | h
  · rw [if_pos h, if_pos h.le, if_pos (by simp)]
  · subst h
    rw [if_neg (lt_irrefl _), if_pos rfl, if_pos le_rfl, if_pos (by simp)]
  · rw [if_neg (not_lt.mpr h.le), if_neg h.ne', if_neg (not_le.mpr h), if_neg (max_coe_neg_ne_top _)]

/-- On every real degree the reference's factor is the specification's. -/
theorem rfac_eq_isr (r : ℝ) : rfac (r : EReal) = Cert.Spec.isr (r : EReal) := by
  rw [rfac_coe, isr_coe]

/-- The factor of a real degree is a real. -/
theorem isr_coe_real (r : ℝ) : ∃ d : ℝ, Cert.Spec.isr (r : EReal) = (d : EReal) := by
  rw [isr_coe]
  split_ifs
  · exact ⟨0, rfl⟩
  · exact ⟨_, rfl⟩

end Cert.RefSide

end
-- ==== Proof.RefIndex.lean ====
/-
  The reference read at one index.

  Each stage of the reference is read at an index built from literal coordinates: the row sums and the factor at a
  row r; the normalised adjacency at (r, k), which is the entry times the factor of its row times the factor of its
  column; the features times the weights at (k, j); and the result at (r, j), the sum over k of the normalised
  adjacency times the weighted features, plus the bias at j.
-/
import proofs.«131481_g28355374088416_cont_9to1_157_9_alg».proof.Proof.RefRead
import proofs.«131481_g28355374088416_cont_9to1_157_9_alg».proof.Proof.RefScalar
import Idealize.ShloMosaic.Lib.ValueIdx

noncomputable section

namespace Cert.RefSide

open scoped BigOperators
open Idealize.ShloMosaic Idealize.ShloMosaic.ValueIdx Cert.ReferenceIdeal Cert.ReferenceIdeal.Read

/-! ## The stages' index maps at literal coordinates -/

theorem idx_rowsum (r k : Fin 4096) : idx_main_v0 (ix1 r) k = ix2 r k :=
  funext fun a => Fin.ext (by match a with | ⟨0, _⟩ => rfl | ⟨1, _⟩ => rfl)

theorem idx_rowfac (r k : Fin 4096) : idx_main_v5 (idx_main_v6 (ix2 r k)) = ix1 r :=
  funext fun a => Fin.ext (by match a with | ⟨0, _⟩ => show r.val * 1 + 0 = r.val; omega)

theorem idx_colfac (r k : Fin 4096) : idx_main_v8 (idx_main_v9 (ix2 r k)) = ix1 k :=
  funext fun a => Fin.ext (by match a with | ⟨0, _⟩ => show 0 * 4096 + k.val = k.val; omega)

theorem lidx_feat (k : Fin 4096) (j l : Fin 128) : lidx_main_v11 (ix2 k j) l = ix2 k l :=
  funext fun a => Fin.ext (by match a with | ⟨0, _⟩ => rfl | ⟨1, _⟩ => rfl)

theorem ridx_feat (k : Fin 4096) (j l : Fin 128) : ridx_main_v11 (ix2 k j) l = ix2 l j :=
  funext fun a => Fin.ext (by match a with | ⟨0, _⟩ => rfl | ⟨1, _⟩ => rfl)

theorem lidx_prod (r : Fin 4096) (j : Fin 128) (k : Fin 4096) : lidx_main_v12 (ix2 r j) k = ix2 r k :=
  funext fun a => Fin.ext (by match a with | ⟨0, _⟩ => rfl | ⟨1, _⟩ => rfl)

theorem ridx_prod (r : Fin 4096) (j : Fin 128) (k : Fin 4096) : ridx_main_v12 (ix2 r j) k = ix2 k j :=
  funext fun a => Fin.ext (by match a with | ⟨0, _⟩ => rfl | ⟨1, _⟩ => rfl)

theorem idx_bias (r : Fin 4096) (j : Fin 128) : idx_main_v13 (idx_main_v14 (ix2 r j)) = ix1 j :=
  funext fun a => Fin.ext (by match a with | ⟨0, _⟩ => rfl)

/-! ## The stages at an index -/

/-- The reference's factor of row `r`: the scalar function `rfac` of the zero word plus the row's sum. -/
theorem fac_apply (A : (⟨S4096x4096, .f32⟩ : BufTy).Contents (Elt Ideal)) (r : Fin 4096) :
    val_main_v4 (F := Ideal) A (ix1 r)
      = rfac (FloatOps.ofBits (F := Ideal) .f32 0x00000000#32 + ∑ k : Fin 4096, A (ix2 r k)) := by
  rw [val_main_v4_apply, val_main_v3_apply, val_main_call0_v0_apply, val_main_v2_apply, val_main_call0_v1_apply,
    val_main_call0_cst_apply, val_main_call1_v1_apply, val_main_call1_v0_apply, val_main_cst_1_apply, val_main_v1_apply,
    val_main_cst_0_apply, val_main_v0_apply, val_main_cst_apply]
  have e : ∑ k : Fin 4096, A (idx_main_v0 (ix1 r) k) = ∑ k : Fin 4096, A (ix2 r k) :=
    Finset.sum_congr rfl fun k _ => congrArg A (idx_rowsum r k)
  rw [e]
  rfl

/-- The normalised adjacency at `(r, k)`: the entry times the row's factor times the column's. -/
theorem adj_apply (A : (⟨S4096x4096, .f32⟩ : BufTy).Contents (Elt Ideal)) (r k : Fin 4096) :
    val_main_v10 (F := Ideal) A (ix2 r k)
      = (A (ix2 r k) * val_main_v4 (F := Ideal) A (ix1 r)) * val_main_v4 (F := Ideal) A (ix1 k) := by
  rw [val_main_v10_apply, val_main_v7_apply, val_main_v6_apply, val_main_v5_apply, val_main_v9_apply, val_main_v8_apply,
    idx_rowfac, idx_colfac]
  rfl

/-- The features times the weights at `(k, j)`. -/
theorem feat_apply (X : (⟨S4096x128, .f32⟩ : BufTy).Contents (Elt Ideal)) (W : (⟨S128x128, .f32⟩ : BufTy).Contents (Elt Ideal))
    (k : Fin 4096) (j : Fin 128) :
    val_main_v11 (F := Ideal) X W (ix2 k j) = ∑ l : Fin 128, X (ix2 k l) * W (ix2 l j) := by
  rw [val_main_v11_apply]
  exact Finset.sum_congr rfl fun l _ => congrArg₂ (· * ·) (congrArg X (lidx_feat k j l)) (congrArg W (ridx_feat k j l))

/-- The reference's result at `(r, j)`. -/
theorem out_apply (X : (⟨S4096x128, .f32⟩ : BufTy).Contents (Elt Ideal)) (A : (⟨S4096x4096, .f32⟩ : BufTy).Contents (Elt Ideal))
    (W : (⟨S128x128, .f32⟩ : BufTy).Contents (Elt Ideal)) (b : (⟨S128, .f32⟩ : BufTy).Contents (Elt Ideal))
    (r : Fin 4096) (j : Fin 128) :
    val_main_v15 (F := Ideal) X A W b (ix2 r j)
      = (∑ k : Fin 4096, ((A (ix2 r k) * val_main_v4 (F := Ideal) A (ix1 r)) * val_main_v4 (F := Ideal) A (ix1 k))
            * ∑ l : Fin 128, X (ix2 k l) * W (ix2 l j))
        + b (ix1 j) := by
  rw [val_main_v15_apply, val_main_v14_apply, val_main_v13_apply, idx_bias, val_main_v12_apply]
  have e : ∑ k : Fin 4096, val_main_v10 (F := Ideal) A (lidx_main_v12 (ix2 r j) k) * val_main_v11 (F := Ideal) X W (ridx_main_v12 (ix2 r j) k)
      = ∑ k : Fin 4096, ((A (ix2 r k) * val_main_v4 (F := Ideal) A (ix1 r)) * val_main_v4 (F := Ideal) A (ix1 k))
            * ∑ l : Fin 128, X (ix2 k l) * W (ix2 l j) :=
    Finset.sum_congr rfl fun k _ => by rw [lidx_prod, ridx_prod, adj_apply, feat_apply]
  rw [e]
  rfl

end Cert.RefSide

end
-- ==== Proof.RefAlgebra.lean ====
/-
  The algebra that joins the reference's arrangement to the specification's, over the extended reals with every
  factor real.

  The reference scales the adjacency entry by the row's factor and then by the column's, and sums against the
  feature row:   sum_k ((a k * dr) * d k) * h k .   The specification scales the feature row by the column's factor,
  sums against the adjacency row, and multiplies the sum by the row's factor:   dr * sum_k a k * (d k * h k) .
  With real factors the two are equal, by distributivity (which fails at infinities, hence the hypotheses).
-/
import Idealize.ShloMosaic.PureOps.Ideal

noncomputable section

namespace Cert.RefSide

open scoped BigOperators

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is a real. -/
theorem sum_real {ι : Type*} [Fintype ι] (f : ι → EReal) (hf : ∀ i, ∃ x : ℝ, f i = (x : EReal)) :
    ∃ x : ℝ, ∑ i, f i = (x : EReal) := by
  choose g hg using hf
  exact ⟨∑ i, g i, by rw [coe_sum]; exact Finset.sum_congr rfl fun i _ => hg i⟩

/-- A product of two reals is a real. -/
theorem mul_real {a b : EReal} (ha : ∃ x : ℝ, a = (x : EReal)) (hb : ∃ x : ℝ, b = (x : EReal)) :
    ∃ x : ℝ, a * b = (x : EReal) := by
  obtain ⟨x, rfl⟩ := ha
  obtain ⟨y, rfl⟩ := hb
  exact ⟨x * y, (EReal.coe_mul x y).symm⟩

/-- A finite sum of products of reals is a real. -/
theorem sum_mul_real {ι : Type*} [Fintype ι] (f g : ι → EReal) (hf : ∀ i, ∃ x : ℝ, f i = (x : EReal))
    (hg : ∀ i, ∃ x : ℝ, g i = (x : EReal)) : ∃ x : ℝ, ∑ i, f i * g i = (x : EReal) :=
  sum_real _ fun i => mul_real (hf i) (hg i)

/-- The two arrangements of the normalised sum agree when every factor is real. -/
theorem scaled_sum_eq {K : Type*} [Fintype K] (a d h : K → EReal) (dr b : EReal)
    (ha : ∀ k, ∃ x : ℝ, a k = (x : EReal)) (hd : ∀ k, ∃ x : ℝ, d k = (x : EReal))
    (hh : ∀ k, ∃ x : ℝ, h k = (x : EReal)) (hdr : ∃ x : ℝ, dr = (x : EReal)) :
    (∑ k, ((a k * dr) * d k) * h k) + b = dr * (∑ k, a k * (d k * h k)) + b := by
  choose a' ha using ha
  choose d' hd using hd
  choose h' hh using hh
  obtain ⟨r, rfl⟩ := hdr
  refine congrArg (· + b) ?_
  have e1 : ∀ k, ((a k * (r : EReal)) * d k) * h k = (((a' k * r) * d' k * h' k : ℝ) : EReal) := fun k => by
    rw [ha, hd, hh, EReal.coe_mul, EReal.coe_mul, EReal.coe_mul]
  have e2 : ∀ k, a k * (d k * h k) = ((a' k * (d' k * h' k) : ℝ) : EReal) := fun k => by
    rw [ha, hd, hh, EReal.coe_mul, EReal.coe_mul]
  rw [Finset.sum_congr rfl fun k _ => e1 k, Finset.sum_congr rfl fun k _ => e2 k, ← coe_sum, ← coe_sum, ← EReal.coe_mul]
  refine congrArg _ ?_
  rw [Finset.mul_sum]
  exact Finset.sum_congr rfl fun k _ => by ring

end Cert.RefSide

end
-- ==== Proof.RefSpec.lean ====
/-
  The reference's result is the specification, entry by entry, when every entry of the adjacency, of the features
  and of the weights is a real.

  A row's degree is then a real (a finite sum of reals), so the reference's factor of the row — the degree to the
  power -1/2, with infinities replaced by zero — is the specification's (the scalar lemma), and it is a real. The
  reference multiplies each adjacency entry by its row's factor and by its column's and sums against the weighted
  features; the specification scales the weighted features by the column's factor, sums against the adjacency row
  and multiplies by the row's factor. Every factor being real, the two sums are equal by distributivity. The bias
  is added last on both sides and needs no hypothesis.
-/
import proofs.«131481_g28355374088416_cont_9to1_157_9_alg».proof.Proof.RefIndex
import proofs.«131481_g28355374088416_cont_9to1_157_9_alg».proof.Proof.RefAlgebra

noncomputable section

namespace Cert.RefSide

open scoped BigOperators
open Idealize.ShloMosaic Idealize.ShloMosaic.ValueIdx Cert.ReferenceIdeal Cert.ReferenceIdeal.Read

/-- A row's degree is a real when the adjacency's entries are. -/
theorem deg_real (A : (⟨S4096x4096, .f32⟩ : BufTy).Contents (Elt Ideal)) (hA : ∀ i, ∃ x : ℝ, A i = (x : EReal))
    (r : Fin 4096) : ∃ s : ℝ, Cert.Spec.deg (fun r k => A (ix2 r k)) r = (s : EReal) :=
  sum_real (fun k : Fin 4096 => A (ix2 r k)) fun k => hA (ix2 r k)

/-- The specification's factor of a row is then a real. -/
theorem dinv_real (A : (⟨S4096x4096, .f32⟩ : BufTy).Contents (Elt Ideal)) (hA : ∀ i, ∃ x : ℝ, A i = (x : EReal))
    (r : Fin 4096) : ∃ d : ℝ, Cert.Spec.dinv (fun r k => A (ix2 r k)) r = (d : EReal) := by
  obtain ⟨s, hs⟩ := deg_real A hA r
  unfold Cert.Spec.dinv
  rw [hs]
  exact isr_coe_real s

/-- The reference's factor of a row is the specification's. -/
theorem fac_eq_dinv (A : (⟨S4096x4096, .f32⟩ : BufTy).Contents (Elt Ideal)) (hA : ∀ i, ∃ x : ℝ, A i = (x : EReal))
    (r : Fin 4096) : val_main_v4 (F := Ideal) A (ix1 r) = Cert.Spec.dinv (fun r k => A (ix2 r k)) r := by
  obtain ⟨s, hs⟩ := deg_real A hA r
  rw [fac_apply]
  show rfac (Ideal.ofBits .f32 0x00000000#32 + Cert.Spec.deg (fun r k => A (ix2 r k)) r)
    = Cert.Spec.isr (Cert.Spec.deg (fun r k => A (ix2 r k)) r)
  rw [Ideal.ofBits_zero_f32, zero_add, hs, rfac_eq_isr]

/-- The reference's result at `(r, j)` is the specification's. -/
theorem ref_eq_spec (a0 : (⟨S4096x128, .f32⟩ : BufTy).Contents (Elt Ideal)) (a1 : (⟨S4096x4096, .f32⟩ : BufTy).Contents (Elt Ideal))
    (a2 : (⟨S128x128, .f32⟩ : BufTy).Contents (Elt Ideal)) (a3 : (⟨S128, .f32⟩ : BufTy).Contents (Elt Ideal))
    (h0 : ∀ i, ∃ x : ℝ, a0 i = (x : EReal)) (h1 : ∀ i, ∃ x : ℝ, a1 i = (x : EReal)) (h2 : ∀ i, ∃ x : ℝ, a2 i = (x : EReal))
    (r : Fin 4096) (j : Fin 128) :
    val_main_v15 (F := Ideal) a0 a1 a2 a3 (ix2 r j)
      = Cert.Spec.out (fun r k => a1 (ix2 r k)) (fun r k => a0 (ix2 r k)) (fun k j => a2 (ix2 k j)) (fun j => a3 (ix1 j)) r j := by
  rw [out_apply]
  have e : (∑ k : Fin 4096, ((a1 (ix2 r k) * val_main_v4 (F := Ideal) a1 (ix1 r)) * val_main_v4 (F := Ideal) a1 (ix1 k))
              * ∑ l : Fin 128, a0 (ix2 k l) * a2 (ix2 l j))
      = ∑ k : Fin 4096, ((a1 (ix2 r k) * Cert.Spec.dinv (fun r k => a1 (ix2 r k)) r) * Cert.Spec.dinv (fun r k => a1 (ix2 r k)) k)
              * ∑ l : Fin 128, a0 (ix2 k l) * a2 (ix2 l j) :=
    Finset.sum_congr rfl fun k _ => by rw [fac_eq_dinv a1 h1 r, fac_eq_dinv a1 h1 k]
  rw [e]
  exact scaled_sum_eq (fun k : Fin 4096 => a1 (ix2 r k)) (fun k => Cert.Spec.dinv (fun r k => a1 (ix2 r k)) k)
    (fun k => ∑ l : Fin 128, a0 (ix2 k l) * a2 (ix2 l j)) (Cert.Spec.dinv (fun r k => a1 (ix2 r k)) r) (a3 (ix1 j))
    (fun k => h1 (ix2 r k)) (fun k => dinv_real a1 h1 k)
    (fun k => sum_mul_real (fun l : Fin 128 => a0 (ix2 k l)) (fun l => a2 (ix2 l j)) (fun l => h0 (ix2 k l)) (fun l => h2 (ix2 l j)))
    (dinv_real a1 h1 r)

/-- The same for the whole array: the reference's last stage is the specification read at each index's coordinates. -/
theorem ref_eq_spec_fun (a0 : (⟨S4096x128, .f32⟩ : BufTy).Contents (Elt Ideal)) (a1 : (⟨S4096x4096, .f32⟩ : BufTy).Contents (Elt Ideal))
    (a2 : (⟨S128x128, .f32⟩ : BufTy).Contents (Elt Ideal)) (a3 : (⟨S128, .f32⟩ : BufTy).Contents (Elt Ideal))
    (h0 : ∀ i, ∃ x : ℝ, a0 i = (x : EReal)) (h1 : ∀ i, ∃ x : ℝ, a1 i = (x : EReal)) (h2 : ∀ i, ∃ x : ℝ, a2 i = (x : EReal)) :
    val_main_v15 (F := Ideal) a0 a1 a2 a3
      = fun i : S4096x128.Idx => Cert.Spec.out (fun r k => a1 (ix2 r k)) (fun r k => a0 (ix2 r k)) (fun k j => a2 (ix2 k j))
          (fun j => a3 (ix1 j)) (i 0) (i 1) := by
  funext i
  obtain ⟨r, j, rfl⟩ : ∃ (r : Fin 4096) (j : Fin 128), i = ix2 r j := ⟨i 0, i 1, eq_ix2 i⟩
  exact ref_eq_spec a0 a1 a2 a3 h0 h1 h2 r j

end Cert.RefSide

end
-- ==== Proof.RefPre.lean ====
/-
  From the precondition to real entries.

  The precondition says, of each of the four argument arrays, that every entry's absolute value is below
  +infinity: a conjunction of four "for all entries" tests, each printed as a reduction by `and` over the array of
  the entrywise comparisons. A reduction by `and` that is 1 met a 1 at every entry; an entry whose absolute value is
  below +infinity is neither +infinity nor -infinity (whose absolute value is +infinity), so it is a real.
-/
import proofs.«131481_g28355374088416_cont_9to1_157_9_alg».proof.Proof.Gen.Pre_finite_inputs
import proofs.«131481_g28355374088416_cont_9to1_157_9_alg».proof.Proof.RefScalar
import Idealize.ShloMosaic.Lib.ReduceAll
import Idealize.ShloMosaic.Lib.ValueIdx
import Idealize.ShloMosaic.Lib.Pipeline.Value

noncomputable section

namespace Cert.RefSide

open Idealize.ShloMosaic Idealize.ShloMosaic.ValueIdx

/-- The scalar shape has one index. -/
instance : Subsingleton Cert.Pre_finite_inputs.S_.Idx := ⟨fun a b => funext fun d => d.elim0⟩

/-- An extended real whose absolute value is below +infinity is a real. -/
theorem real_of_abs_lt_top (x : EReal) (h : max x (-x) < ⊤) : ∃ r : ℝ, x = (r : EReal) := by
  induction x using EReal.rec with
  | bot => simp at h
  | top => simp at h
  | coe r => exact ⟨r, rfl⟩

/-- One array: if the reduction by `and` of "|entry| < +infinity" over all its entries is 1, every entry is a real. -/
theorem all_lt_inf_real {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel) (a : FVec Ideal s .f32)
    (h : Host.reduce IntOp.andi (cmpf .olt (Host.absf a) (broadcastInDim s ![] hb (constant (F := Ideal) Cert.Pre_finite_inputs.S_ .f32 0x7F800000#32)))
        (constantI Cert.Pre_finite_inputs.S_ 1 1#1) hr hu ix0 = 1#1)
    (i : s.Idx) : ∃ x : ℝ, a i = (x : EReal) := by
  have e := Host.reduce_andi_all _ _ hr hu ix0 h i
  have hbc : broadcastInDim s ![] hb (constant (F := Ideal) Cert.Pre_finite_inputs.S_ .f32 0x7F800000#32) i = Ideal.ofBits .f32 0x7F800000#32 :=
    broadcastInDim_apply _ hb _ i ix0 (fun a => a.elim0)
  change FloatOps.cmpf (F := Ideal) (φ := .f32) .olt (FloatOps.hostAbsf (a i)) (broadcastInDim s ![] hb (constant (F := Ideal) Cert.Pre_finite_inputs.S_ .f32 0x7F800000#32) i) = 1#1 at e
  rw [hbc, ofBits_inf, Ideal.cmpf_def, Ideal.hostAbsf_def, Ideal.absf_def] at e
  refine real_of_abs_lt_top _ ?_
  by_contra hn
  rw [show Ideal.cmp .olt (max (a i) (-(a i))) ⊤ = BitVec.ofBool (decide (max (a i) (-(a i)) < ⊤)) from rfl, decide_eq_false hn] at e
  exact absurd e (by decide)

/-- The precondition gives that every entry of each argument array is a real. -/
theorem reals_of_pre [Cert.Pre_finite_inputs.Facts]
    (a0 : FVec Ideal Cert.Pre_finite_inputs.S4096x128 .f32) (a1 : FVec Ideal Cert.Pre_finite_inputs.S4096x4096 .f32)
    (a2 : FVec Ideal Cert.Pre_finite_inputs.S128x128 .f32) (a3 : FVec Ideal Cert.Pre_finite_inputs.S128 .f32)
    (h : Cert.Pre_finite_inputs.fn (F := Ideal) a0 a1 a2 a3 = fun _ => 1#1) :
    (∀ i, ∃ x : ℝ, a0 i = (x : EReal)) ∧ (∀ i, ∃ x : ℝ, a1 i = (x : EReal)) ∧ (∀ i, ∃ x : ℝ, a2 i = (x : EReal))
      ∧ (∀ i, ∃ x : ℝ, a3 i = (x : EReal)) := by
  have h1 := congrFun h ix0
  dsimp only [Cert.Pre_finite_inputs.fn, Cert.Pre_finite_inputs.fn_part1] at h1
  obtain ⟨h012, h3⟩ := IntOp.andi_eq_one.1 h1
  obtain ⟨h01, h2⟩ := IntOp.andi_eq_one.1 h012
  obtain ⟨h0, h1'⟩ := IntOp.andi_eq_one.1 h01
  exact ⟨all_lt_inf_real _ _ _ a0 h0, all_lt_inf_real _ _ _ a1 h1', all_lt_inf_real _ _ _ a2 h2,
    all_lt_inf_real _ _ _ a3 h3⟩

end Cert.RefSide

end
-- ==== Proof.RefRun.lean ====
/-
  The reference's run, with its result stated as the specification.

  Under the precondition every entry of the arguments is a real, so the generated run's result term — the reference's
  last stage — is the specification read at each index's coordinates; the arguments are unchanged.
-/
import proofs.«131481_g28355374088416_cont_9to1_157_9_alg».proof.Proof.RefSpec
import proofs.«131481_g28355374088416_cont_9to1_157_9_alg».proof.Proof.RefPre

noncomputable section

namespace Cert.RefSide

open Idealize.ShloMosaic Idealize.ShloMosaic.ValueIdx Idealize.SL.Sem Cert.ReferenceIdeal Cert.ReferenceIdeal.Read

/-- The reference runs, ends with the specification of its arguments in its result, and leaves the arguments unchanged. -/
theorem run_spec [Cert.Pre_finite_inputs.Facts] (m : (ℓ : Loc nD τ sig) → Buf (Elt Ideal) ℓ) (ρ : Dev nD → PrngReg)
    (hpre : ∀ c : Dev nD, Cert.Pre_finite_inputs.fn (F := Ideal) (m ((c.tc : Thread nD τ).loc main_arg0))
        (m ((c.tc : Thread nD τ).loc main_arg1)) (m ((c.tc : Thread nD τ).loc main_arg2)) (m ((c.tc : Thread nD τ).loc main_arg3))
      = fun _ => 1#1) :
    θ_run (defs (F := Ideal)) (onTc (τ := τ) (main (F := Ideal))) ⟨m, fun _ => 0, ρ⟩ fun r => ∀ c : Dev nD,
      r.2.mem ((c.tc : Thread nD τ).loc main_v15)
          = (fun i : S4096x128.Idx => Cert.Spec.out (fun r k => m ((c.tc : Thread nD τ).loc main_arg1) (ix2 r k))
              (fun r k => m ((c.tc : Thread nD τ).loc main_arg0) (ix2 r k)) (fun k j => m ((c.tc : Thread nD τ).loc main_arg2) (ix2 k j))
              (fun j => m ((c.tc : Thread nD τ).loc main_arg3) (ix1 j)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
      obtain ⟨h0, h1, h2, _⟩ := reals_of_pre _ _ _ _ (hpre c)
      refine ⟨?_, (h c).2⟩
      rw [(h c).1, val_main_v15_eq]
      exact ref_eq_spec_fun _ _ _ _ h0 h1 h2)
    (Cert.ReferenceIdeal.Value.run (F := Ideal) m ρ)

/-- The same, with the arguments named: when the launch memory holds the arrays `b0 … b3` in the arguments (for
    instance another program's argument arrays, which the memories agree on) and these satisfy the precondition, the
    result is the specification of `b0 … b3`. -/
theorem run_spec_of_agree [Cert.Pre_finite_inputs.Facts] (m : (ℓ : Loc nD τ sig) → Buf (Elt Ideal) ℓ) (ρ : Dev nD → PrngReg)
    (b0 : Dev nD → (⟨S4096x128, .f32⟩ : BufTy).Contents (Elt Ideal)) (b1 : Dev nD → (⟨S4096x4096, .f32⟩ : BufTy).Contents (Elt Ideal))
    (b2 : Dev nD → (⟨S128x128, .f32⟩ : BufTy).Contents (Elt Ideal)) (b3 : Dev nD → (⟨S128, .f32⟩ : BufTy).Contents (Elt Ideal))
    (hb : ∀ c : Dev nD, m ((c.tc : Thread nD τ).loc main_arg0) = b0 c ∧ m ((c.tc : Thread nD τ).loc main_arg1) = b1 c
      ∧ m ((c.tc : Thread nD τ).loc main_arg2) = b2 c ∧ m ((c.tc : Thread nD τ).loc main_arg3) = b3 c)
    (hpre : ∀ c : Dev nD, Cert.Pre_finite_inputs.fn (F := Ideal) (b0 c) (b1 c) (b2 c) (b3 c) = fun _ => 1#1) :
    θ_run (defs (F := Ideal)) (onTc (τ := τ) (main (F := Ideal))) ⟨m, fun _ => 0, ρ⟩ fun r => ∀ c : Dev nD,
      r.2.mem ((c.tc : Thread nD τ).loc main_v15)
          = (fun i : S4096x128.Idx => Cert.Spec.out (fun r k => b1 c (ix2 r k)) (fun r k => b0 c (ix2 r k))
              (fun k j => b2 c (ix2 k j)) (fun j => b3 c (ix1 j)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
      obtain ⟨e, rest⟩ := h c
      refine ⟨?_, rest⟩
      rw [e, (hb c).1, (hb c).2.1, (hb c).2.2.1, (hb c).2.2.2])
    (run_spec m ρ fun c => by rw [(hb c).1, (hb c).2.1, (hb c).2.2.1, (hb c).2.2.2]; exact hpre c)

end Cert.RefSide

end
-- ==== Proof.KIClaims.lean ====
/-
  The conjuncts of the claim that concern the idealized kernel and the reference, given the kernel body's obligation.

  The idealized kernel runs and leaves its arguments unchanged (the frame); so does the reference; and from memories that
  agree on the arguments the two end with equal results: the kernel's result is the specification of its arguments, and
  the reference's result is the specification of its own arguments, which are the kernel's.
-/
import proofs.«131481_g28355374088416_cont_9to1_157_9_alg».proof.Defs
import proofs.«131481_g28355374088416_cont_9to1_157_9_alg».proof.Proof.KIAsm
import proofs.«131481_g28355374088416_cont_9to1_157_9_alg».proof.Proof.RefRun

noncomputable section

namespace Cert.Assembly

open Idealize.ShloMosaic Idealize.ShloMosaic.ValueIdx Idealize.SL.Sem
open Cert.KernelIdeal.Body (dats outG run_value)

/-- The idealized kernel's frame, given the body's obligation under the precondition. -/
theorem frame_KI [hKernelIdeal : Cert.KernelIdeal.Facts] [hPre_finite_inputs : Cert.Pre_finite_inputs.Facts]
    (hbody : ∀ (m : (ℓ : Loc Cert.KernelIdeal.nD Cert.KernelIdeal.τ Cert.KernelIdeal.sig) → Buf (Elt Ideal) ℓ), Cert.Pre_KernelIdeal m →
      ∀ c, Pipeline.BodyObligation (dats m 0 c) (Cert.KernelIdeal.defs₀ (F := Ideal)) Variants.none () Set.univ) :
    Cert.frame_KernelIdeal :=
  fun m g hpre => (θ_run Cert.KernelIdeal.defs _ _).mono (fun _ h c => (h c).2) (run_value m g (hbody m hpre))

/-- The reference's frame. -/
theorem frame_Ref [hReferenceIdeal : Cert.ReferenceIdeal.Facts] [hPre_finite_inputs : Cert.Pre_finite_inputs.Facts] :
    Cert.frame_ReferenceIdeal :=
  fun m g hpre => (θ_run Cert.ReferenceIdeal.defs _ _).mono (fun _ h c => (h c).2) (Cert.RefSide.run_spec m g hpre)

/-- The two programs end with equal results: both hold the specification of the kernel's arguments. -/
theorem algebraic [hKernelIdeal : Cert.KernelIdeal.Facts] [hReferenceIdeal : Cert.ReferenceIdeal.Facts] [hPre_finite_inputs : Cert.Pre_finite_inputs.Facts]
    (hbody : ∀ (m : (ℓ : Loc Cert.KernelIdeal.nD Cert.KernelIdeal.τ Cert.KernelIdeal.sig) → Buf (Elt Ideal) ℓ), Cert.Pre_KernelIdeal m →
      ∀ c, Pipeline.BodyObligation (dats m 0 c) (Cert.KernelIdeal.defs₀ (F := Ideal)) Variants.none () Set.univ) :
    Cert.algebraic_KernelIdeal_ReferenceIdeal :=
  fun m g m' g' hpre hagree => ⟨fun c => outG m c, run_value m g (hbody m hpre),
    Cert.RefSide.run_spec_of_agree m' g'
      (fun c => m ((c.tc : Thread Cert.KernelIdeal.nD Cert.KernelIdeal.τ).loc Cert.KernelIdeal.main_arg0))
      (fun c => m ((c.tc : Thread Cert.KernelIdeal.nD Cert.KernelIdeal.τ).loc Cert.KernelIdeal.main_arg1))
      (fun c => m ((c.tc : Thread Cert.KernelIdeal.nD Cert.KernelIdeal.τ).loc Cert.KernelIdeal.main_arg2))
      (fun c => m ((c.tc : Thread Cert.KernelIdeal.nD Cert.KernelIdeal.τ).loc Cert.KernelIdeal.main_arg3))
      hagree hpre⟩

end Cert.Assembly

end
-- ==== Proof.lean ====
/-
  A graph-convolution layer on a dense weighted adjacency: the kernel against its reference, over the extended reals.

  For an adjacency `A` (4096 x 4096), features `X`, weights `W` and a bias `b`, both programs compute
  `D^{-1/2} A D^{-1/2} (X W) + b`, where `D` holds the row sums of `A` and an infinite inverse square root is replaced by
  zero. The reference normalises the adjacency entry by entry and multiplies once. The kernel streams the adjacency by
  sixteen blocks of 256 rows and never forms the normalised matrix: it takes the row's factor out of the sum,
  `dinv r · ∑ k, A r k · (dinv k · (X W) k) + b`, and accumulates the inner sum by a triangular schedule — at block `t` every
  earlier row block receives the tile of block column `t`, and block `t`'s own rows are assigned their whole partial sum
  through block `t` at once (the scaled features of the blocks not yet seen being zero). After the last block every row
  holds its full sum.

  The proof: the specification (Spec); the mathematics of one step of the schedule and its invariant (StepMath); the
  kernel body run at a first, a middle and the last grid point, what each leaves in the five scratch buffers read by
  coordinates, and that each step carries the invariant; the pipeline's launch and the result array as the specification of
  the arguments; the reference read one operation at a time as the same specification, where finiteness of the inputs
  lets the row's factor move across the sum and makes `rsqrt` (infinities replaced) and `x ^ (-1/2)` (infinities
  replaced) the same function of a real degree; and the word-level kernel's frame, which needs no value at all.
-/
import proofs.«131481_g28355374088416_cont_9to1_157_9_alg».proof.Defs
import proofs.«131481_g28355374088416_cont_9to1_157_9_alg».proof.Proof.Gen.Kernel
import proofs.«131481_g28355374088416_cont_9to1_157_9_alg».proof.Proof.Gen.KernelIdeal
import proofs.«131481_g28355374088416_cont_9to1_157_9_alg».proof.Proof.Gen.ReferenceIdeal
import proofs.«131481_g28355374088416_cont_9to1_157_9_alg».proof.Proof.Gen.Pre_finite_inputs
import proofs.«131481_g28355374088416_cont_9to1_157_9_alg».proof.Proof.KFrame
import proofs.«131481_g28355374088416_cont_9to1_157_9_alg».proof.Proof.KIBody
import proofs.«131481_g28355374088416_cont_9to1_157_9_alg».proof.Proof.KIClaims
import Idealize.ShloMosaic.Adequacy
import Idealize.ShloMosaic.Init

noncomputable section

namespace Cert.Proof

open Idealize.ShloMosaic Idealize.SL.Sem

/-- The five conjuncts: the word-level kernel's frame; the idealized kernel's and the reference's frames; the
    idealization rewrote nothing; and the two idealized programs end with equal results. -/
theorem claim : Cert.Claim :=
  ⟨Cert.Kernel.Gen.facts, Cert.KernelIdeal.Gen.facts, Cert.ReferenceIdeal.Gen.facts, Cert.Pre_finite_inputs.Gen.facts,
    fun m g _ => Cert.Kernel.Body.frame (F := Bits) m g,
    Cert.Assembly.frame_KI (fun m _ => Cert.KernelIdeal.Body.body_obligation m),
    Cert.Assembly.frame_Ref,
    trivial,
    Cert.Assembly.algebraic (fun m _ => Cert.KernelIdeal.Body.body_obligation m)⟩

end Cert.Proof

end
